-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S8x4096x1024 : Shape := ⟨3, ![8, 4096, 1024]⟩
abbrev S8x4096 : Shape := ⟨2, ![8, 4096]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S8x4096x1024 : S_.BroadcastsInDim S8x4096x1024 (![] : Fin 0 → Fin S8x4096x1024.rank)
  reducesTo_S8x4096x1024_S_d0_1_2 : S8x4096x1024.ReducesTo [0, 1, 2] S_
  bcast_S_S8x4096 : S_.BroadcastsInDim S8x4096 (![] : Fin 0 → Fin S8x4096.rank)
  reducesTo_S8x4096_S_d0_1 : S8x4096.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4096x1024 .f32) (main_arg1 : FVec F S8x4096x1024 .f32) (main_arg2 : FVec F S8x4096 .f32) (main_arg3 : FVec F S4096x1024 .f32) (main_arg4 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S8x4096x1024 .f32 := Host.absf main_arg1
  let main_cst_0 : FVec F S_ .f32 := constant S_ .f32 0x7F800000#32
  let main_v5 : FVec F S8x4096x1024 .f32 := broadcastInDim S8x4096x1024 ![] bcast_S_S8x4096x1024 main_cst_0
  let main_v6 : IVec S8x4096x1024 1 := cmpf .olt main_v4 main_v5
  let main_c_1 : IVec S_ 1 := constantI S_ 1 1#1
  let main_v7 : IVec S_ 1 := (fun x v => Host.reduce IntOp.andi x v reducesTo_S8x4096x1024_S_d0_1_2 h_S_) main_v6 main_c_1
  let main_v8 : IVec S_ 1 := andi main_v3 main_v7
  let main_v9 : FVec F S8x4096 .f32 := Host.absf main_arg2
  let main_cst_2 : FVec F S_ .f32 := constant S_ .f32 0x7F800000#32
  let main_v10 : FVec F S8x4096 .f32 := broadcastInDim S8x4096 ![] bcast_S_S8x4096 main_cst_2
  let main_v11 : IVec S8x4096 1 := cmpf .olt main_v9 main_v10
  let main_c_3 : IVec S_ 1 := constantI S_ 1 1#1
  let main_v12 : IVec S_ 1 := (fun x v => Host.reduce IntOp.andi x v reducesTo_S8x4096_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_v13 main_v16
-- ==== Kernel.lean ====
abbrev S4096x1024 : Shape := ⟨2, ![4096, 1024]⟩
abbrev S8x4096x1024 : Shape := ⟨3, ![8, 4096, 1024]⟩
abbrev S8x4096 : Shape := ⟨2, ![8, 4096]⟩
abbrev S1024 : Shape := ⟨1, ![1024]⟩
abbrev S1x1024 : Shape := ⟨2, ![1, 1024]⟩
abbrev S1024x1024 : Shape := ⟨2, ![1024, 1024]⟩
abbrev S1x1024x1024 : Shape := ⟨3, ![1, 1024, 1024]⟩
abbrev S1024x1 : Shape := ⟨2, ![1024, 1]⟩

abbrev nBuf : Space → Nat
  | .hbm => 11
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S8x4096x1024, .f32⟩
  | .hbm, ⟨2, _⟩ => ⟨S8x4096, .f32⟩
  | .hbm, ⟨3, _⟩ => ⟨S4096x1024, .f32⟩
  | .hbm, ⟨4, _⟩ => ⟨S1024, .f32⟩
  | .hbm, ⟨5, _⟩ => ⟨S4096x1024, .bf16⟩
  | .hbm, ⟨6, _⟩ => ⟨S8x4096x1024, .bf16⟩
  | .hbm, ⟨7, _⟩ => ⟨S4096x1024, .bf16⟩
  | .hbm, ⟨8, _⟩ => ⟨S1x1024, .f32⟩
  | .hbm, ⟨9, _⟩ => ⟨S1024x1024, .bf16⟩
  | .hbm, ⟨10, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1x1024, .f32⟩
  | .local _ .vmem, ⟨5, _⟩ => ⟨S1024x1024, .bf16⟩
  | .local _ .vmem, ⟨6, _⟩ => ⟨S8x4096, .f32⟩
  | .local _ .vmem, ⟨7, _⟩ => ⟨S1024x1024, .bf16⟩
  | .local _ .vmem, ⟨8, _⟩ => ⟨S1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1, .f32⟩
  | .local _ .vmem, ⟨15, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg3_1 : Ref sig .tc := ⟨.vmem, 8, rfl⟩
abbrev cc1_stg4_0 : Ref sig .tc := ⟨.vmem, 9, rfl⟩
abbrev cc1_stg4_1 : Ref sig .tc := ⟨.vmem, 10, rfl⟩
abbrev cc1_stg5_0 : Ref sig .tc := ⟨.vmem, 11, rfl⟩
abbrev cc1_stg5_1 : Ref sig .tc := ⟨.vmem, 12, rfl⟩
abbrev cc1_scratch0 : Ref sig .tc := ⟨.vmem, 13, rfl⟩
abbrev cc1_scratch1 : Ref sig .tc := ⟨.vmem, 14, rfl⟩
abbrev cc1_scratch2 : Ref sig .tc := ⟨.vmem, 15, rfl⟩
abbrev cc0_sem0_0 : DmaSem sig := 0
abbrev cc0_sem0_1 : DmaSem sig := 1
abbrev cc0_sem1_0 : DmaSem sig := 2
abbrev cc1_sem0_0 : DmaSem sig := 3
abbrev cc1_sem1_0 : DmaSem sig := 4
abbrev cc1_sem2_0 : DmaSem sig := 5
abbrev cc1_sem3_0 : DmaSem sig := 6
abbrev cc1_sem3_1 : DmaSem sig := 7
abbrev cc1_sem4_0 : DmaSem sig := 8
abbrev cc1_sem4_1 : DmaSem sig := 9
abbrev cc1_sem5_0 : DmaSem sig := 10
abbrev cc1_sem5_1 : DmaSem sig := 11

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v11 : BitVec 1 := Scalar.cmpi .eq arg0 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨3, ![4, 8, 4], ![false, false, false]⟩

def k1_mult1 (i : grid1.Coords) : BitVec 32 :=
  let arg2 : BitVec 32 := BitVec.ofNat 32 (i 2).val
  let c1024_i32 : BitVec 32 := 1024#32
  let v13 : BitVec 32 := Scalar.muli arg2 c1024_i32
  v13
def k1_off1 (i : grid1.Coords) : Fin 2 → Nat :=
  let arg1 : BitVec 32 := BitVec.ofNat 32 (i 1).val
  let v15 : Index := Scalar.indexCast arg1
  let arg2 : BitVec 32 := BitVec.ofNat 32 (i 2).val
  let c1024_i32 : BitVec 32 := 1024#32
  let v13 : BitVec 32 := Scalar.muli arg2 c1024_i32
  let v14 : BitVec 32 := v13
  let v16 : Index := Scalar.indexCast v14
  ![v15.toNat, v16.toNat]
def k1_cond4 (i : grid1.Coords) : BitVec 1 :=
  let arg1 : BitVec 32 := BitVec.ofNat 32 (i 1).val
  let c7_i32 : BitVec 32 := 7#32
  let v55 : BitVec 1 := Scalar.cmpi .eq arg1 c7_i32
  let arg2 : BitVec 32 := BitVec.ofNat 32 (i 2).val
  let c3_i32_22 : BitVec 32 := 3#32
  let v56 : BitVec 1 := Scalar.cmpi .eq arg2 c3_i32_22
  let v57 : BitVec 1 := Scalar.andi v55 v56
  let v58 : BitVec 32 := Scalar.extui v57
  let c0_i32_23 : BitVec 32 := 0#32
  let v59 : BitVec 1 := Scalar.cmpi .ne v58 c0_i32_23
  v59

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage1_0 : Fin 1 → Memref sig .tc .vmem S1x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false, false]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false, false]

abbrev stage1_2 : Fin 1 → Memref sig .tc .vmem S8x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false, false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, false]

abbrev stage1_4 : Fin 2 → Memref sig .tc .vmem S1x1024x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, true]

abbrev stage1_5 : Fin 2 → Memref sig .tc .vmem S1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false, false]

class Facts₀ : Prop where
  bitsLt_bf16_f32 : FTy.bits .bf16 < FTy.bits .f32
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1x1024_S1024 : S1x1024.ShapeCasts S1024
  reduces_S1024x1024_S1024 : S1024x1024.Reduces [1] S1024
  shapeCasts_S1024_S1024x1 : S1024.ShapeCasts S1024x1
  broadcasts_S1024x1_S1024x1024 : S1024x1.Broadcasts S1024x1024
  dot_S1024x1024_S1024x1024_S1024x1024_0_0_1_1_n_n_wf : DotDims.WF S1024x1024 S1024x1024 S1024x1024 [0] [0] [1] [1] [] []
  dot_S1024x1024_S1024x1024_S1024x1024_1_0_0_1_n_n_wf : DotDims.WF S1024x1024 S1024x1024 S1024x1024 [1] [0] [0] [1] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .bf16 = 32 ∨ (Rect.block (s := S4096x1024) S1024x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hrank1 : 0 < grid1.rank
  k1_mult1_dvd : ∀ i : grid1.Coords, 1024 ∣ (k1_mult1 i).toNat
  k1_off1_inb : ∀ i : grid1.Coords, ∀ a, (k1_off1 i) a + S1x1024.size a ≤ S8x4096.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x1024.size a ≤ S1x1024.size a
  hwx1_0 : ∀ i : grid1.Coords, EltTy.bits .f32 = 32 ∨ (Rect.block (s := S1x1024) S1x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x4096.size a ≤ S8x4096.size a
  hwx1_2 : ∀ i : grid1.Coords, EltTy.bits .f32 = 32 ∨ (Rect.block (s := S8x4096) S8x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x1024.size a
  hwx1_3 : ∀ i : grid1.Coords, EltTy.bits .bf16 = 32 ∨ (Rect.block (s := S4096x1024) S1024x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x1024.size a ≤ S8x4096x1024.size a
  hwx1_4 : ∀ i : grid1.Coords, EltTy.bits .bf16 = 32 ∨ (Rect.block (s := S8x4096x1024) S1x1024x1024.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S4096x1024.size a
  hwx1_5 : ∀ i : grid1.Coords, EltTy.bits .f32 = 32 ∨ (Rect.block (s := S4096x1024) S1024x1024.size (cc1_transform_5 i) (hinb1_5 i)).WholeWords (EltTy.packing .f32)

variable [Facts₀]

def dot_S1024x1024_S1024x1024_S1024x1024_0_0_1_1_n_n : DotDims S1024x1024 S1024x1024 S1024x1024 where
  lhsContracting := [0]
  rhsContracting := [0]
  lhsNonContracting := [1]
  rhsNonContracting := [1]
  lhsBatch := []
  rhsBatch := []
  wf := dot_S1024x1024_S1024x1024_S1024x1024_0_0_1_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v2) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x1024.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_v3) S1x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S8x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0) S1024x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x1024x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1024x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond4 i == 1#1) | ⟨_ + 6, h⟩ => absurd h (Nat.not_lt.2 (Nat.le_add_left _ _))

class Facts : Prop extends Facts₀ where

variable [Facts]
-- ==== ReferenceIdeal.lean ====
abbrev S4096x1024 : Shape := ⟨2, ![4096, 1024]⟩
abbrev S8x4096x1024 : Shape := ⟨3, ![8, 4096, 1024]⟩
abbrev S8x4096 : Shape := ⟨2, ![8, 4096]⟩
abbrev S1024 : Shape := ⟨1, ![1024]⟩
abbrev S1024x4096 : Shape := ⟨2, ![1024, 4096]⟩
abbrev S1024x1024 : Shape := ⟨2, ![1024, 1024]⟩
abbrev S1x1024 : Shape := ⟨2, ![1, 1024]⟩
abbrev S8x4096x4096 : Shape := ⟨3, ![8, 4096, 4096]⟩
abbrev S8x1x4096 : Shape := ⟨3, ![8, 1, 4096]⟩
abbrev S_ : Shape := ⟨0, ![]⟩
abbrev S8x4096x1 : Shape := ⟨3, ![8, 4096, 1]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S8x4096x1024, .f32⟩
  | .hbm, ⟨2, _⟩ => ⟨S8x4096, .f32⟩
  | .hbm, ⟨3, _⟩ => ⟨S4096x1024, .f32⟩
  | .hbm, ⟨4, _⟩ => ⟨S1024, .f32⟩
  | .hbm, ⟨5, _⟩ => ⟨S1024x4096, .f32⟩
  | .hbm, ⟨6, _⟩ => ⟨S1024x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S8x4096x4096, .f32⟩
  | .hbm, ⟨12, _⟩ => ⟨S8x4096x4096, .f32⟩
  | .hbm, ⟨13, _⟩ => ⟨S8x1x4096, .f32⟩
  | .hbm, ⟨14, _⟩ => ⟨S8x4096x4096, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S8x4096x4096, .f32⟩
  | .hbm, ⟨19, _⟩ => ⟨S8x4096x4096, .i1⟩
  | .hbm, ⟨20, _⟩ => ⟨S8x4096x4096, .f32⟩
  | .hbm, ⟨21, _⟩ => ⟨S8x4096x4096, .f32⟩
  | .hbm, ⟨22, _⟩ => ⟨S8x4096x4096, .f32⟩
  | .hbm, ⟨23, _⟩ => ⟨S8x4096x4096, .f32⟩
  | .hbm, ⟨24, _⟩ => ⟨S8x4096x4096, .f32⟩
  | .hbm, ⟨25, _⟩ => ⟨S8x4096x4096, .f32⟩
  | .hbm, ⟨26, _⟩ => ⟨S8x4096x4096, .f32⟩
  | .hbm, ⟨27, _⟩ => ⟨S_, .f32⟩
  | .hbm, ⟨28, _⟩ => ⟨S8x4096x4096, .f32⟩
  | .hbm, ⟨29, _⟩ => ⟨S8x4096x4096, .f32⟩
  | .hbm, ⟨30, _⟩ => ⟨S_, .f32⟩
  | .hbm, ⟨31, _⟩ => ⟨S8x4096, .f32⟩
  | .hbm, ⟨32, _⟩ => ⟨S8x4096x4096, .f32⟩
  | .hbm, ⟨33, _⟩ => ⟨S8x4096x1024, .f32⟩
  | .hbm, ⟨34, _⟩ => ⟨S8x4096x1, .f32⟩
  | .hbm, ⟨35, _⟩ => ⟨S8x4096x1024, .f32⟩
  | .hbm, ⟨36, _⟩ => ⟨S8x4096x1024, .f32⟩
  | .hbm, ⟨37, _⟩ => ⟨S_, .f32⟩
  | .hbm, ⟨38, _⟩ => ⟨S4096x1024, .f32⟩
  | .hbm, ⟨39, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst : Ref sig .tc := ⟨.hbm, 27, rfl⟩
abbrev main_v22 : Ref sig .tc := ⟨.hbm, 28, rfl⟩
abbrev main_v23 : Ref sig .tc := ⟨.hbm, 29, rfl⟩
abbrev main_cst_0 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_1 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]

class Facts₀ : Prop where
  transposes_S4096x1024_S1024x4096_1_0 : S4096x1024.Transposes [1, 0] S1024x4096
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  transposes_S8x4096x4096_S8x4096x4096_0_2_1 : S8x4096x4096.Transposes [0, 2, 1] S8x4096x4096
  bcast_S8x4096_S8x1x4096_0_2 : S8x4096.BroadcastsInDim S8x1x4096 (![0, 2] : Fin 2 → Fin S8x1x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  h_S_ : 0 < S_.numel
  bcast_S8x4096_S8x4096x1_0_1 : S8x4096.BroadcastsInDim S8x4096x1 (![0, 1] : Fin 2 → Fin S8x4096x1.rank)
  bcast_S8x4096x1_S8x4096x1024_0_1_2 : S8x4096x1.BroadcastsInDim S8x4096x1024 (![0, 1, 2] : Fin 3 → Fin S8x4096x1024.rank)
  reducesTo_S8x4096x1024_S4096x1024_d0 : S8x4096x1024.ReducesTo [0] S4096x1024
  dot_S1024x4096_S4096x1024_S1024x1024_1_0_0_1_n_n_wf : DotDims.WF S1024x4096 S4096x1024 S1024x1024 [1] [0] [0] [1] [] []
  dot_S4096x1024_S1024x1024_S4096x1024_1_0_0_1_n_n_wf : DotDims.WF S4096x1024 S1024x1024 S4096x1024 [1] [0] [0] [1] [] []
  dot_S8x4096x1024_S4096x1024_S8x4096x4096_2_1_01_0_n_n_wf : DotDims.WF S8x4096x1024 S4096x1024 S8x4096x4096 [2] [1] [0, 1] [0] [] []
  dot_S8x4096x4096_S8x4096x1024_S8x4096x1024_2_1_1_2_0_0_wf : DotDims.WF S8x4096x4096 S8x4096x1024 S8x4096x1024 [2] [1] [1] [2] [0] [0]

variable [Facts₀]

def dot_S1024x4096_S4096x1024_S1024x1024_1_0_0_1_n_n : DotDims S1024x4096 S4096x1024 S1024x1024 where
  lhsContracting := [1]
  rhsContracting := [0]
  lhsNonContracting := [0]
  rhsNonContracting := [1]
  lhsBatch := []
  rhsBatch := []
  wf := dot_S1024x4096_S4096x1024_S1024x1024_1_0_0_1_n_n_wf
def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S8x4096x1024_S4096x1024_S8x4096x4096_2_1_01_0_n_n : DotDims S8x4096x1024 S4096x1024 S8x4096x4096 where
  lhsContracting := [2]
  rhsContracting := [1]
  lhsNonContracting := [0, 1]
  rhsNonContracting := [0]
  lhsBatch := []
  rhsBatch := []
  wf := dot_S8x4096x1024_S4096x1024_S8x4096x4096_2_1_01_0_n_n_wf
def dot_S8x4096x4096_S8x4096x1024_S8x4096x1024_2_1_1_2_0_0 : DotDims S8x4096x4096 S8x4096x1024 S8x4096x1024 where
  lhsContracting := [2]
  rhsContracting := [1]
  lhsNonContracting := [1]
  rhsNonContracting := [2]
  lhsBatch := [0]
  rhsBatch := [0]
  wf := dot_S8x4096x4096_S8x4096x1024_S8x4096x1024_2_1_1_2_0_0_wf

class Facts : Prop extends Facts₀ where

variable [Facts]
-- ==== Proof.K0Base.lean ====
/-
  The first kernel region (the Gram matrix Vᵀ·V accumulated over four row tiles of V), read generically in the
  float instance: the blocks its windows show the body, the two branch conditions of the body decided over the
  four grid points (the accumulator is zeroed at the first point; the output block is stored at the last point
  only), where the output window is idle, and the region invariant with the accumulator scratch singled out.
-/
import proofs.«102676_j85581518340279_1_alg».proof.Proof.Gen.KernelIdeal.Launch
import proofs.«102676_j85581518340279_1_alg».proof.Proof.Gen.KernelIdeal.Skeleton
import proofs.«102676_j85581518340279_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
end

/-! ## The body's branch conditions -/

/-- "this is the first row tile": the accumulator is zeroed. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- "this is the last row tile": the accumulator is copied to the output block. -/
abbrev cond0_1 (i : grid0.Coords) : Prop := k0_cond2 i = 1#1
theorem hcond0_1 : ∀ t : Fin cfg0.N, cond0_1 (grid0.coords t) ↔ t.val = 3 :=
  (by decide +kernel : ∀ t : Fin grid0.N, cond0_1 (grid0.coords t) ↔ t.val = 3)

/-! ## Where the windows are idle -/

theorem liveAt0_0 : ∀ t : Fin cfg0.N, cfg0.idle 0 (grid0.coords t) = false := by decide +kernel
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
theorem liveAt0_1 : ∀ t : Fin cfg0.N, cond0_1 (grid0.coords t) → cfg0.idle 1 (grid0.coords t) = false := by decide +kernel

/-! ## The memrefs the body is called with -/

abbrev VO0_1 : View sig .tc .vmem S1024x1024 .bf16 := (Memref.whole cc0_stg1_0 : Memref sig .tc .vmem S1024x1024 .bf16).view
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
/-- The accumulator: a whole scoped buffer of the kernel's own. -/
abbrev scM0_0 : Memref sig .tc .vmem S1024x1024 .f32 := Memref.whole cc0_scratch0
abbrev VS0_0 : View sig .tc .vmem S1024x1024 .f32 := scM0_0.view

/-- The scoped buffers the first region never touches (the second region's staging buffers and scratch), each whole at
    some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f))

/-- The class invariant with the accumulator as a memref owned at some contents. -/
theorem PhiA0_eq (c : Dev nD) :
    (Pipeline.ΦA spec0 c : sProp 𝕄)
      = iprop(iprop((∃ d, owns (c : Thread nD τ) scM0_0 fullShare d) ∗ rest0 c) ∗ (∃ r, prngReg c r)) := by
  unfold Pipeline.ΦA rest0; rw [scopedRest0_eq]; simp only [scM0_0, owns_whole]; try rfl

end Cert.KernelIdeal.Hand

end
-- ==== Proof.K0RunA.lean ====
/-
  The Gram-matrix kernel's body at the FIRST row tile: the accumulator is zeroed, then the tile's product Vₜᵀ·Vₜ is
  added to it; the output block is not touched. The pieces the accumulator ends with are those the body's stores write.
-/
import proofs.«102676_j85581518340279_1_alg».proof.Proof.K0Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at the first tile: the input block kept, the idle output handed back untouched, the accumulator (found at
    anything) left with the pieces `LS0` written. -/
noncomputable def kernelRun0_A (c : Dev nD) (i : grid0.Coords) (arg1 : Memref sig .tc .vmem S1024x1024 .bf16) (harg1 : arg1.IsWhole) (arg2 : Memref sig .tc .vmem S1024x1024 .bf16) (harg2 : arg2.IsWhole) (arg3 : Memref sig .tc .vmem S1024x1024 .f32) (harg3 : arg3.IsWhole) (hc0 : cond0_0 i) (hc1 : ¬cond0_1 i)
    (x0 : Vec F S1024x1024 .bf16) :
    { LS0 : List (View.Piece (Elt F) S1024x1024 .f32) //
      ∀ (xi1 : Vec F S1024x1024 .bf16) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0__vsq_kernel i arg1 harg1 arg2 harg2 arg3 harg3) K } := by
  refine ⟨?_, fun xi1 E K => ?run⟩
  case run =>
    simp only [cc0__vsq_kernel_eq_skeleton]; unfold cc0__vsq_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.KernelIdeal.Hand

end
-- ==== Proof.K0RunB.lean ====
/-
  The Gram-matrix kernel's body at a MIDDLE row tile: the tile's product Vₜᵀ·Vₜ is added to the accumulator the point
  before left; the output block is not touched.
-/
import proofs.«102676_j85581518340279_1_alg».proof.Proof.K0Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at a middle tile: the input block kept, the idle output handed back untouched, the accumulator found at
    `xs0` and left with the pieces `LS0` written. -/
noncomputable def kernelRun0_B (c : Dev nD) (i : grid0.Coords) (arg1 : Memref sig .tc .vmem S1024x1024 .bf16) (harg1 : arg1.IsWhole) (arg2 : Memref sig .tc .vmem S1024x1024 .bf16) (harg2 : arg2.IsWhole) (arg3 : Memref sig .tc .vmem S1024x1024 .f32) (harg3 : arg3.IsWhole) (hc0 : ¬cond0_0 i) (hc1 : ¬cond0_1 i)
    (x0 : Vec F S1024x1024 .bf16) (xs0 : Vec F S1024x1024 .f32) :
    { LS0 : List (View.Piece (Elt F) S1024x1024 .f32) //
      ∀ (xi1 : Vec F S1024x1024 .bf16) (E : Set ℕ) (K : PUnit → sProp 𝕄),
        iprop(owns (c : Thread nD τ) arg1 fullShare x0 ∗ owns (c : Thread nD τ) arg2 fullShare xi1 ∗ owns (c : Thread nD τ) arg3 fullShare xs0
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0__vsq_kernel i arg1 harg1 arg2 harg2 arg3 harg3) K } := by
  refine ⟨?_, fun xi1 E K => ?run⟩
  case run =>
    simp only [cc0__vsq_kernel_eq_skeleton]; unfold cc0__vsq_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.KernelIdeal.Hand

end
-- ==== Proof.K0RunC.lean ====
/-
  The Gram-matrix kernel's body at the LAST row tile: the tile's product Vₜᵀ·Vₜ is added to the accumulator, and the
  accumulator is then stored (rounded to the output's format) as the output block.
-/
import proofs.«102676_j85581518340279_1_alg».proof.Proof.K0Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at the last tile: the input block kept, the output (found at anything) left with the pieces `L1` written,
    the accumulator found at `xs0` and left with the pieces `LS0` written. -/
noncomputable def kernelRun0_C (c : Dev nD) (i : grid0.Coords) (arg1 : Memref sig .tc .vmem S1024x1024 .bf16) (harg1 : arg1.IsWhole) (arg2 : Memref sig .tc .vmem S1024x1024 .bf16) (harg2 : arg2.IsWhole) (arg3 : Memref sig .tc .vmem S1024x1024 .f32) (harg3 : arg3.IsWhole) (hc0 : ¬cond0_0 i) (hc1 : cond0_1 i)
    (x0 : Vec F S1024x1024 .bf16) (xs0 : Vec F S1024x1024 .f32) :
    Σ' (L1 : List (View.Piece (Elt F) S1024x1024 .bf16)), { LS0 : List (View.Piece (Elt F) S1024x1024 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0)) -∗ K ⟨⟩))
          ⊢ wp frame (wpE (defs₀ (F := F)) Variants.none c none) E (cc0__vsq_kernel i arg1 harg1 arg2 harg2 arg3 harg3) K } := by
  refine ⟨?_, ?_, fun E K => ?run⟩
  case run =>
    simp only [cc0__vsq_kernel_eq_skeleton]; unfold cc0__vsq_kernel_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | exact hc0 | exact hc1)
    sl_step
    iapply Hk
    isplitl [H0]
    · iexists _; isplitr; · ipureintro; exact harg1.read_unread _
      iexact H0
    isplitl [H1]; · iexists _; iexact H1
    iexists _; iexact HS0

end Cert.KernelIdeal.Hand

end
-- ==== Proof.K0Frame.lean ====
/-
  The first kernel region as a whole: what the accumulator and the output block hold after each of the four row
  tiles — S₀ = 0 + V₀ᵀV₀, Sₜ = Sₜ₋₁ + VₜᵀVₜ, and at the last tile the output block is S₃ — stated by recursion on the
  point over the pieces the body writes in each of its three cases; the region invariant carrying the accumulator from one point to
  the next; the proof data; and the body obligation at every point, by cases on the point.
-/
import proofs.«102676_j85581518340279_1_alg».proof.Proof.K0RunA
import proofs.«102676_j85581518340279_1_alg».proof.Proof.K0RunB
import proofs.«102676_j85581518340279_1_alg».proof.Proof.K0RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each case leaves -/

theorem scover0_A (c : Dev nD) (i : grid0.Coords) (arg1 : Memref sig .tc .vmem S1024x1024 .bf16) (harg1 : arg1.IsWhole) (arg2 : Memref sig .tc .vmem S1024x1024 .bf16) (harg2 : arg2.IsWhole) (arg3 : Memref sig .tc .vmem S1024x1024 .f32) (harg3 : arg3.IsWhole) (hc0 : cond0_0 i) (hc1 : ¬cond0_1 i) (x0 : Vec F S1024x1024 .bf16) (y : S1024x1024.Idx) :
    ∃ pc ∈ (kernelRun0_A c i arg1 harg1 arg2 harg2 arg3 harg3 hc0 hc1 x0).1, y ∈ pc.1.set :=
  View.cover_of_tiledL (kernelRun0_A c i arg1 harg1 arg2 harg2 arg3 harg3 hc0 hc1 x0).1 S1024x1024.size (by sl_kernel_rfl) y

/-- The accumulator after the first tile. -/
def sout0_A (c : Dev nD) (i : grid0.Coords) (arg1 : Memref sig .tc .vmem S1024x1024 .bf16) (harg1 : arg1.IsWhole) (arg2 : Memref sig .tc .vmem S1024x1024 .bf16) (harg2 : arg2.IsWhole) (arg3 : Memref sig .tc .vmem S1024x1024 .f32) (harg3 : arg3.IsWhole) (hc0 : cond0_0 i) (hc1 : ¬cond0_1 i) (x0 : Vec F S1024x1024 .bf16) : Vec F S1024x1024 .f32 :=
  VS0_0.read (Elt F) (VS0_0.writes (Elt F) VS0_0.junk (kernelRun0_A c i arg1 harg1 arg2 harg2 arg3 harg3 hc0 hc1 x0).1)

theorem scover0_B (c : Dev nD) (i : grid0.Coords) (arg1 : Memref sig .tc .vmem S1024x1024 .bf16) (harg1 : arg1.IsWhole) (arg2 : Memref sig .tc .vmem S1024x1024 .bf16) (harg2 : arg2.IsWhole) (arg3 : Memref sig .tc .vmem S1024x1024 .f32) (harg3 : arg3.IsWhole) (hc0 : ¬cond0_0 i) (hc1 : ¬cond0_1 i) (x0 : Vec F S1024x1024 .bf16) (xs0 : Vec F S1024x1024 .f32) (y : S1024x1024.Idx) :
    ∃ pc ∈ (kernelRun0_B c i arg1 harg1 arg2 harg2 arg3 harg3 hc0 hc1 x0 xs0).1, y ∈ pc.1.set :=
  View.cover_of_tiledL (kernelRun0_B c i arg1 harg1 arg2 harg2 arg3 harg3 hc0 hc1 x0 xs0).1 S1024x1024.size (by sl_kernel_rfl) y

/-- The accumulator after a middle tile. -/
def sout0_B (c : Dev nD) (i : grid0.Coords) (arg1 : Memref sig .tc .vmem S1024x1024 .bf16) (harg1 : arg1.IsWhole) (arg2 : Memref sig .tc .vmem S1024x1024 .bf16) (harg2 : arg2.IsWhole) (arg3 : Memref sig .tc .vmem S1024x1024 .f32) (harg3 : arg3.IsWhole) (hc0 : ¬cond0_0 i) (hc1 : ¬cond0_1 i) (x0 : Vec F S1024x1024 .bf16) (xs0 : Vec F S1024x1024 .f32) : Vec F S1024x1024 .f32 :=
  VS0_0.read (Elt F) (VS0_0.writes (Elt F) VS0_0.junk (kernelRun0_B c i arg1 harg1 arg2 harg2 arg3 harg3 hc0 hc1 x0 xs0).1)

theorem cover0_C (c : Dev nD) (i : grid0.Coords) (arg1 : Memref sig .tc .vmem S1024x1024 .bf16) (harg1 : arg1.IsWhole) (arg2 : Memref sig .tc .vmem S1024x1024 .bf16) (harg2 : arg2.IsWhole) (arg3 : Memref sig .tc .vmem S1024x1024 .f32) (harg3 : arg3.IsWhole) (hc0 : ¬cond0_0 i) (hc1 : cond0_1 i) (x0 : Vec F S1024x1024 .bf16) (xs0 : Vec F S1024x1024 .f32) (y : S1024x1024.Idx) :
    ∃ pc ∈ (kernelRun0_C c i arg1 harg1 arg2 harg2 arg3 harg3 hc0 hc1 x0 xs0).1, y ∈ pc.1.set :=
  View.cover_of_tiledL (kernelRun0_C c i arg1 harg1 arg2 harg2 arg3 harg3 hc0 hc1 x0 xs0).1 S1024x1024.size (by sl_kernel_rfl) y

/-- The output block after the last tile. -/
def out0_C (c : Dev nD) (i : grid0.Coords) (arg1 : Memref sig .tc .vmem S1024x1024 .bf16) (harg1 : arg1.IsWhole) (arg2 : Memref sig .tc .vmem S1024x1024 .bf16) (harg2 : arg2.IsWhole) (arg3 : Memref sig .tc .vmem S1024x1024 .f32) (harg3 : arg3.IsWhole) (hc0 : ¬cond0_0 i) (hc1 : cond0_1 i) (x0 : Vec F S1024x1024 .bf16) (xs0 : Vec F S1024x1024 .f32) : Vec F S1024x1024 .bf16 :=
  VO0_1.read (Elt F) (VO0_1.writes (Elt F) VO0_1.junk (kernelRun0_C c i arg1 harg1 arg2 harg2 arg3 harg3 hc0 hc1 x0 xs0).1)

theorem scover0_C (c : Dev nD) (i : grid0.Coords) (arg1 : Memref sig .tc .vmem S1024x1024 .bf16) (harg1 : arg1.IsWhole) (arg2 : Memref sig .tc .vmem S1024x1024 .bf16) (harg2 : arg2.IsWhole) (arg3 : Memref sig .tc .vmem S1024x1024 .f32) (harg3 : arg3.IsWhole) (hc0 : ¬cond0_0 i) (hc1 : cond0_1 i) (x0 : Vec F S1024x1024 .bf16) (xs0 : Vec F S1024x1024 .f32) (y : S1024x1024.Idx) :
    ∃ pc ∈ (kernelRun0_C c i arg1 harg1 arg2 harg2 arg3 harg3 hc0 hc1 x0 xs0).2.1, y ∈ pc.1.set :=
  View.cover_of_tiledL (kernelRun0_C c i arg1 harg1 arg2 harg2 arg3 harg3 hc0 hc1 x0 xs0).2.1 S1024x1024.size (by sl_kernel_rfl) y

/-- The accumulator after the last tile. -/
def sout0_C (c : Dev nD) (i : grid0.Coords) (arg1 : Memref sig .tc .vmem S1024x1024 .bf16) (harg1 : arg1.IsWhole) (arg2 : Memref sig .tc .vmem S1024x1024 .bf16) (harg2 : arg2.IsWhole) (arg3 : Memref sig .tc .vmem S1024x1024 .f32) (harg3 : arg3.IsWhole) (hc0 : ¬cond0_0 i) (hc1 : cond0_1 i) (x0 : Vec F S1024x1024 .bf16) (xs0 : Vec F S1024x1024 .f32) : Vec F S1024x1024 .f32 :=
  VS0_0.read (Elt F) (VS0_0.writes (Elt F) VS0_0.junk (kernelRun0_C c i arg1 harg1 arg2 harg2 arg3 harg3 hc0 hc1 x0 xs0).2.1)

/-- At a point that stores nothing into the output block its staging buffer is handed back as found: a placeholder
    nothing consults. -/
def idleOut0 : Vec F S1024x1024 .bf16 := VO0_1.read (Elt F) (VO0_1.writes (Elt F) VO0_1.junk [])

section
variable (V : (c : Dev nD) → (b : Ref sig .tc) → Buf (Elt F) ((c : Thread nD τ).loc b))

/-! ## What the output block and the accumulator hold after each point -/

/-- After point `n`: (the output block's staging buffer, the accumulator). -/
def outsAt0 (c : Dev nD) : (n : ℕ) → n < cfg0.N → Vec F S1024x1024 .bf16 × Vec F S1024x1024 .f32
  | 0, hn => (idleOut0, sout0_A c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr rfl) (fun h => (by decide : ¬ (0 : ℕ) = 3) ((hcond0_1 ⟨0, hn⟩).mp h)) (iblk0 V c 0 ⟨0, hn⟩))
  | n + 1, hn =>
    if h1 : n + 1 = 3 then
      (out0_C c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => Nat.succ_ne_zero n ((hcond0_0 ⟨n + 1, hn⟩).mp h)) ((hcond0_1 ⟨n + 1, hn⟩).mpr h1) (iblk0 V c 0 ⟨n + 1, hn⟩) (outsAt0 c n (Nat.lt_of_succ_lt hn)).2,
       sout0_C c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => Nat.succ_ne_zero n ((hcond0_0 ⟨n + 1, hn⟩).mp h)) ((hcond0_1 ⟨n + 1, hn⟩).mpr h1) (iblk0 V c 0 ⟨n + 1, hn⟩) (outsAt0 c n (Nat.lt_of_succ_lt hn)).2)
    else
      (idleOut0,
       sout0_B c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (outsAt0 c n (Nat.lt_of_succ_lt hn)).2)

theorem outsAt0_A (c : Dev nD) (t : Fin cfg0.N) (h0 : t.val = 0) (h1 : ¬t.val = 3) :
    outsAt0 V c t.val t.isLt = (idleOut0, sout0_A c (grid0.coords t) (ms0_0 t) (hs0_0 t) (ms0_1 t) (hs0_1 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact absurd h0 (Nat.succ_ne_zero n)

theorem outsAt0_B (c : Dev nD) (t : Fin cfg0.N) (h0 : ¬t.val = 0) (h1 : ¬t.val = 3) :
    outsAt0 V c t.val t.isLt = (idleOut0, sout0_B c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2) := by
  obtain ⟨n, hn⟩ := t
  cases n with
  | zero => exact absurd rfl h0
  | succ n => exact (dif_neg h1).trans rfl

theorem outsAt0_C (c : Dev nD) (t : Fin cfg0.N) (h0 : ¬t.val = 0) (h1 : t.val = 3) :
    outsAt0 V c t.val t.isLt = (out0_C c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2,
      sout0_C c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2) := by
  obtain ⟨n, hn⟩ := t
  cases n with
  | zero => exact absurd rfl h0
  | succ n => exact (dif_pos h1).trans rfl

/-! ## The region invariant -/

/-- Before position `n`: at the first point the class invariant (the accumulator at anything); afterwards the accumulator
    at what the point before left, the untouched scoped buffers, and the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ rest0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ rest0 c) ∗ (∃ r, prngReg c r)) := by
  cases n with
  | zero => exact absurd rfl hz
  | succ n => rfl

/-! ## The proof data -/

/-- The arrays as the region finds them; after the body at point `t` the input's buffer at its block and the output's
    at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the point's case by its position; the invariant hands the body the accumulator at what the
    point before left (at anything at the first point) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 4 := lt_of_lt_of_eq t.isLt (show cfg0.N = 4 from N_0)
  rw [show (dat0 V c).leavesExact 0 t = owns (c : Thread nD τ) (ms0_0 t) fullShare ((dat0 V c).after 0 t) from by
    unfold Dat.leavesExact; rw [liveAt0_0 t], after0_0]
  by_cases h0 : t.val = 0
  · have h1 : ¬t.val = 3 := by omega
    rw [Dat.leavesExact_idle (dat0 V c) 1 t (idleAt0_1 t (fun h => h1 ((hcond0_1 t).mp h))) (noFlush0_1 t (fun h => h1 ((hcond0_1 t).mp h)))]
    rw [outsAt0_A V c t h0 h1]
    unfold sout0_A; (try dsimp only)
    rw [PhiS0_castSucc V c t, PhiS0_zero V c _ _ h0, PhiA0_eq]
    iintro ⟨⟨⟨HS0, Hr⟩, Hg⟩, Ho, ⟨%d0, H0⟩, ⟨%d1, H1⟩⟩
    iapply ((kernelRun0_A c (grid0.coords t) _ _ _ _ _ _ ((hcond0_0 t).mpr h0) (fun h => h1 ((hcond0_1 t).mp h)) (iblk0 V c 0 t)).2 _ Set.univ _)
    isplitl [H0]; · iexact H0
    isplitl [H1]; · iexact H1
    isplitl [HS0]; · iexact HS0
    iintro ⟨H0, H1, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover0_A c _ _ _ _ _ _ _ _ _ _)
        iexact Hr
      iexact Hg
    isplitl [Ho]; · iexact Ho
    isplitl [H0]; · iexact H0
    iexists _; iexact H1
  · by_cases h1 : t.val = 3
    · rw [show (dat0 V c).leavesExact 1 t = owns (c : Thread nD τ) (ms0_1 t) fullShare ((dat0 V c).after 1 t) from by
        unfold Dat.leavesExact; rw [liveAt0_1 t ((hcond0_1 t).mpr h1)], after0_1]
      rw [outsAt0_C V c t h0 h1]
      unfold out0_C sout0_C; (try dsimp only)
      rw [PhiS0_castSucc V c t, PhiS0_pos V c _ _ h0]
      iintro ⟨⟨⟨HS0, Hr⟩, Hg⟩, Ho, ⟨%d0, H0⟩, ⟨%d1, H1⟩⟩
      iapply ((kernelRun0_C c (grid0.coords t) _ _ _ _ _ _ (fun h => h0 ((hcond0_0 t).mp h)) ((hcond0_1 t).mpr h1) (iblk0 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_C c _ _ _ _ _ _ _ _ _ _ _)
          iexact Hr
        iexact Hg
      isplitl [Ho]; · iexact Ho
      isplitl [H0]; · iexact H0
      unfold owns; iexists _; isplitr
      swap; · iexact H1
      ipureintro; exact View.read_writes_of_cover _ _ _ _ _ (cover0_C c _ _ _ _ _ _ _ _ _ _ _)
    · rw [Dat.leavesExact_idle (dat0 V c) 1 t (idleAt0_1 t (fun h => h1 ((hcond0_1 t).mp h))) (noFlush0_1 t (fun h => h1 ((hcond0_1 t).mp h)))]
      rw [outsAt0_B V c t h0 h1]
      unfold sout0_B; (try dsimp only)
      rw [PhiS0_castSucc V c t, PhiS0_pos V c _ _ h0]
      iintro ⟨⟨⟨HS0, Hr⟩, Hg⟩, Ho, ⟨%d0, H0⟩, ⟨%d1, H1⟩⟩
      iapply ((kernelRun0_B c (grid0.coords t) _ _ _ _ _ _ (fun h => h0 ((hcond0_0 t).mp h)) (fun h => h1 ((hcond0_1 t).mp h)) (iblk0 V c 0 t) _).2 _ Set.univ _)
      isplitl [H0]; · iexact H0
      isplitl [H1]; · iexact H1
      isplitl [HS0]; · iexact HS0
      iintro ⟨H0, H1, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_B c _ _ _ _ _ _ _ _ _ _ _)
          iexact Hr
        iexact Hg
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class invariant back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 4 := N_0; omega), PhiA0_eq]
  iintro ⟨⟨HS0, Hr⟩, Hg⟩
  isplitl [HS0 Hr]
  · isplitl [HS0]
    · iexists _; iexact HS0
    iexact Hr
  iexact Hg

end

end Cert.KernelIdeal.Hand

end
-- ==== Proof.K1Base.lean ====
/-
  The second kernel region (out = a + x·Vsq + Σₗ sₗ ⊙ (tanh(Zₗ)·Wₗ), over the grid of row blocks b, layers l and
  hidden tiles h, point 32·b + 4·l + h), read generically in the float instance: the blocks its windows show the
  body, the body's four branch conditions decided over the 128 grid points — (l, h) = (0, 0): the output accumulator
  is started at a + x·Vsq; h = 0: the layer's two accumulators are zeroed; h = 3: the layer's product is added to the
  output accumulator; (l, h) = (7, 3): the output block is stored —, where the output window is idle, and the region
  invariant with the three accumulators singled out.
-/
import proofs.«102676_j85581518340279_1_alg».proof.Proof.Gen.KernelIdeal.Launch
import proofs.«102676_j85581518340279_1_alg».proof.Proof.Gen.KernelIdeal.Skeleton
import proofs.«102676_j85581518340279_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
end

/-! ## The body's branch conditions -/

abbrev cond1_0 (i : grid1.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
theorem hcond1_0 : ∀ t : Fin cfg1.N, cond1_0 (grid1.coords t) ↔ t.val % 32 = 0 :=
  (by decide +kernel : ∀ t : Fin grid1.N, cond1_0 (grid1.coords t) ↔ t.val % 32 = 0)

abbrev cond1_1 (i : grid1.Coords) : Prop := (Scalar.cmpi .ne (Scalar.extui (Scalar.cmpi .eq (BitVec.ofNat 32 (i 2).val) 0#32)) 0#32) = 1#1
theorem hcond1_1 : ∀ t : Fin cfg1.N, cond1_1 (grid1.coords t) ↔ t.val % 4 = 0 :=
  (by decide +kernel : ∀ t : Fin grid1.N, cond1_1 (grid1.coords t) ↔ t.val % 4 = 0)

abbrev cond1_2 (i : grid1.Coords) : Prop := (Scalar.cmpi .ne (Scalar.extui (Scalar.cmpi .eq (BitVec.ofNat 32 (i 2).val) 3#32)) 0#32) = 1#1
theorem hcond1_2 : ∀ t : Fin cfg1.N, cond1_2 (grid1.coords t) ↔ t.val % 4 = 3 :=
  (by decide +kernel : ∀ t : Fin grid1.N, cond1_2 (grid1.coords t) ↔ t.val % 4 = 3)

abbrev cond1_3 (i : grid1.Coords) : Prop := k1_cond4 i = 1#1
theorem hcond1_3 : ∀ t : Fin cfg1.N, cond1_3 (grid1.coords t) ↔ t.val % 32 = 31 :=
  (by decide +kernel : ∀ t : Fin grid1.N, cond1_3 (grid1.coords t) ↔ t.val % 32 = 31)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5 : ∀ t : Fin cfg1.N, ¬cond1_3 (grid1.coords t) → cfg1.idle 5 (grid1.coords t) = true := by decide +kernel
theorem noFlush1_5 : ∀ t : Fin cfg1.N, ¬cond1_3 (grid1.coords t) → (cfg1.win 5).flush t = false := by decide +kernel
theorem liveAt1_5 : ∀ t : Fin cfg1.N, cond1_3 (grid1.coords t) → cfg1.idle 5 (grid1.coords t) = false := by decide +kernel

/-! ## The memrefs the body is called with -/

abbrev VO1_5 : View sig .tc .vmem S1024x1024 .f32 := (Memref.whole cc1_stg5_0 : Memref sig .tc .vmem S1024x1024 .f32).view
abbrev ms1_0 (t : Fin cfg1.N) : Memref sig .tc .vmem S1x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x4096 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x1024 .f32 := win1_5.stage (cfg1.slots t 5)
abbrev hs1_5 (t : Fin cfg1.N) : (ms1_5 t).IsWhole := hstage1_5 ((cfg1.slots t 5).cast nbuf1_5)
/-- The three accumulators: the output's, the layer's row sums, the layer's product. -/
abbrev scM1_0 : Memref sig .tc .vmem S1024x1024 .f32 := Memref.whole cc1_scratch0
abbrev scM1_1 : Memref sig .tc .vmem S1024x1 .f32 := Memref.whole cc1_scratch1
abbrev scM1_2 : Memref sig .tc .vmem S1024x1024 .f32 := Memref.whole cc1_scratch2
abbrev VS1_0 : View sig .tc .vmem S1024x1024 .f32 := scM1_0.view
abbrev VS1_1 : View sig .tc .vmem S1024x1 .f32 := scM1_1.view
abbrev VS1_2 : View sig .tc .vmem S1024x1024 .f32 := scM1_2.view

/-- A scoped buffer whole at some contents. -/
abbrev anyBuf (c : Dev nD) (b : Ref sig .tc) : sProp 𝕄 :=
  iprop(∃ f : Buf (Elt F) ((c : Thread nD τ).loc b), ((c : Thread nD τ).loc b) ↦{fullShare} f)

/-- The class invariant with the accumulators as memrefs owned at some contents (the first region's scoped buffers
    ride along untouched). -/
theorem PhiA1_eq (c : Dev nD) :
    (Pipeline.ΦA spec1 c : sProp 𝕄)
      = iprop(iprop(anyBuf c cc0_stg0_0 ∗ anyBuf c cc0_stg0_1 ∗ anyBuf c cc0_stg1_0 ∗ anyBuf c cc0_scratch0
          ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.KernelIdeal.Hand

end
-- ==== Proof.K1RunA.lean ====
/-
  The main kernel's body at the first point of a row block, (l, h) = (0, 0): the output accumulator is started at a + x·Vsq, the layer's two accumulators are zeroed and the first hidden tile's row sums and product are added to them; the output block is not touched.
-/
import proofs.«102676_j85581518340279_1_alg».proof.Proof.K1Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body in this case, on whole memrefs: the five input blocks kept; the accumulators and the output's staging
    buffer as the statement says; the pieces each written buffer ends with are those the body's stores write. -/
noncomputable def kernelRun1_A (c : Dev nD) (i : grid1.Coords) (arg3 : Memref sig .tc .vmem S1x1024 .f32) (harg3 : arg3.IsWhole) (arg4 : Memref sig .tc .vmem S1024x1024 .bf16) (harg4 : arg4.IsWhole) (arg5 : Memref sig .tc .vmem S8x4096 .f32) (harg5 : arg5.IsWhole) (arg6 : Memref sig .tc .vmem S1024x1024 .bf16) (harg6 : arg6.IsWhole) (arg7 : Memref sig .tc .vmem S1x1024x1024 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : cond1_1 i) (hc2 : ¬cond1_2 i) (hc3 : ¬cond1_3 i)
    (x0 : Vec F S1x1024 .f32) (x1 : Vec F S1024x1024 .bf16) (x2 : Vec F S8x4096 .f32) (x3 : Vec F S1024x1024 .bf16) (x4 : Vec F S1x1024x1024 .bf16) :
    Σ' (LS0 : List (View.Piece (Elt F) S1024x1024 .f32)) (LS1 : List (View.Piece (Elt F) S1024x1 .f32)), { LS2 : List (View.Piece (Elt F) S1024x1024 .f32) //
      ∀ (xi5 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__main_kernel i arg3 harg3 arg4 harg4 arg5 harg5 arg6 harg6 arg7 harg7 arg8 harg8 arg9 harg9 arg10 harg10 arg11 harg11) K } := by
  refine ⟨?_, ?_, ?_, fun xi5 E K => ?run⟩
  case run =>
    simp only [cc1__main_kernel_eq_skeleton]; unfold cc1__main_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%gH5, %hgH5, H5⟩, ⟨%dHS0, %gHS0, -, HS0⟩, ⟨%dHS1, %gHS1, -, HS1⟩, ⟨%dHS2, %gHS2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hgH5
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    iexists _; iexact HS2

end Cert.KernelIdeal.Hand

end
-- ==== Proof.K1RunB.lean ====
/-
  The main kernel's body at the first hidden tile of a later layer, h = 0 and l > 0: the layer's two accumulators are zeroed and the tile's row sums and product are added to them; the output accumulator and the output block are not touched.
-/
import proofs.«102676_j85581518340279_1_alg».proof.Proof.K1Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body in this case, on whole memrefs: the five input blocks kept; the accumulators and the output's staging
    buffer as the statement says; the pieces each written buffer ends with are those the body's stores write. -/
noncomputable def kernelRun1_B (c : Dev nD) (i : grid1.Coords) (arg3 : Memref sig .tc .vmem S1x1024 .f32) (harg3 : arg3.IsWhole) (arg4 : Memref sig .tc .vmem S1024x1024 .bf16) (harg4 : arg4.IsWhole) (arg5 : Memref sig .tc .vmem S8x4096 .f32) (harg5 : arg5.IsWhole) (arg6 : Memref sig .tc .vmem S1024x1024 .bf16) (harg6 : arg6.IsWhole) (arg7 : Memref sig .tc .vmem S1x1024x1024 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i) (hc2 : ¬cond1_2 i) (hc3 : ¬cond1_3 i)
    (x0 : Vec F S1x1024 .f32) (x1 : Vec F S1024x1024 .bf16) (x2 : Vec F S8x4096 .f32) (x3 : Vec F S1024x1024 .bf16) (x4 : Vec F S1x1024x1024 .bf16) :
    Σ' (LS1 : List (View.Piece (Elt F) S1024x1 .f32)), { LS2 : List (View.Piece (Elt F) S1024x1024 .f32) //
      ∀ (xi5 : Vec F S1024x1024 .f32) (xs0 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__main_kernel i arg3 harg3 arg4 harg4 arg5 harg5 arg6 harg6 arg7 harg7 arg8 harg8 arg9 harg9 arg10 harg10 arg11 harg11) K } := by
  refine ⟨?_, ?_, fun xi5 xs0 E K => ?run⟩
  case run =>
    simp only [cc1__main_kernel_eq_skeleton]; unfold cc1__main_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%gH5, %hgH5, H5⟩, ⟨%gHS0, %hgHS0, HS0⟩, ⟨%dHS1, %gHS1, -, HS1⟩, ⟨%dHS2, %gHS2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hgH5; obtain rfl := harg9.eq_unread hgHS0
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]
    · iexists _; isplitr; · ipureintro; exact harg9.read_unread _
      iexact HS0
    isplitl [HS1]; · iexists _; iexact HS1
    iexists _; iexact HS2

end Cert.KernelIdeal.Hand

end
-- ==== Proof.K1RunC.lean ====
/-
  The main kernel's body at a middle hidden tile, h = 1 or 2: the tile's row sums and product are added to the layer's two accumulators; the output accumulator and the output block are not touched.
-/
import proofs.«102676_j85581518340279_1_alg».proof.Proof.K1Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body in this case, on whole memrefs: the five input blocks kept; the accumulators and the output's staging
    buffer as the statement says; the pieces each written buffer ends with are those the body's stores write. -/
noncomputable def kernelRun1_C (c : Dev nD) (i : grid1.Coords) (arg3 : Memref sig .tc .vmem S1x1024 .f32) (harg3 : arg3.IsWhole) (arg4 : Memref sig .tc .vmem S1024x1024 .bf16) (harg4 : arg4.IsWhole) (arg5 : Memref sig .tc .vmem S8x4096 .f32) (harg5 : arg5.IsWhole) (arg6 : Memref sig .tc .vmem S1024x1024 .bf16) (harg6 : arg6.IsWhole) (arg7 : Memref sig .tc .vmem S1x1024x1024 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : ¬cond1_1 i) (hc2 : ¬cond1_2 i) (hc3 : ¬cond1_3 i)
    (x0 : Vec F S1x1024 .f32) (x1 : Vec F S1024x1024 .bf16) (x2 : Vec F S8x4096 .f32) (x3 : Vec F S1024x1024 .bf16) (x4 : Vec F S1x1024x1024 .bf16) (xs1 : Vec F S1024x1 .f32) (xs2 : Vec F S1024x1024 .f32) :
    Σ' (LS1 : List (View.Piece (Elt F) S1024x1 .f32)), { LS2 : List (View.Piece (Elt F) S1024x1024 .f32) //
      ∀ (xi5 : Vec F S1024x1024 .f32) (xs0 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ owns (c : Thread nD τ) arg10 fullShare xs1 ∗ owns (c : Thread nD τ) arg11 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__main_kernel i arg3 harg3 arg4 harg4 arg5 harg5 arg6 harg6 arg7 harg7 arg8 harg8 arg9 harg9 arg10 harg10 arg11 harg11) K } := by
  refine ⟨?_, ?_, fun xi5 xs0 E K => ?run⟩
  case run =>
    simp only [cc1__main_kernel_eq_skeleton]; unfold cc1__main_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%gH5, %hgH5, H5⟩, ⟨%gHS0, %hgHS0, HS0⟩, ⟨%gHS1, %hgHS1, HS1⟩, ⟨%gHS2, %hgHS2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hgH5; obtain rfl := harg9.eq_unread hgHS0; obtain rfl := harg10.eq_unread hgHS1; obtain rfl := harg11.eq_unread hgHS2
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]
    · iexists _; isplitr; · ipureintro; exact harg9.read_unread _
      iexact HS0
    isplitl [HS1]; · iexists _; iexact HS1
    iexists _; iexact HS2

end Cert.KernelIdeal.Hand

end
-- ==== Proof.K1RunD.lean ====
/-
  The main kernel's body at the last hidden tile of a layer that is not the last, h = 3 and l < 7: the tile's row sums and product are added to the layer's two accumulators, and the row sums times the product are then added to the output accumulator; the output block is not touched.
-/
import proofs.«102676_j85581518340279_1_alg».proof.Proof.K1Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body in this case, on whole memrefs: the five input blocks kept; the accumulators and the output's staging
    buffer as the statement says; the pieces each written buffer ends with are those the body's stores write. -/
noncomputable def kernelRun1_D (c : Dev nD) (i : grid1.Coords) (arg3 : Memref sig .tc .vmem S1x1024 .f32) (harg3 : arg3.IsWhole) (arg4 : Memref sig .tc .vmem S1024x1024 .bf16) (harg4 : arg4.IsWhole) (arg5 : Memref sig .tc .vmem S8x4096 .f32) (harg5 : arg5.IsWhole) (arg6 : Memref sig .tc .vmem S1024x1024 .bf16) (harg6 : arg6.IsWhole) (arg7 : Memref sig .tc .vmem S1x1024x1024 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : ¬cond1_1 i) (hc2 : cond1_2 i) (hc3 : ¬cond1_3 i)
    (x0 : Vec F S1x1024 .f32) (x1 : Vec F S1024x1024 .bf16) (x2 : Vec F S8x4096 .f32) (x3 : Vec F S1024x1024 .bf16) (x4 : Vec F S1x1024x1024 .bf16) (xs0 : Vec F S1024x1024 .f32) (xs1 : Vec F S1024x1 .f32) (xs2 : Vec F S1024x1024 .f32) :
    Σ' (LS0 : List (View.Piece (Elt F) S1024x1024 .f32)) (LS1 : List (View.Piece (Elt F) S1024x1 .f32)), { LS2 : List (View.Piece (Elt F) S1024x1024 .f32) //
      ∀ (xi5 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ owns (c : Thread nD τ) arg10 fullShare xs1 ∗ owns (c : Thread nD τ) arg11 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__main_kernel i arg3 harg3 arg4 harg4 arg5 harg5 arg6 harg6 arg7 harg7 arg8 harg8 arg9 harg9 arg10 harg10 arg11 harg11) K } := by
  refine ⟨?_, ?_, ?_, fun xi5 E K => ?run⟩
  case run =>
    simp only [cc1__main_kernel_eq_skeleton]; unfold cc1__main_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%gH5, %hgH5, H5⟩, ⟨%gHS0, %hgHS0, HS0⟩, ⟨%gHS1, %hgHS1, HS1⟩, ⟨%gHS2, %hgHS2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hgH5; obtain rfl := harg9.eq_unread hgHS0; obtain rfl := harg10.eq_unread hgHS1; obtain rfl := harg11.eq_unread hgHS2
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    iexists _; iexact HS2

end Cert.KernelIdeal.Hand

end
-- ==== Proof.K1RunE.lean ====
/-
  The main kernel's body at the last point of a row block, (l, h) = (7, 3): as at the last hidden tile of any layer, and the output accumulator is then stored as the output block.
-/
import proofs.«102676_j85581518340279_1_alg».proof.Proof.K1Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body in this case, on whole memrefs: the five input blocks kept; the accumulators and the output's staging
    buffer as the statement says; the pieces each written buffer ends with are those the body's stores write. -/
noncomputable def kernelRun1_E (c : Dev nD) (i : grid1.Coords) (arg3 : Memref sig .tc .vmem S1x1024 .f32) (harg3 : arg3.IsWhole) (arg4 : Memref sig .tc .vmem S1024x1024 .bf16) (harg4 : arg4.IsWhole) (arg5 : Memref sig .tc .vmem S8x4096 .f32) (harg5 : arg5.IsWhole) (arg6 : Memref sig .tc .vmem S1024x1024 .bf16) (harg6 : arg6.IsWhole) (arg7 : Memref sig .tc .vmem S1x1024x1024 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : ¬cond1_1 i) (hc2 : cond1_2 i) (hc3 : cond1_3 i)
    (x0 : Vec F S1x1024 .f32) (x1 : Vec F S1024x1024 .bf16) (x2 : Vec F S8x4096 .f32) (x3 : Vec F S1024x1024 .bf16) (x4 : Vec F S1x1024x1024 .bf16) (xs0 : Vec F S1024x1024 .f32) (xs1 : Vec F S1024x1 .f32) (xs2 : Vec F S1024x1024 .f32) :
    Σ' (L5 : List (View.Piece (Elt F) S1024x1024 .f32)) (LS0 : List (View.Piece (Elt F) S1024x1024 .f32)) (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__main_kernel i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1__main_kernel_eq_skeleton]; unfold cc1__main_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%dH5, %gH5, -, H5⟩, ⟨%gHS0, %hgHS0, HS0⟩, ⟨%gHS1, %hgHS1, HS1⟩, ⟨%gHS2, %hgHS2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hgHS0; obtain rfl := harg10.eq_unread hgHS1; obtain rfl := harg11.eq_unread hgHS2
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    isplitl [HS1]; · iexists _; iexact HS1
    iexists _; iexact HS2

end Cert.KernelIdeal.Hand

end
-- ==== Proof.K1Frame.lean ====
/-
  The second kernel region as a whole: what the output block's staging buffer and the three accumulators hold after
  each of the 128 points, by recursion on the point over the pieces the body writes in each of its five cases — the output accumulator
  started at a + x·Vsq when a row block begins and increased by (row sums) ⊙ (product) when a layer ends, the layer's
  row sums and product zeroed when a layer begins and increased tile by tile —; the region invariant carrying the
  accumulators from one point to the next; the proof data; and the body obligation at every point, by cases on the
  point's position.
-/
import proofs.«102676_j85581518340279_1_alg».proof.Proof.K1RunA
import proofs.«102676_j85581518340279_1_alg».proof.Proof.K1RunB
import proofs.«102676_j85581518340279_1_alg».proof.Proof.K1RunC
import proofs.«102676_j85581518340279_1_alg».proof.Proof.K1RunD
import proofs.«102676_j85581518340279_1_alg».proof.Proof.K1RunE

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- At a point that stores nothing into the output block its staging buffer is handed back as found: a placeholder
    nothing consults. -/
def idleOut1 : Vec F S1024x1024 .f32 := VO1_5.read (Elt F) (VO1_5.writes (Elt F) VO1_5.junk [])

/-! ## What each case leaves -/

theorem cover1_A_LS0 (c : Dev nD) (i : grid1.Coords) (arg3 : Memref sig .tc .vmem S1x1024 .f32) (harg3 : arg3.IsWhole) (arg4 : Memref sig .tc .vmem S1024x1024 .bf16) (harg4 : arg4.IsWhole) (arg5 : Memref sig .tc .vmem S8x4096 .f32) (harg5 : arg5.IsWhole) (arg6 : Memref sig .tc .vmem S1024x1024 .bf16) (harg6 : arg6.IsWhole) (arg7 : Memref sig .tc .vmem S1x1024x1024 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : cond1_1 i) (hc2 : ¬cond1_2 i) (hc3 : ¬cond1_3 i) (x0 : Vec F S1x1024 .f32) (x1 : Vec F S1024x1024 .bf16) (x2 : Vec F S8x4096 .f32) (x3 : Vec F S1024x1024 .bf16) (x4 : Vec F S1x1024x1024 .bf16)  (y : S1024x1024.Idx) :
    ∃ pc ∈ (kernelRun1_A c i arg3 harg3 arg4 harg4 arg5 harg5 arg6 harg6 arg7 harg7 arg8 harg8 arg9 harg9 arg10 harg10 arg11 harg11 hc0 hc1 hc2 hc3 x0 x1 x2 x3 x4).1, y ∈ pc.1.set :=
  View.cover_of_tiledL (kernelRun1_A c i arg3 harg3 arg4 harg4 arg5 harg5 arg6 harg6 arg7 harg7 arg8 harg8 arg9 harg9 arg10 harg10 arg11 harg11 hc0 hc1 hc2 hc3 x0 x1 x2 x3 x4).1 S1024x1024.size (by sl_kernel_rfl) y

theorem cover1_A_LS1 (c : Dev nD) (i : grid1.Coords) (arg3 : Memref sig .tc .vmem S1x1024 .f32) (harg3 : arg3.IsWhole) (arg4 : Memref sig .tc .vmem S1024x1024 .bf16) (harg4 : arg4.IsWhole) (arg5 : Memref sig .tc .vmem S8x4096 .f32) (harg5 : arg5.IsWhole) (arg6 : Memref sig .tc .vmem S1024x1024 .bf16) (harg6 : arg6.IsWhole) (arg7 : Memref sig .tc .vmem S1x1024x1024 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : cond1_1 i) (hc2 : ¬cond1_2 i) (hc3 : ¬cond1_3 i) (x0 : Vec F S1x1024 .f32) (x1 : Vec F S1024x1024 .bf16) (x2 : Vec F S8x4096 .f32) (x3 : Vec F S1024x1024 .bf16) (x4 : Vec F S1x1024x1024 .bf16)  (y : S1024x1.Idx) :
    ∃ pc ∈ (kernelRun1_A c i arg3 harg3 arg4 harg4 arg5 harg5 arg6 harg6 arg7 harg7 arg8 harg8 arg9 harg9 arg10 harg10 arg11 harg11 hc0 hc1 hc2 hc3 x0 x1 x2 x3 x4).2.1, y ∈ pc.1.set :=
  View.cover_of_tiledL (kernelRun1_A c i arg3 harg3 arg4 harg4 arg5 harg5 arg6 harg6 arg7 harg7 arg8 harg8 arg9 harg9 arg10 harg10 arg11 harg11 hc0 hc1 hc2 hc3 x0 x1 x2 x3 x4).2.1 S1024x1.size (by sl_kernel_rfl) y

theorem cover1_A_LS2 (c : Dev nD) (i : grid1.Coords) (arg3 : Memref sig .tc .vmem S1x1024 .f32) (harg3 : arg3.IsWhole) (arg4 : Memref sig .tc .vmem S1024x1024 .bf16) (harg4 : arg4.IsWhole) (arg5 : Memref sig .tc .vmem S8x4096 .f32) (harg5 : arg5.IsWhole) (arg6 : Memref sig .tc .vmem S1024x1024 .bf16) (harg6 : arg6.IsWhole) (arg7 : Memref sig .tc .vmem S1x1024x1024 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : cond1_1 i) (hc2 : ¬cond1_2 i) (hc3 : ¬cond1_3 i) (x0 : Vec F S1x1024 .f32) (x1 : Vec F S1024x1024 .bf16) (x2 : Vec F S8x4096 .f32) (x3 : Vec F S1024x1024 .bf16) (x4 : Vec F S1x1024x1024 .bf16)  (y : S1024x1024.Idx) :
    ∃ pc ∈ (kernelRun1_A c i arg3 harg3 arg4 harg4 arg5 harg5 arg6 harg6 arg7 harg7 arg8 harg8 arg9 harg9 arg10 harg10 arg11 harg11 hc0 hc1 hc2 hc3 x0 x1 x2 x3 x4).2.2.1, y ∈ pc.1.set :=
  View.cover_of_tiledL (kernelRun1_A c i arg3 harg3 arg4 harg4 arg5 harg5 arg6 harg6 arg7 harg7 arg8 harg8 arg9 harg9 arg10 harg10 arg11 harg11 hc0 hc1 hc2 hc3 x0 x1 x2 x3 x4).2.2.1 S1024x1024.size (by sl_kernel_rfl) y

/-- After a point of case A: (the output block's staging buffer, the output accumulator, the layer's row sums, the layer's product). -/
def res1_A (c : Dev nD) (i : grid1.Coords) (arg3 : Memref sig .tc .vmem S1x1024 .f32) (harg3 : arg3.IsWhole) (arg4 : Memref sig .tc .vmem S1024x1024 .bf16) (harg4 : arg4.IsWhole) (arg5 : Memref sig .tc .vmem S8x4096 .f32) (harg5 : arg5.IsWhole) (arg6 : Memref sig .tc .vmem S1024x1024 .bf16) (harg6 : arg6.IsWhole) (arg7 : Memref sig .tc .vmem S1x1024x1024 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : cond1_1 i) (hc2 : ¬cond1_2 i) (hc3 : ¬cond1_3 i) (x0 : Vec F S1x1024 .f32) (x1 : Vec F S1024x1024 .bf16) (x2 : Vec F S8x4096 .f32) (x3 : Vec F S1024x1024 .bf16) (x4 : Vec F S1x1024x1024 .bf16) : Vec F S1024x1024 .f32 × Vec F S1024x1024 .f32 × Vec F S1024x1 .f32 × Vec F S1024x1024 .f32 :=
  (idleOut1, VS1_0.read (Elt F) (VS1_0.writes (Elt F) VS1_0.junk (kernelRun1_A c i arg3 harg3 arg4 harg4 arg5 harg5 arg6 harg6 arg7 harg7 arg8 harg8 arg9 harg9 arg10 harg10 arg11 harg11 hc0 hc1 hc2 hc3 x0 x1 x2 x3 x4).1), VS1_1.read (Elt F) (VS1_1.writes (Elt F) VS1_1.junk (kernelRun1_A c i arg3 harg3 arg4 harg4 arg5 harg5 arg6 harg6 arg7 harg7 arg8 harg8 arg9 harg9 arg10 harg10 arg11 harg11 hc0 hc1 hc2 hc3 x0 x1 x2 x3 x4).2.1), VS1_2.read (Elt F) (VS1_2.writes (Elt F) VS1_2.junk (kernelRun1_A c i arg3 harg3 arg4 harg4 arg5 harg5 arg6 harg6 arg7 harg7 arg8 harg8 arg9 harg9 arg10 harg10 arg11 harg11 hc0 hc1 hc2 hc3 x0 x1 x2 x3 x4).2.2.1))

theorem cover1_B_LS1 (c : Dev nD) (i : grid1.Coords) (arg3 : Memref sig .tc .vmem S1x1024 .f32) (harg3 : arg3.IsWhole) (arg4 : Memref sig .tc .vmem S1024x1024 .bf16) (harg4 : arg4.IsWhole) (arg5 : Memref sig .tc .vmem S8x4096 .f32) (harg5 : arg5.IsWhole) (arg6 : Memref sig .tc .vmem S1024x1024 .bf16) (harg6 : arg6.IsWhole) (arg7 : Memref sig .tc .vmem S1x1024x1024 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i) (hc2 : ¬cond1_2 i) (hc3 : ¬cond1_3 i) (x0 : Vec F S1x1024 .f32) (x1 : Vec F S1024x1024 .bf16) (x2 : Vec F S8x4096 .f32) (x3 : Vec F S1024x1024 .bf16) (x4 : Vec F S1x1024x1024 .bf16)  (y : S1024x1.Idx) :
    ∃ pc ∈ (kernelRun1_B c i arg3 harg3 arg4 harg4 arg5 harg5 arg6 harg6 arg7 harg7 arg8 harg8 arg9 harg9 arg10 harg10 arg11 harg11 hc0 hc1 hc2 hc3 x0 x1 x2 x3 x4).1, y ∈ pc.1.set :=
  View.cover_of_tiledL (kernelRun1_B c i arg3 harg3 arg4 harg4 arg5 harg5 arg6 harg6 arg7 harg7 arg8 harg8 arg9 harg9 arg10 harg10 arg11 harg11 hc0 hc1 hc2 hc3 x0 x1 x2 x3 x4).1 S1024x1.size (by sl_kernel_rfl) y

theorem cover1_B_LS2 (c : Dev nD) (i : grid1.Coords) (arg3 : Memref sig .tc .vmem S1x1024 .f32) (harg3 : arg3.IsWhole) (arg4 : Memref sig .tc .vmem S1024x1024 .bf16) (harg4 : arg4.IsWhole) (arg5 : Memref sig .tc .vmem S8x4096 .f32) (harg5 : arg5.IsWhole) (arg6 : Memref sig .tc .vmem S1024x1024 .bf16) (harg6 : arg6.IsWhole) (arg7 : Memref sig .tc .vmem S1x1024x1024 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i) (hc2 : ¬cond1_2 i) (hc3 : ¬cond1_3 i) (x0 : Vec F S1x1024 .f32) (x1 : Vec F S1024x1024 .bf16) (x2 : Vec F S8x4096 .f32) (x3 : Vec F S1024x1024 .bf16) (x4 : Vec F S1x1024x1024 .bf16)  (y : S1024x1024.Idx) :
    ∃ pc ∈ (kernelRun1_B c i arg3 harg3 arg4 harg4 arg5 harg5 arg6 harg6 arg7 harg7 arg8 harg8 arg9 harg9 arg10 harg10 arg11 harg11 hc0 hc1 hc2 hc3 x0 x1 x2 x3 x4).2.1, y ∈ pc.1.set :=
  View.cover_of_tiledL (kernelRun1_B c i arg3 harg3 arg4 harg4 arg5 harg5 arg6 harg6 arg7 harg7 arg8 harg8 arg9 harg9 arg10 harg10 arg11 harg11 hc0 hc1 hc2 hc3 x0 x1 x2 x3 x4).2.1 S1024x1024.size (by sl_kernel_rfl) y

/-- After a point of case B: (the output block's staging buffer, the output accumulator, the layer's row sums, the layer's product), over what the point before left (`p`). -/
def res1_B (c : Dev nD) (i : grid1.Coords) (arg3 : Memref sig .tc .vmem S1x1024 .f32) (harg3 : arg3.IsWhole) (arg4 : Memref sig .tc .vmem S1024x1024 .bf16) (harg4 : arg4.IsWhole) (arg5 : Memref sig .tc .vmem S8x4096 .f32) (harg5 : arg5.IsWhole) (arg6 : Memref sig .tc .vmem S1024x1024 .bf16) (harg6 : arg6.IsWhole) (arg7 : Memref sig .tc .vmem S1x1024x1024 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i) (hc2 : ¬cond1_2 i) (hc3 : ¬cond1_3 i) (x0 : Vec F S1x1024 .f32) (x1 : Vec F S1024x1024 .bf16) (x2 : Vec F S8x4096 .f32) (x3 : Vec F S1024x1024 .bf16) (x4 : Vec F S1x1024x1024 .bf16) (p : Vec F S1024x1024 .f32 × Vec F S1024x1024 .f32 × Vec F S1024x1 .f32 × Vec F S1024x1024 .f32) : Vec F S1024x1024 .f32 × Vec F S1024x1024 .f32 × Vec F S1024x1 .f32 × Vec F S1024x1024 .f32 :=
  (idleOut1, p.2.1, VS1_1.read (Elt F) (VS1_1.writes (Elt F) VS1_1.junk (kernelRun1_B c i arg3 harg3 arg4 harg4 arg5 harg5 arg6 harg6 arg7 harg7 arg8 harg8 arg9 harg9 arg10 harg10 arg11 harg11 hc0 hc1 hc2 hc3 x0 x1 x2 x3 x4).1), VS1_2.read (Elt F) (VS1_2.writes (Elt F) VS1_2.junk (kernelRun1_B c i arg3 harg3 arg4 harg4 arg5 harg5 arg6 harg6 arg7 harg7 arg8 harg8 arg9 harg9 arg10 harg10 arg11 harg11 hc0 hc1 hc2 hc3 x0 x1 x2 x3 x4).2.1))

theorem cover1_C_LS1 (c : Dev nD) (i : grid1.Coords) (arg3 : Memref sig .tc .vmem S1x1024 .f32) (harg3 : arg3.IsWhole) (arg4 : Memref sig .tc .vmem S1024x1024 .bf16) (harg4 : arg4.IsWhole) (arg5 : Memref sig .tc .vmem S8x4096 .f32) (harg5 : arg5.IsWhole) (arg6 : Memref sig .tc .vmem S1024x1024 .bf16) (harg6 : arg6.IsWhole) (arg7 : Memref sig .tc .vmem S1x1024x1024 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : ¬cond1_1 i) (hc2 : ¬cond1_2 i) (hc3 : ¬cond1_3 i) (x0 : Vec F S1x1024 .f32) (x1 : Vec F S1024x1024 .bf16) (x2 : Vec F S8x4096 .f32) (x3 : Vec F S1024x1024 .bf16) (x4 : Vec F S1x1024x1024 .bf16) (xs1 : Vec F S1024x1 .f32) (xs2 : Vec F S1024x1024 .f32) (y : S1024x1.Idx) :
    ∃ pc ∈ (kernelRun1_C c i arg3 harg3 arg4 harg4 arg5 harg5 arg6 harg6 arg7 harg7 arg8 harg8 arg9 harg9 arg10 harg10 arg11 harg11 hc0 hc1 hc2 hc3 x0 x1 x2 x3 x4 xs1 xs2).1, y ∈ pc.1.set :=
  View.cover_of_tiledL (kernelRun1_C c i arg3 harg3 arg4 harg4 arg5 harg5 arg6 harg6 arg7 harg7 arg8 harg8 arg9 harg9 arg10 harg10 arg11 harg11 hc0 hc1 hc2 hc3 x0 x1 x2 x3 x4 xs1 xs2).1 S1024x1.size (by sl_kernel_rfl) y

theorem cover1_C_LS2 (c : Dev nD) (i : grid1.Coords) (arg3 : Memref sig .tc .vmem S1x1024 .f32) (harg3 : arg3.IsWhole) (arg4 : Memref sig .tc .vmem S1024x1024 .bf16) (harg4 : arg4.IsWhole) (arg5 : Memref sig .tc .vmem S8x4096 .f32) (harg5 : arg5.IsWhole) (arg6 : Memref sig .tc .vmem S1024x1024 .bf16) (harg6 : arg6.IsWhole) (arg7 : Memref sig .tc .vmem S1x1024x1024 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : ¬cond1_1 i) (hc2 : ¬cond1_2 i) (hc3 : ¬cond1_3 i) (x0 : Vec F S1x1024 .f32) (x1 : Vec F S1024x1024 .bf16) (x2 : Vec F S8x4096 .f32) (x3 : Vec F S1024x1024 .bf16) (x4 : Vec F S1x1024x1024 .bf16) (xs1 : Vec F S1024x1 .f32) (xs2 : Vec F S1024x1024 .f32) (y : S1024x1024.Idx) :
    ∃ pc ∈ (kernelRun1_C c i arg3 harg3 arg4 harg4 arg5 harg5 arg6 harg6 arg7 harg7 arg8 harg8 arg9 harg9 arg10 harg10 arg11 harg11 hc0 hc1 hc2 hc3 x0 x1 x2 x3 x4 xs1 xs2).2.1, y ∈ pc.1.set :=
  View.cover_of_tiledL (kernelRun1_C c i arg3 harg3 arg4 harg4 arg5 harg5 arg6 harg6 arg7 harg7 arg8 harg8 arg9 harg9 arg10 harg10 arg11 harg11 hc0 hc1 hc2 hc3 x0 x1 x2 x3 x4 xs1 xs2).2.1 S1024x1024.size (by sl_kernel_rfl) y

/-- After a point of case C: (the output block's staging buffer, the output accumulator, the layer's row sums, the layer's product), over what the point before left (`p`). -/
def res1_C (c : Dev nD) (i : grid1.Coords) (arg3 : Memref sig .tc .vmem S1x1024 .f32) (harg3 : arg3.IsWhole) (arg4 : Memref sig .tc .vmem S1024x1024 .bf16) (harg4 : arg4.IsWhole) (arg5 : Memref sig .tc .vmem S8x4096 .f32) (harg5 : arg5.IsWhole) (arg6 : Memref sig .tc .vmem S1024x1024 .bf16) (harg6 : arg6.IsWhole) (arg7 : Memref sig .tc .vmem S1x1024x1024 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : ¬cond1_1 i) (hc2 : ¬cond1_2 i) (hc3 : ¬cond1_3 i) (x0 : Vec F S1x1024 .f32) (x1 : Vec F S1024x1024 .bf16) (x2 : Vec F S8x4096 .f32) (x3 : Vec F S1024x1024 .bf16) (x4 : Vec F S1x1024x1024 .bf16) (p : Vec F S1024x1024 .f32 × Vec F S1024x1024 .f32 × Vec F S1024x1 .f32 × Vec F S1024x1024 .f32) : Vec F S1024x1024 .f32 × Vec F S1024x1024 .f32 × Vec F S1024x1 .f32 × Vec F S1024x1024 .f32 :=
  (idleOut1, p.2.1, VS1_1.read (Elt F) (VS1_1.writes (Elt F) VS1_1.junk (kernelRun1_C c i arg3 harg3 arg4 harg4 arg5 harg5 arg6 harg6 arg7 harg7 arg8 harg8 arg9 harg9 arg10 harg10 arg11 harg11 hc0 hc1 hc2 hc3 x0 x1 x2 x3 x4 (p.2.2.1) (p.2.2.2)).1), VS1_2.read (Elt F) (VS1_2.writes (Elt F) VS1_2.junk (kernelRun1_C c i arg3 harg3 arg4 harg4 arg5 harg5 arg6 harg6 arg7 harg7 arg8 harg8 arg9 harg9 arg10 harg10 arg11 harg11 hc0 hc1 hc2 hc3 x0 x1 x2 x3 x4 (p.2.2.1) (p.2.2.2)).2.1))

theorem cover1_D_LS0 (c : Dev nD) (i : grid1.Coords) (arg3 : Memref sig .tc .vmem S1x1024 .f32) (harg3 : arg3.IsWhole) (arg4 : Memref sig .tc .vmem S1024x1024 .bf16) (harg4 : arg4.IsWhole) (arg5 : Memref sig .tc .vmem S8x4096 .f32) (harg5 : arg5.IsWhole) (arg6 : Memref sig .tc .vmem S1024x1024 .bf16) (harg6 : arg6.IsWhole) (arg7 : Memref sig .tc .vmem S1x1024x1024 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : ¬cond1_1 i) (hc2 : cond1_2 i) (hc3 : ¬cond1_3 i) (x0 : Vec F S1x1024 .f32) (x1 : Vec F S1024x1024 .bf16) (x2 : Vec F S8x4096 .f32) (x3 : Vec F S1024x1024 .bf16) (x4 : Vec F S1x1024x1024 .bf16) (xs0 : Vec F S1024x1024 .f32) (xs1 : Vec F S1024x1 .f32) (xs2 : Vec F S1024x1024 .f32) (y : S1024x1024.Idx) :
    ∃ pc ∈ (kernelRun1_D c i arg3 harg3 arg4 harg4 arg5 harg5 arg6 harg6 arg7 harg7 arg8 harg8 arg9 harg9 arg10 harg10 arg11 harg11 hc0 hc1 hc2 hc3 x0 x1 x2 x3 x4 xs0 xs1 xs2).1, y ∈ pc.1.set :=
  View.cover_of_tiledL (kernelRun1_D c i arg3 harg3 arg4 harg4 arg5 harg5 arg6 harg6 arg7 harg7 arg8 harg8 arg9 harg9 arg10 harg10 arg11 harg11 hc0 hc1 hc2 hc3 x0 x1 x2 x3 x4 xs0 xs1 xs2).1 S1024x1024.size (by sl_kernel_rfl) y

theorem cover1_D_LS1 (c : Dev nD) (i : grid1.Coords) (arg3 : Memref sig .tc .vmem S1x1024 .f32) (harg3 : arg3.IsWhole) (arg4 : Memref sig .tc .vmem S1024x1024 .bf16) (harg4 : arg4.IsWhole) (arg5 : Memref sig .tc .vmem S8x4096 .f32) (harg5 : arg5.IsWhole) (arg6 : Memref sig .tc .vmem S1024x1024 .bf16) (harg6 : arg6.IsWhole) (arg7 : Memref sig .tc .vmem S1x1024x1024 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : ¬cond1_1 i) (hc2 : cond1_2 i) (hc3 : ¬cond1_3 i) (x0 : Vec F S1x1024 .f32) (x1 : Vec F S1024x1024 .bf16) (x2 : Vec F S8x4096 .f32) (x3 : Vec F S1024x1024 .bf16) (x4 : Vec F S1x1024x1024 .bf16) (xs0 : Vec F S1024x1024 .f32) (xs1 : Vec F S1024x1 .f32) (xs2 : Vec F S1024x1024 .f32) (y : S1024x1.Idx) :
    ∃ pc ∈ (kernelRun1_D c i arg3 harg3 arg4 harg4 arg5 harg5 arg6 harg6 arg7 harg7 arg8 harg8 arg9 harg9 arg10 harg10 arg11 harg11 hc0 hc1 hc2 hc3 x0 x1 x2 x3 x4 xs0 xs1 xs2).2.1, y ∈ pc.1.set :=
  View.cover_of_tiledL (kernelRun1_D c i arg3 harg3 arg4 harg4 arg5 harg5 arg6 harg6 arg7 harg7 arg8 harg8 arg9 harg9 arg10 harg10 arg11 harg11 hc0 hc1 hc2 hc3 x0 x1 x2 x3 x4 xs0 xs1 xs2).2.1 S1024x1.size (by sl_kernel_rfl) y

theorem cover1_D_LS2 (c : Dev nD) (i : grid1.Coords) (arg3 : Memref sig .tc .vmem S1x1024 .f32) (harg3 : arg3.IsWhole) (arg4 : Memref sig .tc .vmem S1024x1024 .bf16) (harg4 : arg4.IsWhole) (arg5 : Memref sig .tc .vmem S8x4096 .f32) (harg5 : arg5.IsWhole) (arg6 : Memref sig .tc .vmem S1024x1024 .bf16) (harg6 : arg6.IsWhole) (arg7 : Memref sig .tc .vmem S1x1024x1024 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : ¬cond1_1 i) (hc2 : cond1_2 i) (hc3 : ¬cond1_3 i) (x0 : Vec F S1x1024 .f32) (x1 : Vec F S1024x1024 .bf16) (x2 : Vec F S8x4096 .f32) (x3 : Vec F S1024x1024 .bf16) (x4 : Vec F S1x1024x1024 .bf16) (xs0 : Vec F S1024x1024 .f32) (xs1 : Vec F S1024x1 .f32) (xs2 : Vec F S1024x1024 .f32) (y : S1024x1024.Idx) :
    ∃ pc ∈ (kernelRun1_D c i arg3 harg3 arg4 harg4 arg5 harg5 arg6 harg6 arg7 harg7 arg8 harg8 arg9 harg9 arg10 harg10 arg11 harg11 hc0 hc1 hc2 hc3 x0 x1 x2 x3 x4 xs0 xs1 xs2).2.2.1, y ∈ pc.1.set :=
  View.cover_of_tiledL (kernelRun1_D c i arg3 harg3 arg4 harg4 arg5 harg5 arg6 harg6 arg7 harg7 arg8 harg8 arg9 harg9 arg10 harg10 arg11 harg11 hc0 hc1 hc2 hc3 x0 x1 x2 x3 x4 xs0 xs1 xs2).2.2.1 S1024x1024.size (by sl_kernel_rfl) y

/-- After a point of case D: (the output block's staging buffer, the output accumulator, the layer's row sums, the layer's product), over what the point before left (`p`). -/
def res1_D (c : Dev nD) (i : grid1.Coords) (arg3 : Memref sig .tc .vmem S1x1024 .f32) (harg3 : arg3.IsWhole) (arg4 : Memref sig .tc .vmem S1024x1024 .bf16) (harg4 : arg4.IsWhole) (arg5 : Memref sig .tc .vmem S8x4096 .f32) (harg5 : arg5.IsWhole) (arg6 : Memref sig .tc .vmem S1024x1024 .bf16) (harg6 : arg6.IsWhole) (arg7 : Memref sig .tc .vmem S1x1024x1024 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : ¬cond1_1 i) (hc2 : cond1_2 i) (hc3 : ¬cond1_3 i) (x0 : Vec F S1x1024 .f32) (x1 : Vec F S1024x1024 .bf16) (x2 : Vec F S8x4096 .f32) (x3 : Vec F S1024x1024 .bf16) (x4 : Vec F S1x1024x1024 .bf16) (p : Vec F S1024x1024 .f32 × Vec F S1024x1024 .f32 × Vec F S1024x1 .f32 × Vec F S1024x1024 .f32) : Vec F S1024x1024 .f32 × Vec F S1024x1024 .f32 × Vec F S1024x1 .f32 × Vec F S1024x1024 .f32 :=
  (idleOut1, VS1_0.read (Elt F) (VS1_0.writes (Elt F) VS1_0.junk (kernelRun1_D c i arg3 harg3 arg4 harg4 arg5 harg5 arg6 harg6 arg7 harg7 arg8 harg8 arg9 harg9 arg10 harg10 arg11 harg11 hc0 hc1 hc2 hc3 x0 x1 x2 x3 x4 (p.2.1) (p.2.2.1) (p.2.2.2)).1), VS1_1.read (Elt F) (VS1_1.writes (Elt F) VS1_1.junk (kernelRun1_D c i arg3 harg3 arg4 harg4 arg5 harg5 arg6 harg6 arg7 harg7 arg8 harg8 arg9 harg9 arg10 harg10 arg11 harg11 hc0 hc1 hc2 hc3 x0 x1 x2 x3 x4 (p.2.1) (p.2.2.1) (p.2.2.2)).2.1), VS1_2.read (Elt F) (VS1_2.writes (Elt F) VS1_2.junk (kernelRun1_D c i arg3 harg3 arg4 harg4 arg5 harg5 arg6 harg6 arg7 harg7 arg8 harg8 arg9 harg9 arg10 harg10 arg11 harg11 hc0 hc1 hc2 hc3 x0 x1 x2 x3 x4 (p.2.1) (p.2.2.1) (p.2.2.2)).2.2.1))

theorem cover1_E_L5 (c : Dev nD) (i : grid1.Coords) (arg3 : Memref sig .tc .vmem S1x1024 .f32) (harg3 : arg3.IsWhole) (arg4 : Memref sig .tc .vmem S1024x1024 .bf16) (harg4 : arg4.IsWhole) (arg5 : Memref sig .tc .vmem S8x4096 .f32) (harg5 : arg5.IsWhole) (arg6 : Memref sig .tc .vmem S1024x1024 .bf16) (harg6 : arg6.IsWhole) (arg7 : Memref sig .tc .vmem S1x1024x1024 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : ¬cond1_1 i) (hc2 : cond1_2 i) (hc3 : cond1_3 i) (x0 : Vec F S1x1024 .f32) (x1 : Vec F S1024x1024 .bf16) (x2 : Vec F S8x4096 .f32) (x3 : Vec F S1024x1024 .bf16) (x4 : Vec F S1x1024x1024 .bf16) (xs0 : Vec F S1024x1024 .f32) (xs1 : Vec F S1024x1 .f32) (xs2 : Vec F S1024x1024 .f32) (y : S1024x1024.Idx) :
    ∃ pc ∈ (kernelRun1_E c i arg3 harg3 arg4 harg4 arg5 harg5 arg6 harg6 arg7 harg7 arg8 harg8 arg9 harg9 arg10 harg10 arg11 harg11 hc0 hc1 hc2 hc3 x0 x1 x2 x3 x4 xs0 xs1 xs2).1, y ∈ pc.1.set :=
  View.cover_of_tiledL (kernelRun1_E c i arg3 harg3 arg4 harg4 arg5 harg5 arg6 harg6 arg7 harg7 arg8 harg8 arg9 harg9 arg10 harg10 arg11 harg11 hc0 hc1 hc2 hc3 x0 x1 x2 x3 x4 xs0 xs1 xs2).1 S1024x1024.size (by sl_kernel_rfl) y

theorem cover1_E_LS0 (c : Dev nD) (i : grid1.Coords) (arg3 : Memref sig .tc .vmem S1x1024 .f32) (harg3 : arg3.IsWhole) (arg4 : Memref sig .tc .vmem S1024x1024 .bf16) (harg4 : arg4.IsWhole) (arg5 : Memref sig .tc .vmem S8x4096 .f32) (harg5 : arg5.IsWhole) (arg6 : Memref sig .tc .vmem S1024x1024 .bf16) (harg6 : arg6.IsWhole) (arg7 : Memref sig .tc .vmem S1x1024x1024 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : ¬cond1_1 i) (hc2 : cond1_2 i) (hc3 : cond1_3 i) (x0 : Vec F S1x1024 .f32) (x1 : Vec F S1024x1024 .bf16) (x2 : Vec F S8x4096 .f32) (x3 : Vec F S1024x1024 .bf16) (x4 : Vec F S1x1024x1024 .bf16) (xs0 : Vec F S1024x1024 .f32) (xs1 : Vec F S1024x1 .f32) (xs2 : Vec F S1024x1024 .f32) (y : S1024x1024.Idx) :
    ∃ pc ∈ (kernelRun1_E c i arg3 harg3 arg4 harg4 arg5 harg5 arg6 harg6 arg7 harg7 arg8 harg8 arg9 harg9 arg10 harg10 arg11 harg11 hc0 hc1 hc2 hc3 x0 x1 x2 x3 x4 xs0 xs1 xs2).2.1, y ∈ pc.1.set :=
  View.cover_of_tiledL (kernelRun1_E c i arg3 harg3 arg4 harg4 arg5 harg5 arg6 harg6 arg7 harg7 arg8 harg8 arg9 harg9 arg10 harg10 arg11 harg11 hc0 hc1 hc2 hc3 x0 x1 x2 x3 x4 xs0 xs1 xs2).2.1 S1024x1024.size (by sl_kernel_rfl) y

theorem cover1_E_LS1 (c : Dev nD) (i : grid1.Coords) (arg3 : Memref sig .tc .vmem S1x1024 .f32) (harg3 : arg3.IsWhole) (arg4 : Memref sig .tc .vmem S1024x1024 .bf16) (harg4 : arg4.IsWhole) (arg5 : Memref sig .tc .vmem S8x4096 .f32) (harg5 : arg5.IsWhole) (arg6 : Memref sig .tc .vmem S1024x1024 .bf16) (harg6 : arg6.IsWhole) (arg7 : Memref sig .tc .vmem S1x1024x1024 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : ¬cond1_1 i) (hc2 : cond1_2 i) (hc3 : cond1_3 i) (x0 : Vec F S1x1024 .f32) (x1 : Vec F S1024x1024 .bf16) (x2 : Vec F S8x4096 .f32) (x3 : Vec F S1024x1024 .bf16) (x4 : Vec F S1x1024x1024 .bf16) (xs0 : Vec F S1024x1024 .f32) (xs1 : Vec F S1024x1 .f32) (xs2 : Vec F S1024x1024 .f32) (y : S1024x1.Idx) :
    ∃ pc ∈ (kernelRun1_E c i arg3 harg3 arg4 harg4 arg5 harg5 arg6 harg6 arg7 harg7 arg8 harg8 arg9 harg9 arg10 harg10 arg11 harg11 hc0 hc1 hc2 hc3 x0 x1 x2 x3 x4 xs0 xs1 xs2).2.2.1, y ∈ pc.1.set :=
  View.cover_of_tiledL (kernelRun1_E c i arg3 harg3 arg4 harg4 arg5 harg5 arg6 harg6 arg7 harg7 arg8 harg8 arg9 harg9 arg10 harg10 arg11 harg11 hc0 hc1 hc2 hc3 x0 x1 x2 x3 x4 xs0 xs1 xs2).2.2.1 S1024x1.size (by sl_kernel_rfl) y

theorem cover1_E_LS2 (c : Dev nD) (i : grid1.Coords) (arg3 : Memref sig .tc .vmem S1x1024 .f32) (harg3 : arg3.IsWhole) (arg4 : Memref sig .tc .vmem S1024x1024 .bf16) (harg4 : arg4.IsWhole) (arg5 : Memref sig .tc .vmem S8x4096 .f32) (harg5 : arg5.IsWhole) (arg6 : Memref sig .tc .vmem S1024x1024 .bf16) (harg6 : arg6.IsWhole) (arg7 : Memref sig .tc .vmem S1x1024x1024 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : ¬cond1_1 i) (hc2 : cond1_2 i) (hc3 : cond1_3 i) (x0 : Vec F S1x1024 .f32) (x1 : Vec F S1024x1024 .bf16) (x2 : Vec F S8x4096 .f32) (x3 : Vec F S1024x1024 .bf16) (x4 : Vec F S1x1024x1024 .bf16) (xs0 : Vec F S1024x1024 .f32) (xs1 : Vec F S1024x1 .f32) (xs2 : Vec F S1024x1024 .f32) (y : S1024x1024.Idx) :
    ∃ pc ∈ (kernelRun1_E c i arg3 harg3 arg4 harg4 arg5 harg5 arg6 harg6 arg7 harg7 arg8 harg8 arg9 harg9 arg10 harg10 arg11 harg11 hc0 hc1 hc2 hc3 x0 x1 x2 x3 x4 xs0 xs1 xs2).2.2.2.1, y ∈ pc.1.set :=
  View.cover_of_tiledL (kernelRun1_E c i arg3 harg3 arg4 harg4 arg5 harg5 arg6 harg6 arg7 harg7 arg8 harg8 arg9 harg9 arg10 harg10 arg11 harg11 hc0 hc1 hc2 hc3 x0 x1 x2 x3 x4 xs0 xs1 xs2).2.2.2.1 S1024x1024.size (by sl_kernel_rfl) y

/-- After a point of case E: (the output block's staging buffer, the output accumulator, the layer's row sums, the layer's product), over what the point before left (`p`). -/
def res1_E (c : Dev nD) (i : grid1.Coords) (arg3 : Memref sig .tc .vmem S1x1024 .f32) (harg3 : arg3.IsWhole) (arg4 : Memref sig .tc .vmem S1024x1024 .bf16) (harg4 : arg4.IsWhole) (arg5 : Memref sig .tc .vmem S8x4096 .f32) (harg5 : arg5.IsWhole) (arg6 : Memref sig .tc .vmem S1024x1024 .bf16) (harg6 : arg6.IsWhole) (arg7 : Memref sig .tc .vmem S1x1024x1024 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : ¬cond1_1 i) (hc2 : cond1_2 i) (hc3 : cond1_3 i) (x0 : Vec F S1x1024 .f32) (x1 : Vec F S1024x1024 .bf16) (x2 : Vec F S8x4096 .f32) (x3 : Vec F S1024x1024 .bf16) (x4 : Vec F S1x1024x1024 .bf16) (p : Vec F S1024x1024 .f32 × Vec F S1024x1024 .f32 × Vec F S1024x1 .f32 × Vec F S1024x1024 .f32) : Vec F S1024x1024 .f32 × Vec F S1024x1024 .f32 × Vec F S1024x1 .f32 × Vec F S1024x1024 .f32 :=
  (VO1_5.read (Elt F) (VO1_5.writes (Elt F) VO1_5.junk (kernelRun1_E c i arg3 harg3 arg4 harg4 arg5 harg5 arg6 harg6 arg7 harg7 arg8 harg8 arg9 harg9 arg10 harg10 arg11 harg11 hc0 hc1 hc2 hc3 x0 x1 x2 x3 x4 (p.2.1) (p.2.2.1) (p.2.2.2)).1), VS1_0.read (Elt F) (VS1_0.writes (Elt F) VS1_0.junk (kernelRun1_E c i arg3 harg3 arg4 harg4 arg5 harg5 arg6 harg6 arg7 harg7 arg8 harg8 arg9 harg9 arg10 harg10 arg11 harg11 hc0 hc1 hc2 hc3 x0 x1 x2 x3 x4 (p.2.1) (p.2.2.1) (p.2.2.2)).2.1), VS1_1.read (Elt F) (VS1_1.writes (Elt F) VS1_1.junk (kernelRun1_E c i arg3 harg3 arg4 harg4 arg5 harg5 arg6 harg6 arg7 harg7 arg8 harg8 arg9 harg9 arg10 harg10 arg11 harg11 hc0 hc1 hc2 hc3 x0 x1 x2 x3 x4 (p.2.1) (p.2.2.1) (p.2.2.2)).2.2.1), VS1_2.read (Elt F) (VS1_2.writes (Elt F) VS1_2.junk (kernelRun1_E c i arg3 harg3 arg4 harg4 arg5 harg5 arg6 harg6 arg7 harg7 arg8 harg8 arg9 harg9 arg10 harg10 arg11 harg11 hc0 hc1 hc2 hc3 x0 x1 x2 x3 x4 (p.2.1) (p.2.2.1) (p.2.2.2)).2.2.2.1))

section
variable (V : (c : Dev nD) → (b : Ref sig .tc) → Buf (Elt F) ((c : Thread nD τ).loc b))

/-! ## What the buffers hold after each point -/

/-- After point `n`: (the output block's staging buffer, the output accumulator, the layer's row sums, the layer's product),
    by the case the point is in (its position modulo 32 and modulo 4), over what the point before left. -/
def outsAt1 (c : Dev nD) : (n : ℕ) → n < cfg1.N → Vec F S1024x1024 .f32 × Vec F S1024x1024 .f32 × Vec F S1024x1 .f32 × Vec F S1024x1024 .f32
  | 0, hn => res1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) ((hcond1_0 ⟨0, hn⟩).mpr (Nat.zero_mod _)) ((hcond1_1 ⟨0, hn⟩).mpr (Nat.zero_mod _)) (fun h => (by decide : ¬ (0 : ℕ) % 4 = 3) ((hcond1_2 ⟨0, hn⟩).mp h)) (fun h => (by decide : ¬ (0 : ℕ) % 32 = 31) ((hcond1_3 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩)
  | n + 1, hn =>
    if g0 : (n + 1) % 32 = 0 then
      have g1 : (n + 1) % 4 = 0 := by omega
      have g2 : ¬(n + 1) % 4 = 3 := by omega
      have g3 : ¬(n + 1) % 32 = 31 := by omega
      res1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) ((hcond1_0 ⟨n + 1, hn⟩).mpr g0) ((hcond1_1 ⟨n + 1, hn⟩).mpr g1) (fun h => g2 ((hcond1_2 ⟨n + 1, hn⟩).mp h)) (fun h => g3 ((hcond1_3 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩)
    else if g1 : (n + 1) % 4 = 0 then
      have g2 : ¬(n + 1) % 4 = 3 := by omega
      have g3 : ¬(n + 1) % 32 = 31 := by omega
      res1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => g0 ((hcond1_0 ⟨n + 1, hn⟩).mp h)) ((hcond1_1 ⟨n + 1, hn⟩).mpr g1) (fun h => g2 ((hcond1_2 ⟨n + 1, hn⟩).mp h)) (fun h => g3 ((hcond1_3 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn))
    else if g2 : (n + 1) % 4 = 3 then
      if g3 : (n + 1) % 32 = 31 then
        res1_E c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => g0 ((hcond1_0 ⟨n + 1, hn⟩).mp h)) (fun h => g1 ((hcond1_1 ⟨n + 1, hn⟩).mp h)) ((hcond1_2 ⟨n + 1, hn⟩).mpr g2) ((hcond1_3 ⟨n + 1, hn⟩).mpr g3) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn))
      else
        res1_D c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => g0 ((hcond1_0 ⟨n + 1, hn⟩).mp h)) (fun h => g1 ((hcond1_1 ⟨n + 1, hn⟩).mp h)) ((hcond1_2 ⟨n + 1, hn⟩).mpr g2) (fun h => g3 ((hcond1_3 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn))
    else
      have g3 : ¬(n + 1) % 32 = 31 := by omega
      res1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => g0 ((hcond1_0 ⟨n + 1, hn⟩).mp h)) (fun h => g1 ((hcond1_1 ⟨n + 1, hn⟩).mp h)) (fun h => g2 ((hcond1_2 ⟨n + 1, hn⟩).mp h)) (fun h => g3 ((hcond1_3 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn))

theorem outsAt1_A (c : Dev nD) (t : Fin cfg1.N) (g0 : t.val % 32 = 0) (g1 : t.val % 4 = 0) (g2 : ¬t.val % 4 = 3) (g3 : ¬t.val % 32 = 31) :
    outsAt1 V c t.val t.isLt = res1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr g0) ((hcond1_1 t).mpr g1) (fun h => g2 ((hcond1_2 t).mp h)) (fun h => g3 ((hcond1_3 t).mp h)) (iblk1 V c 0 t) (iblk1 V c 1 t) (iblk1 V c 2 t) (iblk1 V c 3 t) (iblk1 V c 4 t) := by
  obtain ⟨n, hn⟩ := t
  cases n with
  | zero => exact rfl
  | succ n => exact (dif_pos g0).trans rfl

theorem outsAt1_B (c : Dev nD) (t : Fin cfg1.N) (g0 : ¬t.val % 32 = 0) (g1 : t.val % 4 = 0) (g2 : ¬t.val % 4 = 3) (g3 : ¬t.val % 32 = 31) :
    outsAt1 V c t.val t.isLt = res1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => g0 ((hcond1_0 t).mp h)) ((hcond1_1 t).mpr g1) (fun h => g2 ((hcond1_2 t).mp h)) (fun h => g3 ((hcond1_3 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)) := by
  obtain ⟨n, hn⟩ := t
  cases n with
  | zero => exact absurd (Nat.zero_mod _) g0
  | succ n => exact (dif_neg g0).trans ((dif_pos g1).trans rfl)

theorem outsAt1_C (c : Dev nD) (t : Fin cfg1.N) (g0 : ¬t.val % 32 = 0) (g1 : ¬t.val % 4 = 0) (g2 : ¬t.val % 4 = 3) (g3 : ¬t.val % 32 = 31) :
    outsAt1 V c t.val t.isLt = res1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => g0 ((hcond1_0 t).mp h)) (fun h => g1 ((hcond1_1 t).mp h)) (fun h => g2 ((hcond1_2 t).mp h)) (fun h => g3 ((hcond1_3 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)) := by
  obtain ⟨n, hn⟩ := t
  cases n with
  | zero => exact absurd (Nat.zero_mod _) g0
  | succ n => exact (dif_neg g0).trans ((dif_neg g1).trans ((dif_neg g2).trans rfl))

theorem outsAt1_D (c : Dev nD) (t : Fin cfg1.N) (g0 : ¬t.val % 32 = 0) (g1 : ¬t.val % 4 = 0) (g2 : t.val % 4 = 3) (g3 : ¬t.val % 32 = 31) :
    outsAt1 V c t.val t.isLt = res1_D c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => g0 ((hcond1_0 t).mp h)) (fun h => g1 ((hcond1_1 t).mp h)) ((hcond1_2 t).mpr g2) (fun h => g3 ((hcond1_3 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)) := by
  obtain ⟨n, hn⟩ := t
  cases n with
  | zero => exact absurd (Nat.zero_mod _) g0
  | succ n => exact (dif_neg g0).trans ((dif_neg g1).trans ((dif_pos g2).trans ((dif_neg g3).trans rfl)))

theorem outsAt1_E (c : Dev nD) (t : Fin cfg1.N) (g0 : ¬t.val % 32 = 0) (g1 : ¬t.val % 4 = 0) (g2 : t.val % 4 = 3) (g3 : t.val % 32 = 31) :
    outsAt1 V c t.val t.isLt = res1_E c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => g0 ((hcond1_0 t).mp h)) (fun h => g1 ((hcond1_1 t).mp h)) ((hcond1_2 t).mpr g2) ((hcond1_3 t).mpr g3) (iblk1 V c 0 t) (iblk1 V c 1 t) (iblk1 V c 2 t) (iblk1 V c 3 t) (iblk1 V c 4 t) (outsAt1 V c (t.val - 1) (Nat.lt_of_le_of_lt (Nat.sub_le _ _) t.isLt)) := by
  obtain ⟨n, hn⟩ := t
  cases n with
  | zero => exact absurd (Nat.zero_mod _) g0
  | succ n => exact (dif_neg g0).trans ((dif_neg g1).trans ((dif_pos g2).trans ((dif_pos g3).trans rfl)))

/-! ## The region invariant -/

/-- Before position `n`: at the first point the class invariant (the accumulators at anything); afterwards the three
    accumulators at what the point before left, the first region's scoped buffers untouched, the generator register at
    some state. -/
def PhiS1 (c : Dev nD) : (n : ℕ) → n ≤ cfg1.N → sProp 𝕄
  | 0, _ => Pipeline.ΦA spec1 c
  | n + 1, hn => iprop(iprop(anyBuf c cc0_stg0_0 ∗ anyBuf c cc0_stg0_1 ∗ anyBuf c cc0_stg1_0 ∗ anyBuf c cc0_scratch0
          ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(anyBuf c cc0_stg0_0 ∗ anyBuf c cc0_stg0_1 ∗ anyBuf c cc0_stg1_0 ∗ anyBuf c cc0_scratch0
          ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r)) := rfl

theorem PhiS1_pos (c : Dev nD) (n : ℕ) (h : n ≤ cfg1.N) (hz : n ≠ 0) :
    PhiS1 V c n h = iprop(iprop(anyBuf c cc0_stg0_0 ∗ anyBuf c cc0_stg0_1 ∗ anyBuf c cc0_stg1_0 ∗ anyBuf c cc0_scratch0
          ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 16000000 in
/-- The body at any point: the point's case by its position modulo 32 and modulo 4; the invariant hands the body the
    three accumulators at what the point before left (at anything at the first point) and takes them back at this
    point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases g0 : t.val % 32 = 0
  · have g1 : t.val % 4 = 0 := by omega
    have g2 : ¬t.val % 4 = 3 := by omega
    have g3 : ¬t.val % 32 = 31 := by omega
    by_cases hz : t.val = 0
    · rw [Dat.leavesExact_idle (dat1 V c) 5 t (idleAt1_5 t (fun h => g3 ((hcond1_3 t).mp h))) (noFlush1_5 t (fun h => g3 ((hcond1_3 t).mp h)))]
      rw [outsAt1_A V c t g0 g1 g2 g3]
      unfold res1_A; (try dsimp only)
      rw [PhiS1_castSucc V c t, PhiS1_zero V c _ _ hz, PhiA1_eq]
      iintro ⟨⟨⟨Ha, Hb, Hc, Hd, HS0, HS1, HS2⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ _ _ _ _ ((hcond1_0 t).mpr g0) ((hcond1_1 t).mpr g1) (fun h => g2 ((hcond1_2 t).mp h)) (fun h => g3 ((hcond1_3 t).mp h)) (iblk1 V c 0 t) (iblk1 V c 1 t) (iblk1 V c 2 t) (iblk1 V c 3 t) (iblk1 V c 4 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%e0, HS0⟩, ⟨%e1, HS1⟩, ⟨%e2, HS2⟩⟩
      isplitl [Ha Hb Hc Hd HS0 HS1 HS2 Hg]
      · isplitl [Ha Hb Hc Hd HS0 HS1 HS2]
        · isplitl [Ha]; · iexact Ha
          isplitl [Hb]; · iexact Hb
          isplitl [Hc]; · iexact Hc
          isplitl [Hd]; · iexact Hd
          isplitl [HS0]
          · unfold owns; iexists _; isplitr
            swap; · iexact HS0
            ipureintro; exact View.read_writes_of_cover _ _ _ _ _ (cover1_A_LS0 c _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (cover1_A_LS1 c _ _ _ _ _ _ _ _ _ _ _ _ _ _ _ _ _ _ _ _ _ _ _ _ _ _ _ _)
          unfold owns; iexists _; isplitr
          swap; · iexact HS2
          ipureintro; exact View.read_writes_of_cover _ _ _ _ _ (cover1_A_LS2 c _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [Dat.leavesExact_idle (dat1 V c) 5 t (idleAt1_5 t (fun h => g3 ((hcond1_3 t).mp h))) (noFlush1_5 t (fun h => g3 ((hcond1_3 t).mp h)))]
      rw [outsAt1_A V c t g0 g1 g2 g3]
      unfold res1_A; (try dsimp only)
      rw [PhiS1_castSucc V c t, PhiS1_pos V c _ _ hz]
      iintro ⟨⟨⟨Ha, Hb, Hc, Hd, HS0, HS1, HS2⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ _ _ _ _ ((hcond1_0 t).mpr g0) ((hcond1_1 t).mpr g1) (fun h => g2 ((hcond1_2 t).mp h)) (fun h => g3 ((hcond1_3 t).mp h)) (iblk1 V c 0 t) (iblk1 V c 1 t) (iblk1 V c 2 t) (iblk1 V c 3 t) (iblk1 V c 4 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      iintro ⟨H0, H1, H2, H3, H4, H5, ⟨%e0, HS0⟩, ⟨%e1, HS1⟩, ⟨%e2, HS2⟩⟩
      isplitl [Ha Hb Hc Hd HS0 HS1 HS2 Hg]
      · isplitl [Ha Hb Hc Hd HS0 HS1 HS2]
        · isplitl [Ha]; · iexact Ha
          isplitl [Hb]; · iexact Hb
          isplitl [Hc]; · iexact Hc
          isplitl [Hd]; · iexact Hd
          isplitl [HS0]
          · unfold owns; iexists _; isplitr
            swap; · iexact HS0
            ipureintro; exact View.read_writes_of_cover _ _ _ _ _ (cover1_A_LS0 c _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (cover1_A_LS1 c _ _ _ _ _ _ _ _ _ _ _ _ _ _ _ _ _ _ _ _ _ _ _ _ _ _ _ _)
          unfold owns; iexists _; isplitr
          swap; · iexact HS2
          ipureintro; exact View.read_writes_of_cover _ _ _ _ _ (cover1_A_LS2 c _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := by omega
    by_cases g1 : t.val % 4 = 0
    · have g2 : ¬t.val % 4 = 3 := by omega
      have g3 : ¬t.val % 32 = 31 := by omega
      rw [Dat.leavesExact_idle (dat1 V c) 5 t (idleAt1_5 t (fun h => g3 ((hcond1_3 t).mp h))) (noFlush1_5 t (fun h => g3 ((hcond1_3 t).mp h)))]
      rw [outsAt1_B V c t g0 g1 g2 g3]
      unfold res1_B; (try dsimp only)
      rw [PhiS1_castSucc V c t, PhiS1_pos V c _ _ hz]
      iintro ⟨⟨⟨Ha, Hb, Hc, Hd, HS0, HS1, HS2⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ _ _ _ _ (fun h => g0 ((hcond1_0 t).mp h)) ((hcond1_1 t).mpr g1) (fun h => g2 ((hcond1_2 t).mp h)) (fun h => g3 ((hcond1_3 t).mp h)) (iblk1 V c 0 t) (iblk1 V c 1 t) (iblk1 V c 2 t) (iblk1 V c 3 t) (iblk1 V c 4 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexists _; iexact HS1
      isplitl [HS2]; · iexists _; iexact HS2
      iintro ⟨H0, H1, H2, H3, H4, H5, HS0, ⟨%e1, HS1⟩, ⟨%e2, HS2⟩⟩
      isplitl [Ha Hb Hc Hd HS0 HS1 HS2 Hg]
      · isplitl [Ha Hb Hc Hd HS0 HS1 HS2]
        · isplitl [Ha]; · iexact Ha
          isplitl [Hb]; · iexact Hb
          isplitl [Hc]; · iexact Hc
          isplitl [Hd]; · iexact Hd
          isplitl [HS0]; · iexact HS0
          isplitl [HS1]
          · unfold owns; iexists _; isplitr
            swap; · iexact HS1
            ipureintro; exact View.read_writes_of_cover _ _ _ _ _ (cover1_B_LS1 c _ _ _ _ _ _ _ _ _ _ _ _ _ _ _ _ _ _ _ _ _ _ _ _ _ _ _ _)
          unfold owns; iexists _; isplitr
          swap; · iexact HS2
          ipureintro; exact View.read_writes_of_cover _ _ _ _ _ (cover1_B_LS2 c _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · by_cases g2 : t.val % 4 = 3
      · by_cases g3 : t.val % 32 = 31
        · rw [show (dat1 V c).leavesExact 5 t = owns (c : Thread nD τ) (ms1_5 t) fullShare ((dat1 V c).after 5 t) from by
      unfold Dat.leavesExact; rw [liveAt1_5 t ((hcond1_3 t).mpr g3)], after1_5]
          rw [outsAt1_E V c t g0 g1 g2 g3]
          unfold res1_E; (try dsimp only)
          rw [PhiS1_castSucc V c t, PhiS1_pos V c _ _ hz]
          iintro ⟨⟨⟨Ha, Hb, Hc, Hd, HS0, HS1, HS2⟩, Hg⟩, Ho, ⟨%d0, H0⟩, ⟨%d1, H1⟩, ⟨%d2, H2⟩, ⟨%d3, H3⟩, ⟨%d4, H4⟩, ⟨%d5, H5⟩⟩
          iapply ((kernelRun1_E c (grid1.coords t) _ _ _ _ _ _ _ _ _ _ _ _ _ _ _ _ _ _ (fun h => g0 ((hcond1_0 t).mp h)) (fun h => g1 ((hcond1_1 t).mp h)) ((hcond1_2 t).mpr g2) ((hcond1_3 t).mpr g3) (iblk1 V c 0 t) (iblk1 V c 1 t) (iblk1 V c 2 t) (iblk1 V c 3 t) (iblk1 V c 4 t) _ _ _).2.2.2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexact HS0
          isplitl [HS1]; · iexact HS1
          isplitl [HS2]; · iexact HS2
          iintro ⟨H0, H1, H2, H3, H4, ⟨%e5, H5⟩, ⟨%e0, HS0⟩, ⟨%e1, HS1⟩, ⟨%e2, HS2⟩⟩
          isplitl [Ha Hb Hc Hd HS0 HS1 HS2 Hg]
          · isplitl [Ha Hb Hc Hd HS0 HS1 HS2]
            · isplitl [Ha]; · iexact Ha
              isplitl [Hb]; · iexact Hb
              isplitl [Hc]; · iexact Hc
              isplitl [Hd]; · iexact Hd
              isplitl [HS0]
              · unfold owns; iexists _; isplitr
                swap; · iexact HS0
                ipureintro; exact View.read_writes_of_cover _ _ _ _ _ (cover1_E_LS0 c _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (cover1_E_LS1 c _ _ _ _ _ _ _ _ _ _ _ _ _ _ _ _ _ _ _ _ _ _ _ _ _ _ _ _ _ _ _)
              unfold owns; iexists _; isplitr
              swap; · iexact HS2
              ipureintro; exact View.read_writes_of_cover _ _ _ _ _ (cover1_E_LS2 c _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          unfold owns; iexists _; isplitr
          swap; · iexact H5
          ipureintro; exact View.read_writes_of_cover _ _ _ _ _ (cover1_E_L5 c _ _ _ _ _ _ _ _ _ _ _ _ _ _ _ _ _ _ _ _ _ _ _ _ _ _ _ _ _ _ _)
        · rw [Dat.leavesExact_idle (dat1 V c) 5 t (idleAt1_5 t (fun h => g3 ((hcond1_3 t).mp h))) (noFlush1_5 t (fun h => g3 ((hcond1_3 t).mp h)))]
          rw [outsAt1_D V c t g0 g1 g2 g3]
          unfold res1_D; (try dsimp only)
          rw [PhiS1_castSucc V c t, PhiS1_pos V c _ _ hz]
          iintro ⟨⟨⟨Ha, Hb, Hc, Hd, HS0, HS1, HS2⟩, Hg⟩, Ho, ⟨%d0, H0⟩, ⟨%d1, H1⟩, ⟨%d2, H2⟩, ⟨%d3, H3⟩, ⟨%d4, H4⟩, ⟨%d5, H5⟩⟩
          iapply ((kernelRun1_D c (grid1.coords t) _ _ _ _ _ _ _ _ _ _ _ _ _ _ _ _ _ _ (fun h => g0 ((hcond1_0 t).mp h)) (fun h => g1 ((hcond1_1 t).mp h)) ((hcond1_2 t).mpr g2) (fun h => g3 ((hcond1_3 t).mp h)) (iblk1 V c 0 t) (iblk1 V c 1 t) (iblk1 V c 2 t) (iblk1 V c 3 t) (iblk1 V c 4 t) _ _ _).2.2.2 _ Set.univ _)
          isplitl [H0]; · iexact H0
          isplitl [H1]; · iexact H1
          isplitl [H2]; · iexact H2
          isplitl [H3]; · iexact H3
          isplitl [H4]; · iexact H4
          isplitl [H5]; · iexact H5
          isplitl [HS0]; · iexact HS0
          isplitl [HS1]; · iexact HS1
          isplitl [HS2]; · iexact HS2
          iintro ⟨H0, H1, H2, H3, H4, H5, ⟨%e0, HS0⟩, ⟨%e1, HS1⟩, ⟨%e2, HS2⟩⟩
          isplitl [Ha Hb Hc Hd HS0 HS1 HS2 Hg]
          · isplitl [Ha Hb Hc Hd HS0 HS1 HS2]
            · isplitl [Ha]; · iexact Ha
              isplitl [Hb]; · iexact Hb
              isplitl [Hc]; · iexact Hc
              isplitl [Hd]; · iexact Hd
              isplitl [HS0]
              · unfold owns; iexists _; isplitr
                swap; · iexact HS0
                ipureintro; exact View.read_writes_of_cover _ _ _ _ _ (cover1_D_LS0 c _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (cover1_D_LS1 c _ _ _ _ _ _ _ _ _ _ _ _ _ _ _ _ _ _ _ _ _ _ _ _ _ _ _ _ _ _ _)
              unfold owns; iexists _; isplitr
              swap; · iexact HS2
              ipureintro; exact View.read_writes_of_cover _ _ _ _ _ (cover1_D_LS2 c _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          iexists _; iexact H5
      · have g3 : ¬t.val % 32 = 31 := by omega
        rw [Dat.leavesExact_idle (dat1 V c) 5 t (idleAt1_5 t (fun h => g3 ((hcond1_3 t).mp h))) (noFlush1_5 t (fun h => g3 ((hcond1_3 t).mp h)))]
        rw [outsAt1_C V c t g0 g1 g2 g3]
        unfold res1_C; (try dsimp only)
        rw [PhiS1_castSucc V c t, PhiS1_pos V c _ _ hz]
        iintro ⟨⟨⟨Ha, Hb, Hc, Hd, HS0, HS1, HS2⟩, Hg⟩, Ho, ⟨%d0, H0⟩, ⟨%d1, H1⟩, ⟨%d2, H2⟩, ⟨%d3, H3⟩, ⟨%d4, H4⟩, ⟨%d5, H5⟩⟩
        iapply ((kernelRun1_C c (grid1.coords t) _ _ _ _ _ _ _ _ _ _ _ _ _ _ _ _ _ _ (fun h => g0 ((hcond1_0 t).mp h)) (fun h => g1 ((hcond1_1 t).mp h)) (fun h => g2 ((hcond1_2 t).mp h)) (fun h => g3 ((hcond1_3 t).mp h)) (iblk1 V c 0 t) (iblk1 V c 1 t) (iblk1 V c 2 t) (iblk1 V c 3 t) (iblk1 V c 4 t) _ _).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, HS0, ⟨%e1, HS1⟩, ⟨%e2, HS2⟩⟩
        isplitl [Ha Hb Hc Hd HS0 HS1 HS2 Hg]
        · isplitl [Ha Hb Hc Hd HS0 HS1 HS2]
          · isplitl [Ha]; · iexact Ha
            isplitl [Hb]; · iexact Hb
            isplitl [Hc]; · iexact Hc
            isplitl [Hd]; · iexact Hd
            isplitl [HS0]; · iexact HS0
            isplitl [HS1]
            · unfold owns; iexists _; isplitr
              swap; · iexact HS1
              ipureintro; exact View.read_writes_of_cover _ _ _ _ _ (cover1_C_LS1 c _ _ _ _ _ _ _ _ _ _ _ _ _ _ _ _ _ _ _ _ _ _ _ _ _ _ _ _ _ _)
            unfold owns; iexists _; isplitr
            swap; · iexact HS2
            ipureintro; exact View.read_writes_of_cover _ _ _ _ _ (cover1_C_LS2 c _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the accumulators' contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Ha, Hb, Hc, Hd, HS0, HS1, HS2⟩, Hg⟩
  isplitl [Ha Hb Hc Hd HS0 HS1 HS2]
  · isplitl [Ha]; · iexact Ha
    isplitl [Hb]; · iexact Hb
    isplitl [Hc]; · iexact Hc
    isplitl [Hd]; · iexact Hd
    isplitl [HS0]; · iexists _; iexact HS0
    isplitl [HS1]; · iexists _; iexact HS1
    iexists _; iexact HS2
  iexact Hg

theorem hout1 (c : Dev nD) : (dat1 V c).Φ (Fin.last cfg1.N) ⊢ Pipeline.ΦA spec1 c :=
  Phi_out1 V c _ (by rw [Fin.val_last]; have : cfg1.N = 128 := N_1; omega)

end

end Cert.KernelIdeal.Hand

end
-- ==== Proof.Run.lean ====
/-
  The whole run of the kernel's program: four host operations (three changes of float format and a reshape of the bias
  row), then the Gram-matrix region, then the main region. The buffer contents at each boundary are a fold from the
  launch memory — after a region its output array holds what its write-backs leave and every other buffer is as it
  was —; each region is entered from the boundary before it and left at the boundary after it; so every weakly fair
  execution terminates with every argument array as launched and the result array at what the main region's
  write-backs leave.
-/
import proofs.«102676_j85581518340279_1_alg».proof.Proof.K0Frame
import proofs.«102676_j85581518340279_1_alg».proof.Proof.K1Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host operations (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its output array at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit: its output array at what its write-backs leave, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched: no host operation writes one, and a region only reads one through an input window -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := (W3_arr m ρ c 2).trans (((dat1 (V2 m ρ) c).arrAt_in 2 rfl _).trans (A_eq1 (V2 m ρ) c 2))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 over the thread state "every unscoped buffer at the boundary's contents, the generator register at some
    state, nothing owed": its arrays split out of the unscoped buffers at entry and put back at their final contents
    at exit; the generator register and the scoped buffers into the region invariant and out. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    have h : (Pipeline.ΦA spec0 c : sProp 𝕄) ⊢ iprop((∃ r, prngReg c r) ∗ emp ∗ Pipeline.scopedRest spec0 c) := by
      unfold Pipeline.ΦA
      iintro ⟨Hr, Hp⟩
      isplitl [Hp]; · iexact Hp
      isplitr; · iempintro
      iexact Hr
    rw [Pipeline.ownSems0_none]
    exact (hout0 (V1 m ρ) c).trans h
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some
    state, nothing owed": its arrays split out of the unscoped buffers at entry and put back at their final contents
    at exit; the generator register and the scoped buffers into the region invariant and out. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    have h : (Pipeline.ΦA spec1 c : sProp 𝕄) ⊢ iprop((∃ r, prngReg c r) ∗ emp ∗ Pipeline.scopedRest spec1 c) := by
      unfold Pipeline.ΦA
      iintro ⟨Hr, Hp⟩
      isplitl [Hp]; · iexact Hp
      isplitr; · iempintro
      iexact Hr
    rw [Pipeline.ownSems0_none]
    exact (hout1 (V2 m ρ) c).trans h
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, and
    in every final state the result array holds what the main region's write-backs leave and every argument array is
    as launched. -/
theorem run_main : θ_run defs (onTc (τ := τ) (main (F := F))) ⟨m, fun _ => 0, ρ⟩ (fun r => ∀ c : Dev nD,
      r.2.mem ((c.tc : Thread nD τ).loc main_v5) = (dat1 (V2 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v5 (by decide))).trans (W3_arr m ρ c 5),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end Cert.KernelIdeal.Hand

end
-- ==== Proof.Bits.K0Base.lean ====
/-
  The first kernel region (the Gram matrix Vᵀ·V accumulated over four row tiles of V), read generically in the
  float instance: the blocks its windows show the body, the two branch conditions of the body decided over the
  four grid points (the accumulator is zeroed at the first point; the output block is stored at the last point
  only), where the output window is idle, and the region invariant with the accumulator scratch singled out.
-/
import proofs.«102676_j85581518340279_1_alg».proof.Proof.Gen.Kernel.Launch
import proofs.«102676_j85581518340279_1_alg».proof.Proof.Gen.Kernel.Skeleton
import proofs.«102676_j85581518340279_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
end

/-! ## The body's branch conditions -/

/-- "this is the first row tile": the accumulator is zeroed. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- "this is the last row tile": the accumulator is copied to the output block. -/
abbrev cond0_1 (i : grid0.Coords) : Prop := k0_cond2 i = 1#1
theorem hcond0_1 : ∀ t : Fin cfg0.N, cond0_1 (grid0.coords t) ↔ t.val = 3 :=
  (by decide +kernel : ∀ t : Fin grid0.N, cond0_1 (grid0.coords t) ↔ t.val = 3)

/-! ## Where the windows are idle -/

theorem liveAt0_0 : ∀ t : Fin cfg0.N, cfg0.idle 0 (grid0.coords t) = false := by decide +kernel
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
theorem liveAt0_1 : ∀ t : Fin cfg0.N, cond0_1 (grid0.coords t) → cfg0.idle 1 (grid0.coords t) = false := by decide +kernel

/-! ## The memrefs the body is called with -/

abbrev VO0_1 : View sig .tc .vmem S1024x1024 .bf16 := (Memref.whole cc0_stg1_0 : Memref sig .tc .vmem S1024x1024 .bf16).view
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
/-- The accumulator: a whole scoped buffer of the kernel's own. -/
abbrev scM0_0 : Memref sig .tc .vmem S1024x1024 .f32 := Memref.whole cc0_scratch0
abbrev VS0_0 : View sig .tc .vmem S1024x1024 .f32 := scM0_0.view

/-- The scoped buffers the first region never touches (the second region's staging buffers and scratch), each whole at
    some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f))

/-- The class invariant with the accumulator as a memref owned at some contents. -/
theorem PhiA0_eq (c : Dev nD) :
    (Pipeline.ΦA spec0 c : sProp 𝕄)
      = iprop(iprop((∃ d, owns (c : Thread nD τ) scM0_0 fullShare d) ∗ rest0 c) ∗ (∃ r, prngReg c r)) := by
  unfold Pipeline.ΦA rest0; rw [scopedRest0_eq]; simp only [scM0_0, owns_whole]; try rfl

end Cert.Kernel.Hand

end
-- ==== Proof.Bits.K0RunA.lean ====
/-
  The Gram-matrix kernel's body at the FIRST row tile: the accumulator is zeroed, then the tile's product Vₜᵀ·Vₜ is
  added to it; the output block is not touched. The pieces the accumulator ends with are those the body's stores write.
-/
import proofs.«102676_j85581518340279_1_alg».proof.Proof.Bits.K0Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at the first tile: the input block kept, the idle output handed back untouched, the accumulator (found at
    anything) left with the pieces `LS0` written. -/
noncomputable def kernelRun0_A (c : Dev nD) (i : grid0.Coords) (arg1 : Memref sig .tc .vmem S1024x1024 .bf16) (harg1 : arg1.IsWhole) (arg2 : Memref sig .tc .vmem S1024x1024 .bf16) (harg2 : arg2.IsWhole) (arg3 : Memref sig .tc .vmem S1024x1024 .f32) (harg3 : arg3.IsWhole) (hc0 : cond0_0 i) (hc1 : ¬cond0_1 i)
    (x0 : Vec F S1024x1024 .bf16) :
    { LS0 : List (View.Piece (Elt F) S1024x1024 .f32) //
      ∀ (xi1 : Vec F S1024x1024 .bf16) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0__vsq_kernel i arg1 harg1 arg2 harg2 arg3 harg3) K } := by
  refine ⟨?_, fun xi1 E K => ?run⟩
  case run =>
    simp only [cc0__vsq_kernel_eq_skeleton]; unfold cc0__vsq_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.Kernel.Hand

end
-- ==== Proof.Bits.K0RunB.lean ====
/-
  The Gram-matrix kernel's body at a MIDDLE row tile: the tile's product Vₜᵀ·Vₜ is added to the accumulator the point
  before left; the output block is not touched.
-/
import proofs.«102676_j85581518340279_1_alg».proof.Proof.Bits.K0Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at a middle tile: the input block kept, the idle output handed back untouched, the accumulator found at
    `xs0` and left with the pieces `LS0` written. -/
noncomputable def kernelRun0_B (c : Dev nD) (i : grid0.Coords) (arg1 : Memref sig .tc .vmem S1024x1024 .bf16) (harg1 : arg1.IsWhole) (arg2 : Memref sig .tc .vmem S1024x1024 .bf16) (harg2 : arg2.IsWhole) (arg3 : Memref sig .tc .vmem S1024x1024 .f32) (harg3 : arg3.IsWhole) (hc0 : ¬cond0_0 i) (hc1 : ¬cond0_1 i)
    (x0 : Vec F S1024x1024 .bf16) (xs0 : Vec F S1024x1024 .f32) :
    { LS0 : List (View.Piece (Elt F) S1024x1024 .f32) //
      ∀ (xi1 : Vec F S1024x1024 .bf16) (E : Set ℕ) (K : PUnit → sProp 𝕄),
        iprop(owns (c : Thread nD τ) arg1 fullShare x0 ∗ owns (c : Thread nD τ) arg2 fullShare xi1 ∗ owns (c : Thread nD τ) arg3 fullShare xs0
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0__vsq_kernel i arg1 harg1 arg2 harg2 arg3 harg3) K } := by
  refine ⟨?_, fun xi1 E K => ?run⟩
  case run =>
    simp only [cc0__vsq_kernel_eq_skeleton]; unfold cc0__vsq_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.Kernel.Hand

end
-- ==== Proof.Bits.K0RunC.lean ====
/-
  The Gram-matrix kernel's body at the LAST row tile: the tile's product Vₜᵀ·Vₜ is added to the accumulator, and the
  accumulator is then stored (rounded to the output's format) as the output block.
-/
import proofs.«102676_j85581518340279_1_alg».proof.Proof.Bits.K0Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at the last tile: the input block kept, the output (found at anything) left with the pieces `L1` written,
    the accumulator found at `xs0` and left with the pieces `LS0` written. -/
noncomputable def kernelRun0_C (c : Dev nD) (i : grid0.Coords) (arg1 : Memref sig .tc .vmem S1024x1024 .bf16) (harg1 : arg1.IsWhole) (arg2 : Memref sig .tc .vmem S1024x1024 .bf16) (harg2 : arg2.IsWhole) (arg3 : Memref sig .tc .vmem S1024x1024 .f32) (harg3 : arg3.IsWhole) (hc0 : ¬cond0_0 i) (hc1 : cond0_1 i)
    (x0 : Vec F S1024x1024 .bf16) (xs0 : Vec F S1024x1024 .f32) :
    Σ' (L1 : List (View.Piece (Elt F) S1024x1024 .bf16)), { LS0 : List (View.Piece (Elt F) S1024x1024 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0)) -∗ K ⟨⟩))
          ⊢ wp frame (wpE (defs₀ (F := F)) Variants.none c none) E (cc0__vsq_kernel i arg1 harg1 arg2 harg2 arg3 harg3) K } := by
  refine ⟨?_, ?_, fun E K => ?run⟩
  case run =>
    simp only [cc0__vsq_kernel_eq_skeleton]; unfold cc0__vsq_kernel_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | exact hc0 | exact hc1)
    sl_step
    iapply Hk
    isplitl [H0]
    · iexists _; isplitr; · ipureintro; exact harg1.read_unread _
      iexact H0
    isplitl [H1]; · iexists _; iexact H1
    iexists _; iexact HS0

end Cert.Kernel.Hand

end
-- ==== Proof.Bits.K0Frame.lean ====
/-
  The first kernel region as a whole: what the accumulator and the output block hold after each of the four row
  tiles — S₀ = 0 + V₀ᵀV₀, Sₜ = Sₜ₋₁ + VₜᵀVₜ, and at the last tile the output block is S₃ — stated by recursion on the
  point over the pieces the body writes in each of its three cases; the region invariant carrying the accumulator from one point to
  the next; the proof data; and the body obligation at every point, by cases on the point.
-/
import proofs.«102676_j85581518340279_1_alg».proof.Proof.Bits.K0RunA
import proofs.«102676_j85581518340279_1_alg».proof.Proof.Bits.K0RunB
import proofs.«102676_j85581518340279_1_alg».proof.Proof.Bits.K0RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case leaves -/

theorem scover0_A (c : Dev nD) (i : grid0.Coords) (arg1 : Memref sig .tc .vmem S1024x1024 .bf16) (harg1 : arg1.IsWhole) (arg2 : Memref sig .tc .vmem S1024x1024 .bf16) (harg2 : arg2.IsWhole) (arg3 : Memref sig .tc .vmem S1024x1024 .f32) (harg3 : arg3.IsWhole) (hc0 : cond0_0 i) (hc1 : ¬cond0_1 i) (x0 : Vec F S1024x1024 .bf16) (y : S1024x1024.Idx) :
    ∃ pc ∈ (kernelRun0_A c i arg1 harg1 arg2 harg2 arg3 harg3 hc0 hc1 x0).1, y ∈ pc.1.set :=
  View.cover_of_tiledL (kernelRun0_A c i arg1 harg1 arg2 harg2 arg3 harg3 hc0 hc1 x0).1 S1024x1024.size (by sl_kernel_rfl) y

/-- The accumulator after the first tile. -/
def sout0_A (c : Dev nD) (i : grid0.Coords) (arg1 : Memref sig .tc .vmem S1024x1024 .bf16) (harg1 : arg1.IsWhole) (arg2 : Memref sig .tc .vmem S1024x1024 .bf16) (harg2 : arg2.IsWhole) (arg3 : Memref sig .tc .vmem S1024x1024 .f32) (harg3 : arg3.IsWhole) (hc0 : cond0_0 i) (hc1 : ¬cond0_1 i) (x0 : Vec F S1024x1024 .bf16) : Vec F S1024x1024 .f32 :=
  VS0_0.read (Elt F) (VS0_0.writes (Elt F) VS0_0.junk (kernelRun0_A c i arg1 harg1 arg2 harg2 arg3 harg3 hc0 hc1 x0).1)

theorem scover0_B (c : Dev nD) (i : grid0.Coords) (arg1 : Memref sig .tc .vmem S1024x1024 .bf16) (harg1 : arg1.IsWhole) (arg2 : Memref sig .tc .vmem S1024x1024 .bf16) (harg2 : arg2.IsWhole) (arg3 : Memref sig .tc .vmem S1024x1024 .f32) (harg3 : arg3.IsWhole) (hc0 : ¬cond0_0 i) (hc1 : ¬cond0_1 i) (x0 : Vec F S1024x1024 .bf16) (xs0 : Vec F S1024x1024 .f32) (y : S1024x1024.Idx) :
    ∃ pc ∈ (kernelRun0_B c i arg1 harg1 arg2 harg2 arg3 harg3 hc0 hc1 x0 xs0).1, y ∈ pc.1.set :=
  View.cover_of_tiledL (kernelRun0_B c i arg1 harg1 arg2 harg2 arg3 harg3 hc0 hc1 x0 xs0).1 S1024x1024.size (by sl_kernel_rfl) y

/-- The accumulator after a middle tile. -/
def sout0_B (c : Dev nD) (i : grid0.Coords) (arg1 : Memref sig .tc .vmem S1024x1024 .bf16) (harg1 : arg1.IsWhole) (arg2 : Memref sig .tc .vmem S1024x1024 .bf16) (harg2 : arg2.IsWhole) (arg3 : Memref sig .tc .vmem S1024x1024 .f32) (harg3 : arg3.IsWhole) (hc0 : ¬cond0_0 i) (hc1 : ¬cond0_1 i) (x0 : Vec F S1024x1024 .bf16) (xs0 : Vec F S1024x1024 .f32) : Vec F S1024x1024 .f32 :=
  VS0_0.read (Elt F) (VS0_0.writes (Elt F) VS0_0.junk (kernelRun0_B c i arg1 harg1 arg2 harg2 arg3 harg3 hc0 hc1 x0 xs0).1)

theorem cover0_C (c : Dev nD) (i : grid0.Coords) (arg1 : Memref sig .tc .vmem S1024x1024 .bf16) (harg1 : arg1.IsWhole) (arg2 : Memref sig .tc .vmem S1024x1024 .bf16) (harg2 : arg2.IsWhole) (arg3 : Memref sig .tc .vmem S1024x1024 .f32) (harg3 : arg3.IsWhole) (hc0 : ¬cond0_0 i) (hc1 : cond0_1 i) (x0 : Vec F S1024x1024 .bf16) (xs0 : Vec F S1024x1024 .f32) (y : S1024x1024.Idx) :
    ∃ pc ∈ (kernelRun0_C c i arg1 harg1 arg2 harg2 arg3 harg3 hc0 hc1 x0 xs0).1, y ∈ pc.1.set :=
  View.cover_of_tiledL (kernelRun0_C c i arg1 harg1 arg2 harg2 arg3 harg3 hc0 hc1 x0 xs0).1 S1024x1024.size (by sl_kernel_rfl) y

/-- The output block after the last tile. -/
def out0_C (c : Dev nD) (i : grid0.Coords) (arg1 : Memref sig .tc .vmem S1024x1024 .bf16) (harg1 : arg1.IsWhole) (arg2 : Memref sig .tc .vmem S1024x1024 .bf16) (harg2 : arg2.IsWhole) (arg3 : Memref sig .tc .vmem S1024x1024 .f32) (harg3 : arg3.IsWhole) (hc0 : ¬cond0_0 i) (hc1 : cond0_1 i) (x0 : Vec F S1024x1024 .bf16) (xs0 : Vec F S1024x1024 .f32) : Vec F S1024x1024 .bf16 :=
  VO0_1.read (Elt F) (VO0_1.writes (Elt F) VO0_1.junk (kernelRun0_C c i arg1 harg1 arg2 harg2 arg3 harg3 hc0 hc1 x0 xs0).1)

theorem scover0_C (c : Dev nD) (i : grid0.Coords) (arg1 : Memref sig .tc .vmem S1024x1024 .bf16) (harg1 : arg1.IsWhole) (arg2 : Memref sig .tc .vmem S1024x1024 .bf16) (harg2 : arg2.IsWhole) (arg3 : Memref sig .tc .vmem S1024x1024 .f32) (harg3 : arg3.IsWhole) (hc0 : ¬cond0_0 i) (hc1 : cond0_1 i) (x0 : Vec F S1024x1024 .bf16) (xs0 : Vec F S1024x1024 .f32) (y : S1024x1024.Idx) :
    ∃ pc ∈ (kernelRun0_C c i arg1 harg1 arg2 harg2 arg3 harg3 hc0 hc1 x0 xs0).2.1, y ∈ pc.1.set :=
  View.cover_of_tiledL (kernelRun0_C c i arg1 harg1 arg2 harg2 arg3 harg3 hc0 hc1 x0 xs0).2.1 S1024x1024.size (by sl_kernel_rfl) y

/-- The accumulator after the last tile. -/
def sout0_C (c : Dev nD) (i : grid0.Coords) (arg1 : Memref sig .tc .vmem S1024x1024 .bf16) (harg1 : arg1.IsWhole) (arg2 : Memref sig .tc .vmem S1024x1024 .bf16) (harg2 : arg2.IsWhole) (arg3 : Memref sig .tc .vmem S1024x1024 .f32) (harg3 : arg3.IsWhole) (hc0 : ¬cond0_0 i) (hc1 : cond0_1 i) (x0 : Vec F S1024x1024 .bf16) (xs0 : Vec F S1024x1024 .f32) : Vec F S1024x1024 .f32 :=
  VS0_0.read (Elt F) (VS0_0.writes (Elt F) VS0_0.junk (kernelRun0_C c i arg1 harg1 arg2 harg2 arg3 harg3 hc0 hc1 x0 xs0).2.1)

/-- At a point that stores nothing into the output block its staging buffer is handed back as found: a placeholder
    nothing consults. -/
def idleOut0 : Vec F S1024x1024 .bf16 := VO0_1.read (Elt F) (VO0_1.writes (Elt F) VO0_1.junk [])

section
variable (V : (c : Dev nD) → (b : Ref sig .tc) → Buf (Elt F) ((c : Thread nD τ).loc b))

/-! ## What the output block and the accumulator hold after each point -/

/-- After point `n`: (the output block's staging buffer, the accumulator). -/
def outsAt0 (c : Dev nD) : (n : ℕ) → n < cfg0.N → Vec F S1024x1024 .bf16 × Vec F S1024x1024 .f32
  | 0, hn => (idleOut0, sout0_A c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr rfl) (fun h => (by decide : ¬ (0 : ℕ) = 3) ((hcond0_1 ⟨0, hn⟩).mp h)) (iblk0 V c 0 ⟨0, hn⟩))
  | n + 1, hn =>
    if h1 : n + 1 = 3 then
      (out0_C c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => Nat.succ_ne_zero n ((hcond0_0 ⟨n + 1, hn⟩).mp h)) ((hcond0_1 ⟨n + 1, hn⟩).mpr h1) (iblk0 V c 0 ⟨n + 1, hn⟩) (outsAt0 c n (Nat.lt_of_succ_lt hn)).2,
       sout0_C c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => Nat.succ_ne_zero n ((hcond0_0 ⟨n + 1, hn⟩).mp h)) ((hcond0_1 ⟨n + 1, hn⟩).mpr h1) (iblk0 V c 0 ⟨n + 1, hn⟩) (outsAt0 c n (Nat.lt_of_succ_lt hn)).2)
    else
      (idleOut0,
       sout0_B c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (outsAt0 c n (Nat.lt_of_succ_lt hn)).2)

theorem outsAt0_A (c : Dev nD) (t : Fin cfg0.N) (h0 : t.val = 0) (h1 : ¬t.val = 3) :
    outsAt0 V c t.val t.isLt = (idleOut0, sout0_A c (grid0.coords t) (ms0_0 t) (hs0_0 t) (ms0_1 t) (hs0_1 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact absurd h0 (Nat.succ_ne_zero n)

theorem outsAt0_B (c : Dev nD) (t : Fin cfg0.N) (h0 : ¬t.val = 0) (h1 : ¬t.val = 3) :
    outsAt0 V c t.val t.isLt = (idleOut0, sout0_B c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2) := by
  obtain ⟨n, hn⟩ := t
  cases n with
  | zero => exact absurd rfl h0
  | succ n => exact (dif_neg h1).trans rfl

theorem outsAt0_C (c : Dev nD) (t : Fin cfg0.N) (h0 : ¬t.val = 0) (h1 : t.val = 3) :
    outsAt0 V c t.val t.isLt = (out0_C c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2,
      sout0_C c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2) := by
  obtain ⟨n, hn⟩ := t
  cases n with
  | zero => exact absurd rfl h0
  | succ n => exact (dif_pos h1).trans rfl

/-! ## The region invariant -/

/-- Before position `n`: at the first point the class invariant (the accumulator at anything); afterwards the accumulator
    at what the point before left, the untouched scoped buffers, and the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ rest0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ rest0 c) ∗ (∃ r, prngReg c r)) := by
  cases n with
  | zero => exact absurd rfl hz
  | succ n => rfl

/-! ## The proof data -/

/-- The arrays as the region finds them; after the body at point `t` the input's buffer at its block and the output's
    at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the point's case by its position; the invariant hands the body the accumulator at what the
    point before left (at anything at the first point) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 4 := lt_of_lt_of_eq t.isLt (show cfg0.N = 4 from N_0)
  rw [show (dat0 V c).leavesExact 0 t = owns (c : Thread nD τ) (ms0_0 t) fullShare ((dat0 V c).after 0 t) from by
    unfold Dat.leavesExact; rw [liveAt0_0 t], after0_0]
  by_cases h0 : t.val = 0
  · have h1 : ¬t.val = 3 := by omega
    rw [Dat.leavesExact_idle (dat0 V c) 1 t (idleAt0_1 t (fun h => h1 ((hcond0_1 t).mp h))) (noFlush0_1 t (fun h => h1 ((hcond0_1 t).mp h)))]
    rw [outsAt0_A V c t h0 h1]
    unfold sout0_A; (try dsimp only)
    rw [PhiS0_castSucc V c t, PhiS0_zero V c _ _ h0, PhiA0_eq]
    iintro ⟨⟨⟨HS0, Hr⟩, Hg⟩, Ho, ⟨%d0, H0⟩, ⟨%d1, H1⟩⟩
    iapply ((kernelRun0_A c (grid0.coords t) _ _ _ _ _ _ ((hcond0_0 t).mpr h0) (fun h => h1 ((hcond0_1 t).mp h)) (iblk0 V c 0 t)).2 _ Set.univ _)
    isplitl [H0]; · iexact H0
    isplitl [H1]; · iexact H1
    isplitl [HS0]; · iexact HS0
    iintro ⟨H0, H1, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover0_A c _ _ _ _ _ _ _ _ _ _)
        iexact Hr
      iexact Hg
    isplitl [Ho]; · iexact Ho
    isplitl [H0]; · iexact H0
    iexists _; iexact H1
  · by_cases h1 : t.val = 3
    · rw [show (dat0 V c).leavesExact 1 t = owns (c : Thread nD τ) (ms0_1 t) fullShare ((dat0 V c).after 1 t) from by
        unfold Dat.leavesExact; rw [liveAt0_1 t ((hcond0_1 t).mpr h1)], after0_1]
      rw [outsAt0_C V c t h0 h1]
      unfold out0_C sout0_C; (try dsimp only)
      rw [PhiS0_castSucc V c t, PhiS0_pos V c _ _ h0]
      iintro ⟨⟨⟨HS0, Hr⟩, Hg⟩, Ho, ⟨%d0, H0⟩, ⟨%d1, H1⟩⟩
      iapply ((kernelRun0_C c (grid0.coords t) _ _ _ _ _ _ (fun h => h0 ((hcond0_0 t).mp h)) ((hcond0_1 t).mpr h1) (iblk0 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_C c _ _ _ _ _ _ _ _ _ _ _)
          iexact Hr
        iexact Hg
      isplitl [Ho]; · iexact Ho
      isplitl [H0]; · iexact H0
      unfold owns; iexists _; isplitr
      swap; · iexact H1
      ipureintro; exact View.read_writes_of_cover _ _ _ _ _ (cover0_C c _ _ _ _ _ _ _ _ _ _ _)
    · rw [Dat.leavesExact_idle (dat0 V c) 1 t (idleAt0_1 t (fun h => h1 ((hcond0_1 t).mp h))) (noFlush0_1 t (fun h => h1 ((hcond0_1 t).mp h)))]
      rw [outsAt0_B V c t h0 h1]
      unfold sout0_B; (try dsimp only)
      rw [PhiS0_castSucc V c t, PhiS0_pos V c _ _ h0]
      iintro ⟨⟨⟨HS0, Hr⟩, Hg⟩, Ho, ⟨%d0, H0⟩, ⟨%d1, H1⟩⟩
      iapply ((kernelRun0_B c (grid0.coords t) _ _ _ _ _ _ (fun h => h0 ((hcond0_0 t).mp h)) (fun h => h1 ((hcond0_1 t).mp h)) (iblk0 V c 0 t) _).2 _ Set.univ _)
      isplitl [H0]; · iexact H0
      isplitl [H1]; · iexact H1
      isplitl [HS0]; · iexact HS0
      iintro ⟨H0, H1, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_B c _ _ _ _ _ _ _ _ _ _ _)
          iexact Hr
        iexact Hg
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class invariant back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 4 := N_0; omega), PhiA0_eq]
  iintro ⟨⟨HS0, Hr⟩, Hg⟩
  isplitl [HS0 Hr]
  · isplitl [HS0]
    · iexists _; iexact HS0
    iexact Hr
  iexact Hg

end

end Cert.Kernel.Hand

end
-- ==== Proof.Bits.K1Base.lean ====
/-
  The second kernel region (out = a + x·Vsq + Σₗ sₗ ⊙ (tanh(Zₗ)·Wₗ), over the grid of row blocks b, layers l and
  hidden tiles h, point 32·b + 4·l + h), read generically in the float instance: the blocks its windows show the
  body, the body's four branch conditions decided over the 128 grid points — (l, h) = (0, 0): the output accumulator
  is started at a + x·Vsq; h = 0: the layer's two accumulators are zeroed; h = 3: the layer's product is added to the
  output accumulator; (l, h) = (7, 3): the output block is stored —, where the output window is idle, and the region
  invariant with the three accumulators singled out.
-/
import proofs.«102676_j85581518340279_1_alg».proof.Proof.Gen.Kernel.Launch
import proofs.«102676_j85581518340279_1_alg».proof.Proof.Gen.Kernel.Skeleton
import proofs.«102676_j85581518340279_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
end

/-! ## The body's branch conditions -/

abbrev cond1_0 (i : grid1.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
theorem hcond1_0 : ∀ t : Fin cfg1.N, cond1_0 (grid1.coords t) ↔ t.val % 32 = 0 :=
  (by decide +kernel : ∀ t : Fin grid1.N, cond1_0 (grid1.coords t) ↔ t.val % 32 = 0)

abbrev cond1_1 (i : grid1.Coords) : Prop := (Scalar.cmpi .ne (Scalar.extui (Scalar.cmpi .eq (BitVec.ofNat 32 (i 2).val) 0#32)) 0#32) = 1#1
theorem hcond1_1 : ∀ t : Fin cfg1.N, cond1_1 (grid1.coords t) ↔ t.val % 4 = 0 :=
  (by decide +kernel : ∀ t : Fin grid1.N, cond1_1 (grid1.coords t) ↔ t.val % 4 = 0)

abbrev cond1_2 (i : grid1.Coords) : Prop := (Scalar.cmpi .ne (Scalar.extui (Scalar.cmpi .eq (BitVec.ofNat 32 (i 2).val) 3#32)) 0#32) = 1#1
theorem hcond1_2 : ∀ t : Fin cfg1.N, cond1_2 (grid1.coords t) ↔ t.val % 4 = 3 :=
  (by decide +kernel : ∀ t : Fin grid1.N, cond1_2 (grid1.coords t) ↔ t.val % 4 = 3)

abbrev cond1_3 (i : grid1.Coords) : Prop := k1_cond4 i = 1#1
theorem hcond1_3 : ∀ t : Fin cfg1.N, cond1_3 (grid1.coords t) ↔ t.val % 32 = 31 :=
  (by decide +kernel : ∀ t : Fin grid1.N, cond1_3 (grid1.coords t) ↔ t.val % 32 = 31)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5 : ∀ t : Fin cfg1.N, ¬cond1_3 (grid1.coords t) → cfg1.idle 5 (grid1.coords t) = true := by decide +kernel
theorem noFlush1_5 : ∀ t : Fin cfg1.N, ¬cond1_3 (grid1.coords t) → (cfg1.win 5).flush t = false := by decide +kernel
theorem liveAt1_5 : ∀ t : Fin cfg1.N, cond1_3 (grid1.coords t) → cfg1.idle 5 (grid1.coords t) = false := by decide +kernel

/-! ## The memrefs the body is called with -/

abbrev VO1_5 : View sig .tc .vmem S1024x1024 .f32 := (Memref.whole cc1_stg5_0 : Memref sig .tc .vmem S1024x1024 .f32).view
abbrev ms1_0 (t : Fin cfg1.N) : Memref sig .tc .vmem S1x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x4096 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x1024 .f32 := win1_5.stage (cfg1.slots t 5)
abbrev hs1_5 (t : Fin cfg1.N) : (ms1_5 t).IsWhole := hstage1_5 ((cfg1.slots t 5).cast nbuf1_5)
/-- The three accumulators: the output's, the layer's row sums, the layer's product. -/
abbrev scM1_0 : Memref sig .tc .vmem S1024x1024 .f32 := Memref.whole cc1_scratch0
abbrev scM1_1 : Memref sig .tc .vmem S1024x1 .f32 := Memref.whole cc1_scratch1
abbrev scM1_2 : Memref sig .tc .vmem S1024x1024 .f32 := Memref.whole cc1_scratch2
abbrev VS1_0 : View sig .tc .vmem S1024x1024 .f32 := scM1_0.view
abbrev VS1_1 : View sig .tc .vmem S1024x1 .f32 := scM1_1.view
abbrev VS1_2 : View sig .tc .vmem S1024x1024 .f32 := scM1_2.view

/-- A scoped buffer whole at some contents. -/
abbrev anyBuf (c : Dev nD) (b : Ref sig .tc) : sProp 𝕄 :=
  iprop(∃ f : Buf (Elt F) ((c : Thread nD τ).loc b), ((c : Thread nD τ).loc b) ↦{fullShare} f)

/-- The class invariant with the accumulators as memrefs owned at some contents (the first region's scoped buffers
    ride along untouched). -/
theorem PhiA1_eq (c : Dev nD) :
    (Pipeline.ΦA spec1 c : sProp 𝕄)
      = iprop(iprop(anyBuf c cc0_stg0_0 ∗ anyBuf c cc0_stg0_1 ∗ anyBuf c cc0_stg1_0 ∗ anyBuf c cc0_scratch0
          ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.Kernel.Hand

end
-- ==== Proof.Bits.K1RunA.lean ====
/-
  The main kernel's body at the first point of a row block, (l, h) = (0, 0): the output accumulator is started at a + x·Vsq, the layer's two accumulators are zeroed and the first hidden tile's row sums and product are added to them; the output block is not touched.
-/
import proofs.«102676_j85581518340279_1_alg».proof.Proof.Bits.K1Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body in this case, on whole memrefs: the five input blocks kept; the accumulators and the output's staging
    buffer as the statement says; the pieces each written buffer ends with are those the body's stores write. -/
noncomputable def kernelRun1_A (c : Dev nD) (i : grid1.Coords) (arg3 : Memref sig .tc .vmem S1x1024 .f32) (harg3 : arg3.IsWhole) (arg4 : Memref sig .tc .vmem S1024x1024 .bf16) (harg4 : arg4.IsWhole) (arg5 : Memref sig .tc .vmem S8x4096 .f32) (harg5 : arg5.IsWhole) (arg6 : Memref sig .tc .vmem S1024x1024 .bf16) (harg6 : arg6.IsWhole) (arg7 : Memref sig .tc .vmem S1x1024x1024 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : cond1_1 i) (hc2 : ¬cond1_2 i) (hc3 : ¬cond1_3 i)
    (x0 : Vec F S1x1024 .f32) (x1 : Vec F S1024x1024 .bf16) (x2 : Vec F S8x4096 .f32) (x3 : Vec F S1024x1024 .bf16) (x4 : Vec F S1x1024x1024 .bf16) :
    Σ' (LS0 : List (View.Piece (Elt F) S1024x1024 .f32)) (LS1 : List (View.Piece (Elt F) S1024x1 .f32)), { LS2 : List (View.Piece (Elt F) S1024x1024 .f32) //
      ∀ (xi5 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__main_kernel i arg3 harg3 arg4 harg4 arg5 harg5 arg6 harg6 arg7 harg7 arg8 harg8 arg9 harg9 arg10 harg10 arg11 harg11) K } := by
  refine ⟨?_, ?_, ?_, fun xi5 E K => ?run⟩
  case run =>
    simp only [cc1__main_kernel_eq_skeleton]; unfold cc1__main_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%gH5, %hgH5, H5⟩, ⟨%dHS0, %gHS0, -, HS0⟩, ⟨%dHS1, %gHS1, -, HS1⟩, ⟨%dHS2, %gHS2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hgH5
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    iexists _; iexact HS2

end Cert.Kernel.Hand

end
-- ==== Proof.Bits.K1RunB.lean ====
/-
  The main kernel's body at the first hidden tile of a later layer, h = 0 and l > 0: the layer's two accumulators are zeroed and the tile's row sums and product are added to them; the output accumulator and the output block are not touched.
-/
import proofs.«102676_j85581518340279_1_alg».proof.Proof.Bits.K1Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body in this case, on whole memrefs: the five input blocks kept; the accumulators and the output's staging
    buffer as the statement says; the pieces each written buffer ends with are those the body's stores write. -/
noncomputable def kernelRun1_B (c : Dev nD) (i : grid1.Coords) (arg3 : Memref sig .tc .vmem S1x1024 .f32) (harg3 : arg3.IsWhole) (arg4 : Memref sig .tc .vmem S1024x1024 .bf16) (harg4 : arg4.IsWhole) (arg5 : Memref sig .tc .vmem S8x4096 .f32) (harg5 : arg5.IsWhole) (arg6 : Memref sig .tc .vmem S1024x1024 .bf16) (harg6 : arg6.IsWhole) (arg7 : Memref sig .tc .vmem S1x1024x1024 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i) (hc2 : ¬cond1_2 i) (hc3 : ¬cond1_3 i)
    (x0 : Vec F S1x1024 .f32) (x1 : Vec F S1024x1024 .bf16) (x2 : Vec F S8x4096 .f32) (x3 : Vec F S1024x1024 .bf16) (x4 : Vec F S1x1024x1024 .bf16) :
    Σ' (LS1 : List (View.Piece (Elt F) S1024x1 .f32)), { LS2 : List (View.Piece (Elt F) S1024x1024 .f32) //
      ∀ (xi5 : Vec F S1024x1024 .f32) (xs0 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__main_kernel i arg3 harg3 arg4 harg4 arg5 harg5 arg6 harg6 arg7 harg7 arg8 harg8 arg9 harg9 arg10 harg10 arg11 harg11) K } := by
  refine ⟨?_, ?_, fun xi5 xs0 E K => ?run⟩
  case run =>
    simp only [cc1__main_kernel_eq_skeleton]; unfold cc1__main_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%gH5, %hgH5, H5⟩, ⟨%gHS0, %hgHS0, HS0⟩, ⟨%dHS1, %gHS1, -, HS1⟩, ⟨%dHS2, %gHS2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hgH5; obtain rfl := harg9.eq_unread hgHS0
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]
    · iexists _; isplitr; · ipureintro; exact harg9.read_unread _
      iexact HS0
    isplitl [HS1]; · iexists _; iexact HS1
    iexists _; iexact HS2

end Cert.Kernel.Hand

end
-- ==== Proof.Bits.K1RunC.lean ====
/-
  The main kernel's body at a middle hidden tile, h = 1 or 2: the tile's row sums and product are added to the layer's two accumulators; the output accumulator and the output block are not touched.
-/
import proofs.«102676_j85581518340279_1_alg».proof.Proof.Bits.K1Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body in this case, on whole memrefs: the five input blocks kept; the accumulators and the output's staging
    buffer as the statement says; the pieces each written buffer ends with are those the body's stores write. -/
noncomputable def kernelRun1_C (c : Dev nD) (i : grid1.Coords) (arg3 : Memref sig .tc .vmem S1x1024 .f32) (harg3 : arg3.IsWhole) (arg4 : Memref sig .tc .vmem S1024x1024 .bf16) (harg4 : arg4.IsWhole) (arg5 : Memref sig .tc .vmem S8x4096 .f32) (harg5 : arg5.IsWhole) (arg6 : Memref sig .tc .vmem S1024x1024 .bf16) (harg6 : arg6.IsWhole) (arg7 : Memref sig .tc .vmem S1x1024x1024 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : ¬cond1_1 i) (hc2 : ¬cond1_2 i) (hc3 : ¬cond1_3 i)
    (x0 : Vec F S1x1024 .f32) (x1 : Vec F S1024x1024 .bf16) (x2 : Vec F S8x4096 .f32) (x3 : Vec F S1024x1024 .bf16) (x4 : Vec F S1x1024x1024 .bf16) (xs1 : Vec F S1024x1 .f32) (xs2 : Vec F S1024x1024 .f32) :
    Σ' (LS1 : List (View.Piece (Elt F) S1024x1 .f32)), { LS2 : List (View.Piece (Elt F) S1024x1024 .f32) //
      ∀ (xi5 : Vec F S1024x1024 .f32) (xs0 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ owns (c : Thread nD τ) arg10 fullShare xs1 ∗ owns (c : Thread nD τ) arg11 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__main_kernel i arg3 harg3 arg4 harg4 arg5 harg5 arg6 harg6 arg7 harg7 arg8 harg8 arg9 harg9 arg10 harg10 arg11 harg11) K } := by
  refine ⟨?_, ?_, fun xi5 xs0 E K => ?run⟩
  case run =>
    simp only [cc1__main_kernel_eq_skeleton]; unfold cc1__main_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%gH5, %hgH5, H5⟩, ⟨%gHS0, %hgHS0, HS0⟩, ⟨%gHS1, %hgHS1, HS1⟩, ⟨%gHS2, %hgHS2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hgH5; obtain rfl := harg9.eq_unread hgHS0; obtain rfl := harg10.eq_unread hgHS1; obtain rfl := harg11.eq_unread hgHS2
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]
    · iexists _; isplitr; · ipureintro; exact harg9.read_unread _
      iexact HS0
    isplitl [HS1]; · iexists _; iexact HS1
    iexists _; iexact HS2

end Cert.Kernel.Hand

end
-- ==== Proof.Bits.K1RunD.lean ====
/-
  The main kernel's body at the last hidden tile of a layer that is not the last, h = 3 and l < 7: the tile's row sums and product are added to the layer's two accumulators, and the row sums times the product are then added to the output accumulator; the output block is not touched.
-/
import proofs.«102676_j85581518340279_1_alg».proof.Proof.Bits.K1Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body in this case, on whole memrefs: the five input blocks kept; the accumulators and the output's staging
    buffer as the statement says; the pieces each written buffer ends with are those the body's stores write. -/
noncomputable def kernelRun1_D (c : Dev nD) (i : grid1.Coords) (arg3 : Memref sig .tc .vmem S1x1024 .f32) (harg3 : arg3.IsWhole) (arg4 : Memref sig .tc .vmem S1024x1024 .bf16) (harg4 : arg4.IsWhole) (arg5 : Memref sig .tc .vmem S8x4096 .f32) (harg5 : arg5.IsWhole) (arg6 : Memref sig .tc .vmem S1024x1024 .bf16) (harg6 : arg6.IsWhole) (arg7 : Memref sig .tc .vmem S1x1024x1024 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : ¬cond1_1 i) (hc2 : cond1_2 i) (hc3 : ¬cond1_3 i)
    (x0 : Vec F S1x1024 .f32) (x1 : Vec F S1024x1024 .bf16) (x2 : Vec F S8x4096 .f32) (x3 : Vec F S1024x1024 .bf16) (x4 : Vec F S1x1024x1024 .bf16) (xs0 : Vec F S1024x1024 .f32) (xs1 : Vec F S1024x1 .f32) (xs2 : Vec F S1024x1024 .f32) :
    Σ' (LS0 : List (View.Piece (Elt F) S1024x1024 .f32)) (LS1 : List (View.Piece (Elt F) S1024x1 .f32)), { LS2 : List (View.Piece (Elt F) S1024x1024 .f32) //
      ∀ (xi5 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ owns (c : Thread nD τ) arg10 fullShare xs1 ∗ owns (c : Thread nD τ) arg11 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__main_kernel i arg3 harg3 arg4 harg4 arg5 harg5 arg6 harg6 arg7 harg7 arg8 harg8 arg9 harg9 arg10 harg10 arg11 harg11) K } := by
  refine ⟨?_, ?_, ?_, fun xi5 E K => ?run⟩
  case run =>
    simp only [cc1__main_kernel_eq_skeleton]; unfold cc1__main_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%gH5, %hgH5, H5⟩, ⟨%gHS0, %hgHS0, HS0⟩, ⟨%gHS1, %hgHS1, HS1⟩, ⟨%gHS2, %hgHS2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hgH5; obtain rfl := harg9.eq_unread hgHS0; obtain rfl := harg10.eq_unread hgHS1; obtain rfl := harg11.eq_unread hgHS2
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    iexists _; iexact HS2

end Cert.Kernel.Hand

end
-- ==== Proof.Bits.K1RunE.lean ====
/-
  The main kernel's body at the last point of a row block, (l, h) = (7, 3): as at the last hidden tile of any layer, and the output accumulator is then stored as the output block.
-/
import proofs.«102676_j85581518340279_1_alg».proof.Proof.Bits.K1Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body in this case, on whole memrefs: the five input blocks kept; the accumulators and the output's staging
    buffer as the statement says; the pieces each written buffer ends with are those the body's stores write. -/
noncomputable def kernelRun1_E (c : Dev nD) (i : grid1.Coords) (arg3 : Memref sig .tc .vmem S1x1024 .f32) (harg3 : arg3.IsWhole) (arg4 : Memref sig .tc .vmem S1024x1024 .bf16) (harg4 : arg4.IsWhole) (arg5 : Memref sig .tc .vmem S8x4096 .f32) (harg5 : arg5.IsWhole) (arg6 : Memref sig .tc .vmem S1024x1024 .bf16) (harg6 : arg6.IsWhole) (arg7 : Memref sig .tc .vmem S1x1024x1024 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : ¬cond1_1 i) (hc2 : cond1_2 i) (hc3 : cond1_3 i)
    (x0 : Vec F S1x1024 .f32) (x1 : Vec F S1024x1024 .bf16) (x2 : Vec F S8x4096 .f32) (x3 : Vec F S1024x1024 .bf16) (x4 : Vec F S1x1024x1024 .bf16) (xs0 : Vec F S1024x1024 .f32) (xs1 : Vec F S1024x1 .f32) (xs2 : Vec F S1024x1024 .f32) :
    Σ' (L5 : List (View.Piece (Elt F) S1024x1024 .f32)) (LS0 : List (View.Piece (Elt F) S1024x1024 .f32)) (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__main_kernel i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1__main_kernel_eq_skeleton]; unfold cc1__main_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%dH5, %gH5, -, H5⟩, ⟨%gHS0, %hgHS0, HS0⟩, ⟨%gHS1, %hgHS1, HS1⟩, ⟨%gHS2, %hgHS2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hgHS0; obtain rfl := harg10.eq_unread hgHS1; obtain rfl := harg11.eq_unread hgHS2
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    isplitl [HS1]; · iexists _; iexact HS1
    iexists _; iexact HS2

end Cert.Kernel.Hand

end
-- ==== Proof.Bits.K1Frame.lean ====
/-
  The second kernel region as a whole: what the output block's staging buffer and the three accumulators hold after
  each of the 128 points, by recursion on the point over the pieces the body writes in each of its five cases — the output accumulator
  started at a + x·Vsq when a row block begins and increased by (row sums) ⊙ (product) when a layer ends, the layer's
  row sums and product zeroed when a layer begins and increased tile by tile —; the region invariant carrying the
  accumulators from one point to the next; the proof data; and the body obligation at every point, by cases on the
  point's position.
-/
import proofs.«102676_j85581518340279_1_alg».proof.Proof.Bits.K1RunA
import proofs.«102676_j85581518340279_1_alg».proof.Proof.Bits.K1RunB
import proofs.«102676_j85581518340279_1_alg».proof.Proof.Bits.K1RunC
import proofs.«102676_j85581518340279_1_alg».proof.Proof.Bits.K1RunD
import proofs.«102676_j85581518340279_1_alg».proof.Proof.Bits.K1RunE

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- At a point that stores nothing into the output block its staging buffer is handed back as found: a placeholder
    nothing consults. -/
def idleOut1 : Vec F S1024x1024 .f32 := VO1_5.read (Elt F) (VO1_5.writes (Elt F) VO1_5.junk [])

/-! ## What each case leaves -/

theorem cover1_A_LS0 (c : Dev nD) (i : grid1.Coords) (arg3 : Memref sig .tc .vmem S1x1024 .f32) (harg3 : arg3.IsWhole) (arg4 : Memref sig .tc .vmem S1024x1024 .bf16) (harg4 : arg4.IsWhole) (arg5 : Memref sig .tc .vmem S8x4096 .f32) (harg5 : arg5.IsWhole) (arg6 : Memref sig .tc .vmem S1024x1024 .bf16) (harg6 : arg6.IsWhole) (arg7 : Memref sig .tc .vmem S1x1024x1024 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : cond1_1 i) (hc2 : ¬cond1_2 i) (hc3 : ¬cond1_3 i) (x0 : Vec F S1x1024 .f32) (x1 : Vec F S1024x1024 .bf16) (x2 : Vec F S8x4096 .f32) (x3 : Vec F S1024x1024 .bf16) (x4 : Vec F S1x1024x1024 .bf16)  (y : S1024x1024.Idx) :
    ∃ pc ∈ (kernelRun1_A c i arg3 harg3 arg4 harg4 arg5 harg5 arg6 harg6 arg7 harg7 arg8 harg8 arg9 harg9 arg10 harg10 arg11 harg11 hc0 hc1 hc2 hc3 x0 x1 x2 x3 x4).1, y ∈ pc.1.set :=
  View.cover_of_tiledL (kernelRun1_A c i arg3 harg3 arg4 harg4 arg5 harg5 arg6 harg6 arg7 harg7 arg8 harg8 arg9 harg9 arg10 harg10 arg11 harg11 hc0 hc1 hc2 hc3 x0 x1 x2 x3 x4).1 S1024x1024.size (by sl_kernel_rfl) y

theorem cover1_A_LS1 (c : Dev nD) (i : grid1.Coords) (arg3 : Memref sig .tc .vmem S1x1024 .f32) (harg3 : arg3.IsWhole) (arg4 : Memref sig .tc .vmem S1024x1024 .bf16) (harg4 : arg4.IsWhole) (arg5 : Memref sig .tc .vmem S8x4096 .f32) (harg5 : arg5.IsWhole) (arg6 : Memref sig .tc .vmem S1024x1024 .bf16) (harg6 : arg6.IsWhole) (arg7 : Memref sig .tc .vmem S1x1024x1024 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : cond1_1 i) (hc2 : ¬cond1_2 i) (hc3 : ¬cond1_3 i) (x0 : Vec F S1x1024 .f32) (x1 : Vec F S1024x1024 .bf16) (x2 : Vec F S8x4096 .f32) (x3 : Vec F S1024x1024 .bf16) (x4 : Vec F S1x1024x1024 .bf16)  (y : S1024x1.Idx) :
    ∃ pc ∈ (kernelRun1_A c i arg3 harg3 arg4 harg4 arg5 harg5 arg6 harg6 arg7 harg7 arg8 harg8 arg9 harg9 arg10 harg10 arg11 harg11 hc0 hc1 hc2 hc3 x0 x1 x2 x3 x4).2.1, y ∈ pc.1.set :=
  View.cover_of_tiledL (kernelRun1_A c i arg3 harg3 arg4 harg4 arg5 harg5 arg6 harg6 arg7 harg7 arg8 harg8 arg9 harg9 arg10 harg10 arg11 harg11 hc0 hc1 hc2 hc3 x0 x1 x2 x3 x4).2.1 S1024x1.size (by sl_kernel_rfl) y

theorem cover1_A_LS2 (c : Dev nD) (i : grid1.Coords) (arg3 : Memref sig .tc .vmem S1x1024 .f32) (harg3 : arg3.IsWhole) (arg4 : Memref sig .tc .vmem S1024x1024 .bf16) (harg4 : arg4.IsWhole) (arg5 : Memref sig .tc .vmem S8x4096 .f32) (harg5 : arg5.IsWhole) (arg6 : Memref sig .tc .vmem S1024x1024 .bf16) (harg6 : arg6.IsWhole) (arg7 : Memref sig .tc .vmem S1x1024x1024 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : cond1_1 i) (hc2 : ¬cond1_2 i) (hc3 : ¬cond1_3 i) (x0 : Vec F S1x1024 .f32) (x1 : Vec F S1024x1024 .bf16) (x2 : Vec F S8x4096 .f32) (x3 : Vec F S1024x1024 .bf16) (x4 : Vec F S1x1024x1024 .bf16)  (y : S1024x1024.Idx) :
    ∃ pc ∈ (kernelRun1_A c i arg3 harg3 arg4 harg4 arg5 harg5 arg6 harg6 arg7 harg7 arg8 harg8 arg9 harg9 arg10 harg10 arg11 harg11 hc0 hc1 hc2 hc3 x0 x1 x2 x3 x4).2.2.1, y ∈ pc.1.set :=
  View.cover_of_tiledL (kernelRun1_A c i arg3 harg3 arg4 harg4 arg5 harg5 arg6 harg6 arg7 harg7 arg8 harg8 arg9 harg9 arg10 harg10 arg11 harg11 hc0 hc1 hc2 hc3 x0 x1 x2 x3 x4).2.2.1 S1024x1024.size (by sl_kernel_rfl) y

/-- After a point of case A: (the output block's staging buffer, the output accumulator, the layer's row sums, the layer's product). -/
def res1_A (c : Dev nD) (i : grid1.Coords) (arg3 : Memref sig .tc .vmem S1x1024 .f32) (harg3 : arg3.IsWhole) (arg4 : Memref sig .tc .vmem S1024x1024 .bf16) (harg4 : arg4.IsWhole) (arg5 : Memref sig .tc .vmem S8x4096 .f32) (harg5 : arg5.IsWhole) (arg6 : Memref sig .tc .vmem S1024x1024 .bf16) (harg6 : arg6.IsWhole) (arg7 : Memref sig .tc .vmem S1x1024x1024 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : cond1_1 i) (hc2 : ¬cond1_2 i) (hc3 : ¬cond1_3 i) (x0 : Vec F S1x1024 .f32) (x1 : Vec F S1024x1024 .bf16) (x2 : Vec F S8x4096 .f32) (x3 : Vec F S1024x1024 .bf16) (x4 : Vec F S1x1024x1024 .bf16) : Vec F S1024x1024 .f32 × Vec F S1024x1024 .f32 × Vec F S1024x1 .f32 × Vec F S1024x1024 .f32 :=
  (idleOut1, VS1_0.read (Elt F) (VS1_0.writes (Elt F) VS1_0.junk (kernelRun1_A c i arg3 harg3 arg4 harg4 arg5 harg5 arg6 harg6 arg7 harg7 arg8 harg8 arg9 harg9 arg10 harg10 arg11 harg11 hc0 hc1 hc2 hc3 x0 x1 x2 x3 x4).1), VS1_1.read (Elt F) (VS1_1.writes (Elt F) VS1_1.junk (kernelRun1_A c i arg3 harg3 arg4 harg4 arg5 harg5 arg6 harg6 arg7 harg7 arg8 harg8 arg9 harg9 arg10 harg10 arg11 harg11 hc0 hc1 hc2 hc3 x0 x1 x2 x3 x4).2.1), VS1_2.read (Elt F) (VS1_2.writes (Elt F) VS1_2.junk (kernelRun1_A c i arg3 harg3 arg4 harg4 arg5 harg5 arg6 harg6 arg7 harg7 arg8 harg8 arg9 harg9 arg10 harg10 arg11 harg11 hc0 hc1 hc2 hc3 x0 x1 x2 x3 x4).2.2.1))

theorem cover1_B_LS1 (c : Dev nD) (i : grid1.Coords) (arg3 : Memref sig .tc .vmem S1x1024 .f32) (harg3 : arg3.IsWhole) (arg4 : Memref sig .tc .vmem S1024x1024 .bf16) (harg4 : arg4.IsWhole) (arg5 : Memref sig .tc .vmem S8x4096 .f32) (harg5 : arg5.IsWhole) (arg6 : Memref sig .tc .vmem S1024x1024 .bf16) (harg6 : arg6.IsWhole) (arg7 : Memref sig .tc .vmem S1x1024x1024 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i) (hc2 : ¬cond1_2 i) (hc3 : ¬cond1_3 i) (x0 : Vec F S1x1024 .f32) (x1 : Vec F S1024x1024 .bf16) (x2 : Vec F S8x4096 .f32) (x3 : Vec F S1024x1024 .bf16) (x4 : Vec F S1x1024x1024 .bf16)  (y : S1024x1.Idx) :
    ∃ pc ∈ (kernelRun1_B c i arg3 harg3 arg4 harg4 arg5 harg5 arg6 harg6 arg7 harg7 arg8 harg8 arg9 harg9 arg10 harg10 arg11 harg11 hc0 hc1 hc2 hc3 x0 x1 x2 x3 x4).1, y ∈ pc.1.set :=
  View.cover_of_tiledL (kernelRun1_B c i arg3 harg3 arg4 harg4 arg5 harg5 arg6 harg6 arg7 harg7 arg8 harg8 arg9 harg9 arg10 harg10 arg11 harg11 hc0 hc1 hc2 hc3 x0 x1 x2 x3 x4).1 S1024x1.size (by sl_kernel_rfl) y

theorem cover1_B_LS2 (c : Dev nD) (i : grid1.Coords) (arg3 : Memref sig .tc .vmem S1x1024 .f32) (harg3 : arg3.IsWhole) (arg4 : Memref sig .tc .vmem S1024x1024 .bf16) (harg4 : arg4.IsWhole) (arg5 : Memref sig .tc .vmem S8x4096 .f32) (harg5 : arg5.IsWhole) (arg6 : Memref sig .tc .vmem S1024x1024 .bf16) (harg6 : arg6.IsWhole) (arg7 : Memref sig .tc .vmem S1x1024x1024 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i) (hc2 : ¬cond1_2 i) (hc3 : ¬cond1_3 i) (x0 : Vec F S1x1024 .f32) (x1 : Vec F S1024x1024 .bf16) (x2 : Vec F S8x4096 .f32) (x3 : Vec F S1024x1024 .bf16) (x4 : Vec F S1x1024x1024 .bf16)  (y : S1024x1024.Idx) :
    ∃ pc ∈ (kernelRun1_B c i arg3 harg3 arg4 harg4 arg5 harg5 arg6 harg6 arg7 harg7 arg8 harg8 arg9 harg9 arg10 harg10 arg11 harg11 hc0 hc1 hc2 hc3 x0 x1 x2 x3 x4).2.1, y ∈ pc.1.set :=
  View.cover_of_tiledL (kernelRun1_B c i arg3 harg3 arg4 harg4 arg5 harg5 arg6 harg6 arg7 harg7 arg8 harg8 arg9 harg9 arg10 harg10 arg11 harg11 hc0 hc1 hc2 hc3 x0 x1 x2 x3 x4).2.1 S1024x1024.size (by sl_kernel_rfl) y

/-- After a point of case B: (the output block's staging buffer, the output accumulator, the layer's row sums, the layer's product), over what the point before left (`p`). -/
def res1_B (c : Dev nD) (i : grid1.Coords) (arg3 : Memref sig .tc .vmem S1x1024 .f32) (harg3 : arg3.IsWhole) (arg4 : Memref sig .tc .vmem S1024x1024 .bf16) (harg4 : arg4.IsWhole) (arg5 : Memref sig .tc .vmem S8x4096 .f32) (harg5 : arg5.IsWhole) (arg6 : Memref sig .tc .vmem S1024x1024 .bf16) (harg6 : arg6.IsWhole) (arg7 : Memref sig .tc .vmem S1x1024x1024 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i) (hc2 : ¬cond1_2 i) (hc3 : ¬cond1_3 i) (x0 : Vec F S1x1024 .f32) (x1 : Vec F S1024x1024 .bf16) (x2 : Vec F S8x4096 .f32) (x3 : Vec F S1024x1024 .bf16) (x4 : Vec F S1x1024x1024 .bf16) (p : Vec F S1024x1024 .f32 × Vec F S1024x1024 .f32 × Vec F S1024x1 .f32 × Vec F S1024x1024 .f32) : Vec F S1024x1024 .f32 × Vec F S1024x1024 .f32 × Vec F S1024x1 .f32 × Vec F S1024x1024 .f32 :=
  (idleOut1, p.2.1, VS1_1.read (Elt F) (VS1_1.writes (Elt F) VS1_1.junk (kernelRun1_B c i arg3 harg3 arg4 harg4 arg5 harg5 arg6 harg6 arg7 harg7 arg8 harg8 arg9 harg9 arg10 harg10 arg11 harg11 hc0 hc1 hc2 hc3 x0 x1 x2 x3 x4).1), VS1_2.read (Elt F) (VS1_2.writes (Elt F) VS1_2.junk (kernelRun1_B c i arg3 harg3 arg4 harg4 arg5 harg5 arg6 harg6 arg7 harg7 arg8 harg8 arg9 harg9 arg10 harg10 arg11 harg11 hc0 hc1 hc2 hc3 x0 x1 x2 x3 x4).2.1))

theorem cover1_C_LS1 (c : Dev nD) (i : grid1.Coords) (arg3 : Memref sig .tc .vmem S1x1024 .f32) (harg3 : arg3.IsWhole) (arg4 : Memref sig .tc .vmem S1024x1024 .bf16) (harg4 : arg4.IsWhole) (arg5 : Memref sig .tc .vmem S8x4096 .f32) (harg5 : arg5.IsWhole) (arg6 : Memref sig .tc .vmem S1024x1024 .bf16) (harg6 : arg6.IsWhole) (arg7 : Memref sig .tc .vmem S1x1024x1024 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : ¬cond1_1 i) (hc2 : ¬cond1_2 i) (hc3 : ¬cond1_3 i) (x0 : Vec F S1x1024 .f32) (x1 : Vec F S1024x1024 .bf16) (x2 : Vec F S8x4096 .f32) (x3 : Vec F S1024x1024 .bf16) (x4 : Vec F S1x1024x1024 .bf16) (xs1 : Vec F S1024x1 .f32) (xs2 : Vec F S1024x1024 .f32) (y : S1024x1.Idx) :
    ∃ pc ∈ (kernelRun1_C c i arg3 harg3 arg4 harg4 arg5 harg5 arg6 harg6 arg7 harg7 arg8 harg8 arg9 harg9 arg10 harg10 arg11 harg11 hc0 hc1 hc2 hc3 x0 x1 x2 x3 x4 xs1 xs2).1, y ∈ pc.1.set :=
  View.cover_of_tiledL (kernelRun1_C c i arg3 harg3 arg4 harg4 arg5 harg5 arg6 harg6 arg7 harg7 arg8 harg8 arg9 harg9 arg10 harg10 arg11 harg11 hc0 hc1 hc2 hc3 x0 x1 x2 x3 x4 xs1 xs2).1 S1024x1.size (by sl_kernel_rfl) y

theorem cover1_C_LS2 (c : Dev nD) (i : grid1.Coords) (arg3 : Memref sig .tc .vmem S1x1024 .f32) (harg3 : arg3.IsWhole) (arg4 : Memref sig .tc .vmem S1024x1024 .bf16) (harg4 : arg4.IsWhole) (arg5 : Memref sig .tc .vmem S8x4096 .f32) (harg5 : arg5.IsWhole) (arg6 : Memref sig .tc .vmem S1024x1024 .bf16) (harg6 : arg6.IsWhole) (arg7 : Memref sig .tc .vmem S1x1024x1024 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : ¬cond1_1 i) (hc2 : ¬cond1_2 i) (hc3 : ¬cond1_3 i) (x0 : Vec F S1x1024 .f32) (x1 : Vec F S1024x1024 .bf16) (x2 : Vec F S8x4096 .f32) (x3 : Vec F S1024x1024 .bf16) (x4 : Vec F S1x1024x1024 .bf16) (xs1 : Vec F S1024x1 .f32) (xs2 : Vec F S1024x1024 .f32) (y : S1024x1024.Idx) :
    ∃ pc ∈ (kernelRun1_C c i arg3 harg3 arg4 harg4 arg5 harg5 arg6 harg6 arg7 harg7 arg8 harg8 arg9 harg9 arg10 harg10 arg11 harg11 hc0 hc1 hc2 hc3 x0 x1 x2 x3 x4 xs1 xs2).2.1, y ∈ pc.1.set :=
  View.cover_of_tiledL (kernelRun1_C c i arg3 harg3 arg4 harg4 arg5 harg5 arg6 harg6 arg7 harg7 arg8 harg8 arg9 harg9 arg10 harg10 arg11 harg11 hc0 hc1 hc2 hc3 x0 x1 x2 x3 x4 xs1 xs2).2.1 S1024x1024.size (by sl_kernel_rfl) y

/-- After a point of case C: (the output block's staging buffer, the output accumulator, the layer's row sums, the layer's product), over what the point before left (`p`). -/
def res1_C (c : Dev nD) (i : grid1.Coords) (arg3 : Memref sig .tc .vmem S1x1024 .f32) (harg3 : arg3.IsWhole) (arg4 : Memref sig .tc .vmem S1024x1024 .bf16) (harg4 : arg4.IsWhole) (arg5 : Memref sig .tc .vmem S8x4096 .f32) (harg5 : arg5.IsWhole) (arg6 : Memref sig .tc .vmem S1024x1024 .bf16) (harg6 : arg6.IsWhole) (arg7 : Memref sig .tc .vmem S1x1024x1024 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : ¬cond1_1 i) (hc2 : ¬cond1_2 i) (hc3 : ¬cond1_3 i) (x0 : Vec F S1x1024 .f32) (x1 : Vec F S1024x1024 .bf16) (x2 : Vec F S8x4096 .f32) (x3 : Vec F S1024x1024 .bf16) (x4 : Vec F S1x1024x1024 .bf16) (p : Vec F S1024x1024 .f32 × Vec F S1024x1024 .f32 × Vec F S1024x1 .f32 × Vec F S1024x1024 .f32) : Vec F S1024x1024 .f32 × Vec F S1024x1024 .f32 × Vec F S1024x1 .f32 × Vec F S1024x1024 .f32 :=
  (idleOut1, p.2.1, VS1_1.read (Elt F) (VS1_1.writes (Elt F) VS1_1.junk (kernelRun1_C c i arg3 harg3 arg4 harg4 arg5 harg5 arg6 harg6 arg7 harg7 arg8 harg8 arg9 harg9 arg10 harg10 arg11 harg11 hc0 hc1 hc2 hc3 x0 x1 x2 x3 x4 (p.2.2.1) (p.2.2.2)).1), VS1_2.read (Elt F) (VS1_2.writes (Elt F) VS1_2.junk (kernelRun1_C c i arg3 harg3 arg4 harg4 arg5 harg5 arg6 harg6 arg7 harg7 arg8 harg8 arg9 harg9 arg10 harg10 arg11 harg11 hc0 hc1 hc2 hc3 x0 x1 x2 x3 x4 (p.2.2.1) (p.2.2.2)).2.1))

theorem cover1_D_LS0 (c : Dev nD) (i : grid1.Coords) (arg3 : Memref sig .tc .vmem S1x1024 .f32) (harg3 : arg3.IsWhole) (arg4 : Memref sig .tc .vmem S1024x1024 .bf16) (harg4 : arg4.IsWhole) (arg5 : Memref sig .tc .vmem S8x4096 .f32) (harg5 : arg5.IsWhole) (arg6 : Memref sig .tc .vmem S1024x1024 .bf16) (harg6 : arg6.IsWhole) (arg7 : Memref sig .tc .vmem S1x1024x1024 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : ¬cond1_1 i) (hc2 : cond1_2 i) (hc3 : ¬cond1_3 i) (x0 : Vec F S1x1024 .f32) (x1 : Vec F S1024x1024 .bf16) (x2 : Vec F S8x4096 .f32) (x3 : Vec F S1024x1024 .bf16) (x4 : Vec F S1x1024x1024 .bf16) (xs0 : Vec F S1024x1024 .f32) (xs1 : Vec F S1024x1 .f32) (xs2 : Vec F S1024x1024 .f32) (y : S1024x1024.Idx) :
    ∃ pc ∈ (kernelRun1_D c i arg3 harg3 arg4 harg4 arg5 harg5 arg6 harg6 arg7 harg7 arg8 harg8 arg9 harg9 arg10 harg10 arg11 harg11 hc0 hc1 hc2 hc3 x0 x1 x2 x3 x4 xs0 xs1 xs2).1, y ∈ pc.1.set :=
  View.cover_of_tiledL (kernelRun1_D c i arg3 harg3 arg4 harg4 arg5 harg5 arg6 harg6 arg7 harg7 arg8 harg8 arg9 harg9 arg10 harg10 arg11 harg11 hc0 hc1 hc2 hc3 x0 x1 x2 x3 x4 xs0 xs1 xs2).1 S1024x1024.size (by sl_kernel_rfl) y

theorem cover1_D_LS1 (c : Dev nD) (i : grid1.Coords) (arg3 : Memref sig .tc .vmem S1x1024 .f32) (harg3 : arg3.IsWhole) (arg4 : Memref sig .tc .vmem S1024x1024 .bf16) (harg4 : arg4.IsWhole) (arg5 : Memref sig .tc .vmem S8x4096 .f32) (harg5 : arg5.IsWhole) (arg6 : Memref sig .tc .vmem S1024x1024 .bf16) (harg6 : arg6.IsWhole) (arg7 : Memref sig .tc .vmem S1x1024x1024 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : ¬cond1_1 i) (hc2 : cond1_2 i) (hc3 : ¬cond1_3 i) (x0 : Vec F S1x1024 .f32) (x1 : Vec F S1024x1024 .bf16) (x2 : Vec F S8x4096 .f32) (x3 : Vec F S1024x1024 .bf16) (x4 : Vec F S1x1024x1024 .bf16) (xs0 : Vec F S1024x1024 .f32) (xs1 : Vec F S1024x1 .f32) (xs2 : Vec F S1024x1024 .f32) (y : S1024x1.Idx) :
    ∃ pc ∈ (kernelRun1_D c i arg3 harg3 arg4 harg4 arg5 harg5 arg6 harg6 arg7 harg7 arg8 harg8 arg9 harg9 arg10 harg10 arg11 harg11 hc0 hc1 hc2 hc3 x0 x1 x2 x3 x4 xs0 xs1 xs2).2.1, y ∈ pc.1.set :=
  View.cover_of_tiledL (kernelRun1_D c i arg3 harg3 arg4 harg4 arg5 harg5 arg6 harg6 arg7 harg7 arg8 harg8 arg9 harg9 arg10 harg10 arg11 harg11 hc0 hc1 hc2 hc3 x0 x1 x2 x3 x4 xs0 xs1 xs2).2.1 S1024x1.size (by sl_kernel_rfl) y

theorem cover1_D_LS2 (c : Dev nD) (i : grid1.Coords) (arg3 : Memref sig .tc .vmem S1x1024 .f32) (harg3 : arg3.IsWhole) (arg4 : Memref sig .tc .vmem S1024x1024 .bf16) (harg4 : arg4.IsWhole) (arg5 : Memref sig .tc .vmem S8x4096 .f32) (harg5 : arg5.IsWhole) (arg6 : Memref sig .tc .vmem S1024x1024 .bf16) (harg6 : arg6.IsWhole) (arg7 : Memref sig .tc .vmem S1x1024x1024 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : ¬cond1_1 i) (hc2 : cond1_2 i) (hc3 : ¬cond1_3 i) (x0 : Vec F S1x1024 .f32) (x1 : Vec F S1024x1024 .bf16) (x2 : Vec F S8x4096 .f32) (x3 : Vec F S1024x1024 .bf16) (x4 : Vec F S1x1024x1024 .bf16) (xs0 : Vec F S1024x1024 .f32) (xs1 : Vec F S1024x1 .f32) (xs2 : Vec F S1024x1024 .f32) (y : S1024x1024.Idx) :
    ∃ pc ∈ (kernelRun1_D c i arg3 harg3 arg4 harg4 arg5 harg5 arg6 harg6 arg7 harg7 arg8 harg8 arg9 harg9 arg10 harg10 arg11 harg11 hc0 hc1 hc2 hc3 x0 x1 x2 x3 x4 xs0 xs1 xs2).2.2.1, y ∈ pc.1.set :=
  View.cover_of_tiledL (kernelRun1_D c i arg3 harg3 arg4 harg4 arg5 harg5 arg6 harg6 arg7 harg7 arg8 harg8 arg9 harg9 arg10 harg10 arg11 harg11 hc0 hc1 hc2 hc3 x0 x1 x2 x3 x4 xs0 xs1 xs2).2.2.1 S1024x1024.size (by sl_kernel_rfl) y

/-- After a point of case D: (the output block's staging buffer, the output accumulator, the layer's row sums, the layer's product), over what the point before left (`p`). -/
def res1_D (c : Dev nD) (i : grid1.Coords) (arg3 : Memref sig .tc .vmem S1x1024 .f32) (harg3 : arg3.IsWhole) (arg4 : Memref sig .tc .vmem S1024x1024 .bf16) (harg4 : arg4.IsWhole) (arg5 : Memref sig .tc .vmem S8x4096 .f32) (harg5 : arg5.IsWhole) (arg6 : Memref sig .tc .vmem S1024x1024 .bf16) (harg6 : arg6.IsWhole) (arg7 : Memref sig .tc .vmem S1x1024x1024 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : ¬cond1_1 i) (hc2 : cond1_2 i) (hc3 : ¬cond1_3 i) (x0 : Vec F S1x1024 .f32) (x1 : Vec F S1024x1024 .bf16) (x2 : Vec F S8x4096 .f32) (x3 : Vec F S1024x1024 .bf16) (x4 : Vec F S1x1024x1024 .bf16) (p : Vec F S1024x1024 .f32 × Vec F S1024x1024 .f32 × Vec F S1024x1 .f32 × Vec F S1024x1024 .f32) : Vec F S1024x1024 .f32 × Vec F S1024x1024 .f32 × Vec F S1024x1 .f32 × Vec F S1024x1024 .f32 :=
  (idleOut1, VS1_0.read (Elt F) (VS1_0.writes (Elt F) VS1_0.junk (kernelRun1_D c i arg3 harg3 arg4 harg4 arg5 harg5 arg6 harg6 arg7 harg7 arg8 harg8 arg9 harg9 arg10 harg10 arg11 harg11 hc0 hc1 hc2 hc3 x0 x1 x2 x3 x4 (p.2.1) (p.2.2.1) (p.2.2.2)).1), VS1_1.read (Elt F) (VS1_1.writes (Elt F) VS1_1.junk (kernelRun1_D c i arg3 harg3 arg4 harg4 arg5 harg5 arg6 harg6 arg7 harg7 arg8 harg8 arg9 harg9 arg10 harg10 arg11 harg11 hc0 hc1 hc2 hc3 x0 x1 x2 x3 x4 (p.2.1) (p.2.2.1) (p.2.2.2)).2.1), VS1_2.read (Elt F) (VS1_2.writes (Elt F) VS1_2.junk (kernelRun1_D c i arg3 harg3 arg4 harg4 arg5 harg5 arg6 harg6 arg7 harg7 arg8 harg8 arg9 harg9 arg10 harg10 arg11 harg11 hc0 hc1 hc2 hc3 x0 x1 x2 x3 x4 (p.2.1) (p.2.2.1) (p.2.2.2)).2.2.1))

theorem cover1_E_L5 (c : Dev nD) (i : grid1.Coords) (arg3 : Memref sig .tc .vmem S1x1024 .f32) (harg3 : arg3.IsWhole) (arg4 : Memref sig .tc .vmem S1024x1024 .bf16) (harg4 : arg4.IsWhole) (arg5 : Memref sig .tc .vmem S8x4096 .f32) (harg5 : arg5.IsWhole) (arg6 : Memref sig .tc .vmem S1024x1024 .bf16) (harg6 : arg6.IsWhole) (arg7 : Memref sig .tc .vmem S1x1024x1024 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : ¬cond1_1 i) (hc2 : cond1_2 i) (hc3 : cond1_3 i) (x0 : Vec F S1x1024 .f32) (x1 : Vec F S1024x1024 .bf16) (x2 : Vec F S8x4096 .f32) (x3 : Vec F S1024x1024 .bf16) (x4 : Vec F S1x1024x1024 .bf16) (xs0 : Vec F S1024x1024 .f32) (xs1 : Vec F S1024x1 .f32) (xs2 : Vec F S1024x1024 .f32) (y : S1024x1024.Idx) :
    ∃ pc ∈ (kernelRun1_E c i arg3 harg3 arg4 harg4 arg5 harg5 arg6 harg6 arg7 harg7 arg8 harg8 arg9 harg9 arg10 harg10 arg11 harg11 hc0 hc1 hc2 hc3 x0 x1 x2 x3 x4 xs0 xs1 xs2).1, y ∈ pc.1.set :=
  View.cover_of_tiledL (kernelRun1_E c i arg3 harg3 arg4 harg4 arg5 harg5 arg6 harg6 arg7 harg7 arg8 harg8 arg9 harg9 arg10 harg10 arg11 harg11 hc0 hc1 hc2 hc3 x0 x1 x2 x3 x4 xs0 xs1 xs2).1 S1024x1024.size (by sl_kernel_rfl) y

theorem cover1_E_LS0 (c : Dev nD) (i : grid1.Coords) (arg3 : Memref sig .tc .vmem S1x1024 .f32) (harg3 : arg3.IsWhole) (arg4 : Memref sig .tc .vmem S1024x1024 .bf16) (harg4 : arg4.IsWhole) (arg5 : Memref sig .tc .vmem S8x4096 .f32) (harg5 : arg5.IsWhole) (arg6 : Memref sig .tc .vmem S1024x1024 .bf16) (harg6 : arg6.IsWhole) (arg7 : Memref sig .tc .vmem S1x1024x1024 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : ¬cond1_1 i) (hc2 : cond1_2 i) (hc3 : cond1_3 i) (x0 : Vec F S1x1024 .f32) (x1 : Vec F S1024x1024 .bf16) (x2 : Vec F S8x4096 .f32) (x3 : Vec F S1024x1024 .bf16) (x4 : Vec F S1x1024x1024 .bf16) (xs0 : Vec F S1024x1024 .f32) (xs1 : Vec F S1024x1 .f32) (xs2 : Vec F S1024x1024 .f32) (y : S1024x1024.Idx) :
    ∃ pc ∈ (kernelRun1_E c i arg3 harg3 arg4 harg4 arg5 harg5 arg6 harg6 arg7 harg7 arg8 harg8 arg9 harg9 arg10 harg10 arg11 harg11 hc0 hc1 hc2 hc3 x0 x1 x2 x3 x4 xs0 xs1 xs2).2.1, y ∈ pc.1.set :=
  View.cover_of_tiledL (kernelRun1_E c i arg3 harg3 arg4 harg4 arg5 harg5 arg6 harg6 arg7 harg7 arg8 harg8 arg9 harg9 arg10 harg10 arg11 harg11 hc0 hc1 hc2 hc3 x0 x1 x2 x3 x4 xs0 xs1 xs2).2.1 S1024x1024.size (by sl_kernel_rfl) y

theorem cover1_E_LS1 (c : Dev nD) (i : grid1.Coords) (arg3 : Memref sig .tc .vmem S1x1024 .f32) (harg3 : arg3.IsWhole) (arg4 : Memref sig .tc .vmem S1024x1024 .bf16) (harg4 : arg4.IsWhole) (arg5 : Memref sig .tc .vmem S8x4096 .f32) (harg5 : arg5.IsWhole) (arg6 : Memref sig .tc .vmem S1024x1024 .bf16) (harg6 : arg6.IsWhole) (arg7 : Memref sig .tc .vmem S1x1024x1024 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : ¬cond1_1 i) (hc2 : cond1_2 i) (hc3 : cond1_3 i) (x0 : Vec F S1x1024 .f32) (x1 : Vec F S1024x1024 .bf16) (x2 : Vec F S8x4096 .f32) (x3 : Vec F S1024x1024 .bf16) (x4 : Vec F S1x1024x1024 .bf16) (xs0 : Vec F S1024x1024 .f32) (xs1 : Vec F S1024x1 .f32) (xs2 : Vec F S1024x1024 .f32) (y : S1024x1.Idx) :
    ∃ pc ∈ (kernelRun1_E c i arg3 harg3 arg4 harg4 arg5 harg5 arg6 harg6 arg7 harg7 arg8 harg8 arg9 harg9 arg10 harg10 arg11 harg11 hc0 hc1 hc2 hc3 x0 x1 x2 x3 x4 xs0 xs1 xs2).2.2.1, y ∈ pc.1.set :=
  View.cover_of_tiledL (kernelRun1_E c i arg3 harg3 arg4 harg4 arg5 harg5 arg6 harg6 arg7 harg7 arg8 harg8 arg9 harg9 arg10 harg10 arg11 harg11 hc0 hc1 hc2 hc3 x0 x1 x2 x3 x4 xs0 xs1 xs2).2.2.1 S1024x1.size (by sl_kernel_rfl) y

theorem cover1_E_LS2 (c : Dev nD) (i : grid1.Coords) (arg3 : Memref sig .tc .vmem S1x1024 .f32) (harg3 : arg3.IsWhole) (arg4 : Memref sig .tc .vmem S1024x1024 .bf16) (harg4 : arg4.IsWhole) (arg5 : Memref sig .tc .vmem S8x4096 .f32) (harg5 : arg5.IsWhole) (arg6 : Memref sig .tc .vmem S1024x1024 .bf16) (harg6 : arg6.IsWhole) (arg7 : Memref sig .tc .vmem S1x1024x1024 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : ¬cond1_1 i) (hc2 : cond1_2 i) (hc3 : cond1_3 i) (x0 : Vec F S1x1024 .f32) (x1 : Vec F S1024x1024 .bf16) (x2 : Vec F S8x4096 .f32) (x3 : Vec F S1024x1024 .bf16) (x4 : Vec F S1x1024x1024 .bf16) (xs0 : Vec F S1024x1024 .f32) (xs1 : Vec F S1024x1 .f32) (xs2 : Vec F S1024x1024 .f32) (y : S1024x1024.Idx) :
    ∃ pc ∈ (kernelRun1_E c i arg3 harg3 arg4 harg4 arg5 harg5 arg6 harg6 arg7 harg7 arg8 harg8 arg9 harg9 arg10 harg10 arg11 harg11 hc0 hc1 hc2 hc3 x0 x1 x2 x3 x4 xs0 xs1 xs2).2.2.2.1, y ∈ pc.1.set :=
  View.cover_of_tiledL (kernelRun1_E c i arg3 harg3 arg4 harg4 arg5 harg5 arg6 harg6 arg7 harg7 arg8 harg8 arg9 harg9 arg10 harg10 arg11 harg11 hc0 hc1 hc2 hc3 x0 x1 x2 x3 x4 xs0 xs1 xs2).2.2.2.1 S1024x1024.size (by sl_kernel_rfl) y

/-- After a point of case E: (the output block's staging buffer, the output accumulator, the layer's row sums, the layer's product), over what the point before left (`p`). -/
def res1_E (c : Dev nD) (i : grid1.Coords) (arg3 : Memref sig .tc .vmem S1x1024 .f32) (harg3 : arg3.IsWhole) (arg4 : Memref sig .tc .vmem S1024x1024 .bf16) (harg4 : arg4.IsWhole) (arg5 : Memref sig .tc .vmem S8x4096 .f32) (harg5 : arg5.IsWhole) (arg6 : Memref sig .tc .vmem S1024x1024 .bf16) (harg6 : arg6.IsWhole) (arg7 : Memref sig .tc .vmem S1x1024x1024 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : ¬cond1_1 i) (hc2 : cond1_2 i) (hc3 : cond1_3 i) (x0 : Vec F S1x1024 .f32) (x1 : Vec F S1024x1024 .bf16) (x2 : Vec F S8x4096 .f32) (x3 : Vec F S1024x1024 .bf16) (x4 : Vec F S1x1024x1024 .bf16) (p : Vec F S1024x1024 .f32 × Vec F S1024x1024 .f32 × Vec F S1024x1 .f32 × Vec F S1024x1024 .f32) : Vec F S1024x1024 .f32 × Vec F S1024x1024 .f32 × Vec F S1024x1 .f32 × Vec F S1024x1024 .f32 :=
  (VO1_5.read (Elt F) (VO1_5.writes (Elt F) VO1_5.junk (kernelRun1_E c i arg3 harg3 arg4 harg4 arg5 harg5 arg6 harg6 arg7 harg7 arg8 harg8 arg9 harg9 arg10 harg10 arg11 harg11 hc0 hc1 hc2 hc3 x0 x1 x2 x3 x4 (p.2.1) (p.2.2.1) (p.2.2.2)).1), VS1_0.read (Elt F) (VS1_0.writes (Elt F) VS1_0.junk (kernelRun1_E c i arg3 harg3 arg4 harg4 arg5 harg5 arg6 harg6 arg7 harg7 arg8 harg8 arg9 harg9 arg10 harg10 arg11 harg11 hc0 hc1 hc2 hc3 x0 x1 x2 x3 x4 (p.2.1) (p.2.2.1) (p.2.2.2)).2.1), VS1_1.read (Elt F) (VS1_1.writes (Elt F) VS1_1.junk (kernelRun1_E c i arg3 harg3 arg4 harg4 arg5 harg5 arg6 harg6 arg7 harg7 arg8 harg8 arg9 harg9 arg10 harg10 arg11 harg11 hc0 hc1 hc2 hc3 x0 x1 x2 x3 x4 (p.2.1) (p.2.2.1) (p.2.2.2)).2.2.1), VS1_2.read (Elt F) (VS1_2.writes (Elt F) VS1_2.junk (kernelRun1_E c i arg3 harg3 arg4 harg4 arg5 harg5 arg6 harg6 arg7 harg7 arg8 harg8 arg9 harg9 arg10 harg10 arg11 harg11 hc0 hc1 hc2 hc3 x0 x1 x2 x3 x4 (p.2.1) (p.2.2.1) (p.2.2.2)).2.2.2.1))

section
variable (V : (c : Dev nD) → (b : Ref sig .tc) → Buf (Elt F) ((c : Thread nD τ).loc b))

/-! ## What the buffers hold after each point -/

/-- After point `n`: (the output block's staging buffer, the output accumulator, the layer's row sums, the layer's product),
    by the case the point is in (its position modulo 32 and modulo 4), over what the point before left. -/
def outsAt1 (c : Dev nD) : (n : ℕ) → n < cfg1.N → Vec F S1024x1024 .f32 × Vec F S1024x1024 .f32 × Vec F S1024x1 .f32 × Vec F S1024x1024 .f32
  | 0, hn => res1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) ((hcond1_0 ⟨0, hn⟩).mpr (Nat.zero_mod _)) ((hcond1_1 ⟨0, hn⟩).mpr (Nat.zero_mod _)) (fun h => (by decide : ¬ (0 : ℕ) % 4 = 3) ((hcond1_2 ⟨0, hn⟩).mp h)) (fun h => (by decide : ¬ (0 : ℕ) % 32 = 31) ((hcond1_3 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩)
  | n + 1, hn =>
    if g0 : (n + 1) % 32 = 0 then
      have g1 : (n + 1) % 4 = 0 := by omega
      have g2 : ¬(n + 1) % 4 = 3 := by omega
      have g3 : ¬(n + 1) % 32 = 31 := by omega
      res1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) ((hcond1_0 ⟨n + 1, hn⟩).mpr g0) ((hcond1_1 ⟨n + 1, hn⟩).mpr g1) (fun h => g2 ((hcond1_2 ⟨n + 1, hn⟩).mp h)) (fun h => g3 ((hcond1_3 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩)
    else if g1 : (n + 1) % 4 = 0 then
      have g2 : ¬(n + 1) % 4 = 3 := by omega
      have g3 : ¬(n + 1) % 32 = 31 := by omega
      res1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => g0 ((hcond1_0 ⟨n + 1, hn⟩).mp h)) ((hcond1_1 ⟨n + 1, hn⟩).mpr g1) (fun h => g2 ((hcond1_2 ⟨n + 1, hn⟩).mp h)) (fun h => g3 ((hcond1_3 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn))
    else if g2 : (n + 1) % 4 = 3 then
      if g3 : (n + 1) % 32 = 31 then
        res1_E c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => g0 ((hcond1_0 ⟨n + 1, hn⟩).mp h)) (fun h => g1 ((hcond1_1 ⟨n + 1, hn⟩).mp h)) ((hcond1_2 ⟨n + 1, hn⟩).mpr g2) ((hcond1_3 ⟨n + 1, hn⟩).mpr g3) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn))
      else
        res1_D c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => g0 ((hcond1_0 ⟨n + 1, hn⟩).mp h)) (fun h => g1 ((hcond1_1 ⟨n + 1, hn⟩).mp h)) ((hcond1_2 ⟨n + 1, hn⟩).mpr g2) (fun h => g3 ((hcond1_3 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn))
    else
      have g3 : ¬(n + 1) % 32 = 31 := by omega
      res1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => g0 ((hcond1_0 ⟨n + 1, hn⟩).mp h)) (fun h => g1 ((hcond1_1 ⟨n + 1, hn⟩).mp h)) (fun h => g2 ((hcond1_2 ⟨n + 1, hn⟩).mp h)) (fun h => g3 ((hcond1_3 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn))

theorem outsAt1_A (c : Dev nD) (t : Fin cfg1.N) (g0 : t.val % 32 = 0) (g1 : t.val % 4 = 0) (g2 : ¬t.val % 4 = 3) (g3 : ¬t.val % 32 = 31) :
    outsAt1 V c t.val t.isLt = res1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr g0) ((hcond1_1 t).mpr g1) (fun h => g2 ((hcond1_2 t).mp h)) (fun h => g3 ((hcond1_3 t).mp h)) (iblk1 V c 0 t) (iblk1 V c 1 t) (iblk1 V c 2 t) (iblk1 V c 3 t) (iblk1 V c 4 t) := by
  obtain ⟨n, hn⟩ := t
  cases n with
  | zero => exact rfl
  | succ n => exact (dif_pos g0).trans rfl

theorem outsAt1_B (c : Dev nD) (t : Fin cfg1.N) (g0 : ¬t.val % 32 = 0) (g1 : t.val % 4 = 0) (g2 : ¬t.val % 4 = 3) (g3 : ¬t.val % 32 = 31) :
    outsAt1 V c t.val t.isLt = res1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => g0 ((hcond1_0 t).mp h)) ((hcond1_1 t).mpr g1) (fun h => g2 ((hcond1_2 t).mp h)) (fun h => g3 ((hcond1_3 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)) := by
  obtain ⟨n, hn⟩ := t
  cases n with
  | zero => exact absurd (Nat.zero_mod _) g0
  | succ n => exact (dif_neg g0).trans ((dif_pos g1).trans rfl)

theorem outsAt1_C (c : Dev nD) (t : Fin cfg1.N) (g0 : ¬t.val % 32 = 0) (g1 : ¬t.val % 4 = 0) (g2 : ¬t.val % 4 = 3) (g3 : ¬t.val % 32 = 31) :
    outsAt1 V c t.val t.isLt = res1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => g0 ((hcond1_0 t).mp h)) (fun h => g1 ((hcond1_1 t).mp h)) (fun h => g2 ((hcond1_2 t).mp h)) (fun h => g3 ((hcond1_3 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)) := by
  obtain ⟨n, hn⟩ := t
  cases n with
  | zero => exact absurd (Nat.zero_mod _) g0
  | succ n => exact (dif_neg g0).trans ((dif_neg g1).trans ((dif_neg g2).trans rfl))

theorem outsAt1_D (c : Dev nD) (t : Fin cfg1.N) (g0 : ¬t.val % 32 = 0) (g1 : ¬t.val % 4 = 0) (g2 : t.val % 4 = 3) (g3 : ¬t.val % 32 = 31) :
    outsAt1 V c t.val t.isLt = res1_D c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => g0 ((hcond1_0 t).mp h)) (fun h => g1 ((hcond1_1 t).mp h)) ((hcond1_2 t).mpr g2) (fun h => g3 ((hcond1_3 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)) := by
  obtain ⟨n, hn⟩ := t
  cases n with
  | zero => exact absurd (Nat.zero_mod _) g0
  | succ n => exact (dif_neg g0).trans ((dif_neg g1).trans ((dif_pos g2).trans ((dif_neg g3).trans rfl)))

theorem outsAt1_E (c : Dev nD) (t : Fin cfg1.N) (g0 : ¬t.val % 32 = 0) (g1 : ¬t.val % 4 = 0) (g2 : t.val % 4 = 3) (g3 : t.val % 32 = 31) :
    outsAt1 V c t.val t.isLt = res1_E c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => g0 ((hcond1_0 t).mp h)) (fun h => g1 ((hcond1_1 t).mp h)) ((hcond1_2 t).mpr g2) ((hcond1_3 t).mpr g3) (iblk1 V c 0 t) (iblk1 V c 1 t) (iblk1 V c 2 t) (iblk1 V c 3 t) (iblk1 V c 4 t) (outsAt1 V c (t.val - 1) (Nat.lt_of_le_of_lt (Nat.sub_le _ _) t.isLt)) := by
  obtain ⟨n, hn⟩ := t
  cases n with
  | zero => exact absurd (Nat.zero_mod _) g0
  | succ n => exact (dif_neg g0).trans ((dif_neg g1).trans ((dif_pos g2).trans ((dif_pos g3).trans rfl)))

/-! ## The region invariant -/

/-- Before position `n`: at the first point the class invariant (the accumulators at anything); afterwards the three
    accumulators at what the point before left, the first region's scoped buffers untouched, the generator register at
    some state. -/
def PhiS1 (c : Dev nD) : (n : ℕ) → n ≤ cfg1.N → sProp 𝕄
  | 0, _ => Pipeline.ΦA spec1 c
  | n + 1, hn => iprop(iprop(anyBuf c cc0_stg0_0 ∗ anyBuf c cc0_stg0_1 ∗ anyBuf c cc0_stg1_0 ∗ anyBuf c cc0_scratch0
          ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(anyBuf c cc0_stg0_0 ∗ anyBuf c cc0_stg0_1 ∗ anyBuf c cc0_stg1_0 ∗ anyBuf c cc0_scratch0
          ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r)) := rfl

theorem PhiS1_pos (c : Dev nD) (n : ℕ) (h : n ≤ cfg1.N) (hz : n ≠ 0) :
    PhiS1 V c n h = iprop(iprop(anyBuf c cc0_stg0_0 ∗ anyBuf c cc0_stg0_1 ∗ anyBuf c cc0_stg1_0 ∗ anyBuf c cc0_scratch0
          ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 16000000 in
/-- The body at any point: the point's case by its position modulo 32 and modulo 4; the invariant hands the body the
    three accumulators at what the point before left (at anything at the first point) and takes them back at this
    point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases g0 : t.val % 32 = 0
  · have g1 : t.val % 4 = 0 := by omega
    have g2 : ¬t.val % 4 = 3 := by omega
    have g3 : ¬t.val % 32 = 31 := by omega
    by_cases hz : t.val = 0
    · rw [Dat.leavesExact_idle (dat1 V c) 5 t (idleAt1_5 t (fun h => g3 ((hcond1_3 t).mp h))) (noFlush1_5 t (fun h => g3 ((hcond1_3 t).mp h)))]
      rw [outsAt1_A V c t g0 g1 g2 g3]
      unfold res1_A; (try dsimp only)
      rw [PhiS1_castSucc V c t, PhiS1_zero V c _ _ hz, PhiA1_eq]
      iintro ⟨⟨⟨Ha, Hb, Hc, Hd, HS0, HS1, HS2⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ _ _ _ _ ((hcond1_0 t).mpr g0) ((hcond1_1 t).mpr g1) (fun h => g2 ((hcond1_2 t).mp h)) (fun h => g3 ((hcond1_3 t).mp h)) (iblk1 V c 0 t) (iblk1 V c 1 t) (iblk1 V c 2 t) (iblk1 V c 3 t) (iblk1 V c 4 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%e0, HS0⟩, ⟨%e1, HS1⟩, ⟨%e2, HS2⟩⟩
      isplitl [Ha Hb Hc Hd HS0 HS1 HS2 Hg]
      · isplitl [Ha Hb Hc Hd HS0 HS1 HS2]
        · isplitl [Ha]; · iexact Ha
          isplitl [Hb]; · iexact Hb
          isplitl [Hc]; · iexact Hc
          isplitl [Hd]; · iexact Hd
          isplitl [HS0]
          · unfold owns; iexists _; isplitr
            swap; · iexact HS0
            ipureintro; exact View.read_writes_of_cover _ _ _ _ _ (cover1_A_LS0 c _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (cover1_A_LS1 c _ _ _ _ _ _ _ _ _ _ _ _ _ _ _ _ _ _ _ _ _ _ _ _ _ _ _ _)
          unfold owns; iexists _; isplitr
          swap; · iexact HS2
          ipureintro; exact View.read_writes_of_cover _ _ _ _ _ (cover1_A_LS2 c _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [Dat.leavesExact_idle (dat1 V c) 5 t (idleAt1_5 t (fun h => g3 ((hcond1_3 t).mp h))) (noFlush1_5 t (fun h => g3 ((hcond1_3 t).mp h)))]
      rw [outsAt1_A V c t g0 g1 g2 g3]
      unfold res1_A; (try dsimp only)
      rw [PhiS1_castSucc V c t, PhiS1_pos V c _ _ hz]
      iintro ⟨⟨⟨Ha, Hb, Hc, Hd, HS0, HS1, HS2⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ _ _ _ _ ((hcond1_0 t).mpr g0) ((hcond1_1 t).mpr g1) (fun h => g2 ((hcond1_2 t).mp h)) (fun h => g3 ((hcond1_3 t).mp h)) (iblk1 V c 0 t) (iblk1 V c 1 t) (iblk1 V c 2 t) (iblk1 V c 3 t) (iblk1 V c 4 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      iintro ⟨H0, H1, H2, H3, H4, H5, ⟨%e0, HS0⟩, ⟨%e1, HS1⟩, ⟨%e2, HS2⟩⟩
      isplitl [Ha Hb Hc Hd HS0 HS1 HS2 Hg]
      · isplitl [Ha Hb Hc Hd HS0 HS1 HS2]
        · isplitl [Ha]; · iexact Ha
          isplitl [Hb]; · iexact Hb
          isplitl [Hc]; · iexact Hc
          isplitl [Hd]; · iexact Hd
          isplitl [HS0]
          · unfold owns; iexists _; isplitr
            swap; · iexact HS0
            ipureintro; exact View.read_writes_of_cover _ _ _ _ _ (cover1_A_LS0 c _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (cover1_A_LS1 c _ _ _ _ _ _ _ _ _ _ _ _ _ _ _ _ _ _ _ _ _ _ _ _ _ _ _ _)
          unfold owns; iexists _; isplitr
          swap; · iexact HS2
          ipureintro; exact View.read_writes_of_cover _ _ _ _ _ (cover1_A_LS2 c _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := by omega
    by_cases g1 : t.val % 4 = 0
    · have g2 : ¬t.val % 4 = 3 := by omega
      have g3 : ¬t.val % 32 = 31 := by omega
      rw [Dat.leavesExact_idle (dat1 V c) 5 t (idleAt1_5 t (fun h => g3 ((hcond1_3 t).mp h))) (noFlush1_5 t (fun h => g3 ((hcond1_3 t).mp h)))]
      rw [outsAt1_B V c t g0 g1 g2 g3]
      unfold res1_B; (try dsimp only)
      rw [PhiS1_castSucc V c t, PhiS1_pos V c _ _ hz]
      iintro ⟨⟨⟨Ha, Hb, Hc, Hd, HS0, HS1, HS2⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ _ _ _ _ (fun h => g0 ((hcond1_0 t).mp h)) ((hcond1_1 t).mpr g1) (fun h => g2 ((hcond1_2 t).mp h)) (fun h => g3 ((hcond1_3 t).mp h)) (iblk1 V c 0 t) (iblk1 V c 1 t) (iblk1 V c 2 t) (iblk1 V c 3 t) (iblk1 V c 4 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexists _; iexact HS1
      isplitl [HS2]; · iexists _; iexact HS2
      iintro ⟨H0, H1, H2, H3, H4, H5, HS0, ⟨%e1, HS1⟩, ⟨%e2, HS2⟩⟩
      isplitl [Ha Hb Hc Hd HS0 HS1 HS2 Hg]
      · isplitl [Ha Hb Hc Hd HS0 HS1 HS2]
        · isplitl [Ha]; · iexact Ha
          isplitl [Hb]; · iexact Hb
          isplitl [Hc]; · iexact Hc
          isplitl [Hd]; · iexact Hd
          isplitl [HS0]; · iexact HS0
          isplitl [HS1]
          · unfold owns; iexists _; isplitr
            swap; · iexact HS1
            ipureintro; exact View.read_writes_of_cover _ _ _ _ _ (cover1_B_LS1 c _ _ _ _ _ _ _ _ _ _ _ _ _ _ _ _ _ _ _ _ _ _ _ _ _ _ _ _)
          unfold owns; iexists _; isplitr
          swap; · iexact HS2
          ipureintro; exact View.read_writes_of_cover _ _ _ _ _ (cover1_B_LS2 c _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · by_cases g2 : t.val % 4 = 3
      · by_cases g3 : t.val % 32 = 31
        · rw [show (dat1 V c).leavesExact 5 t = owns (c : Thread nD τ) (ms1_5 t) fullShare ((dat1 V c).after 5 t) from by
      unfold Dat.leavesExact; rw [liveAt1_5 t ((hcond1_3 t).mpr g3)], after1_5]
          rw [outsAt1_E V c t g0 g1 g2 g3]
          unfold res1_E; (try dsimp only)
          rw [PhiS1_castSucc V c t, PhiS1_pos V c _ _ hz]
          iintro ⟨⟨⟨Ha, Hb, Hc, Hd, HS0, HS1, HS2⟩, Hg⟩, Ho, ⟨%d0, H0⟩, ⟨%d1, H1⟩, ⟨%d2, H2⟩, ⟨%d3, H3⟩, ⟨%d4, H4⟩, ⟨%d5, H5⟩⟩
          iapply ((kernelRun1_E c (grid1.coords t) _ _ _ _ _ _ _ _ _ _ _ _ _ _ _ _ _ _ (fun h => g0 ((hcond1_0 t).mp h)) (fun h => g1 ((hcond1_1 t).mp h)) ((hcond1_2 t).mpr g2) ((hcond1_3 t).mpr g3) (iblk1 V c 0 t) (iblk1 V c 1 t) (iblk1 V c 2 t) (iblk1 V c 3 t) (iblk1 V c 4 t) _ _ _).2.2.2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexact HS0
          isplitl [HS1]; · iexact HS1
          isplitl [HS2]; · iexact HS2
          iintro ⟨H0, H1, H2, H3, H4, ⟨%e5, H5⟩, ⟨%e0, HS0⟩, ⟨%e1, HS1⟩, ⟨%e2, HS2⟩⟩
          isplitl [Ha Hb Hc Hd HS0 HS1 HS2 Hg]
          · isplitl [Ha Hb Hc Hd HS0 HS1 HS2]
            · isplitl [Ha]; · iexact Ha
              isplitl [Hb]; · iexact Hb
              isplitl [Hc]; · iexact Hc
              isplitl [Hd]; · iexact Hd
              isplitl [HS0]
              · unfold owns; iexists _; isplitr
                swap; · iexact HS0
                ipureintro; exact View.read_writes_of_cover _ _ _ _ _ (cover1_E_LS0 c _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (cover1_E_LS1 c _ _ _ _ _ _ _ _ _ _ _ _ _ _ _ _ _ _ _ _ _ _ _ _ _ _ _ _ _ _ _)
              unfold owns; iexists _; isplitr
              swap; · iexact HS2
              ipureintro; exact View.read_writes_of_cover _ _ _ _ _ (cover1_E_LS2 c _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          unfold owns; iexists _; isplitr
          swap; · iexact H5
          ipureintro; exact View.read_writes_of_cover _ _ _ _ _ (cover1_E_L5 c _ _ _ _ _ _ _ _ _ _ _ _ _ _ _ _ _ _ _ _ _ _ _ _ _ _ _ _ _ _ _)
        · rw [Dat.leavesExact_idle (dat1 V c) 5 t (idleAt1_5 t (fun h => g3 ((hcond1_3 t).mp h))) (noFlush1_5 t (fun h => g3 ((hcond1_3 t).mp h)))]
          rw [outsAt1_D V c t g0 g1 g2 g3]
          unfold res1_D; (try dsimp only)
          rw [PhiS1_castSucc V c t, PhiS1_pos V c _ _ hz]
          iintro ⟨⟨⟨Ha, Hb, Hc, Hd, HS0, HS1, HS2⟩, Hg⟩, Ho, ⟨%d0, H0⟩, ⟨%d1, H1⟩, ⟨%d2, H2⟩, ⟨%d3, H3⟩, ⟨%d4, H4⟩, ⟨%d5, H5⟩⟩
          iapply ((kernelRun1_D c (grid1.coords t) _ _ _ _ _ _ _ _ _ _ _ _ _ _ _ _ _ _ (fun h => g0 ((hcond1_0 t).mp h)) (fun h => g1 ((hcond1_1 t).mp h)) ((hcond1_2 t).mpr g2) (fun h => g3 ((hcond1_3 t).mp h)) (iblk1 V c 0 t) (iblk1 V c 1 t) (iblk1 V c 2 t) (iblk1 V c 3 t) (iblk1 V c 4 t) _ _ _).2.2.2 _ Set.univ _)
          isplitl [H0]; · iexact H0
          isplitl [H1]; · iexact H1
          isplitl [H2]; · iexact H2
          isplitl [H3]; · iexact H3
          isplitl [H4]; · iexact H4
          isplitl [H5]; · iexact H5
          isplitl [HS0]; · iexact HS0
          isplitl [HS1]; · iexact HS1
          isplitl [HS2]; · iexact HS2
          iintro ⟨H0, H1, H2, H3, H4, H5, ⟨%e0, HS0⟩, ⟨%e1, HS1⟩, ⟨%e2, HS2⟩⟩
          isplitl [Ha Hb Hc Hd HS0 HS1 HS2 Hg]
          · isplitl [Ha Hb Hc Hd HS0 HS1 HS2]
            · isplitl [Ha]; · iexact Ha
              isplitl [Hb]; · iexact Hb
              isplitl [Hc]; · iexact Hc
              isplitl [Hd]; · iexact Hd
              isplitl [HS0]
              · unfold owns; iexists _; isplitr
                swap; · iexact HS0
                ipureintro; exact View.read_writes_of_cover _ _ _ _ _ (cover1_D_LS0 c _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (cover1_D_LS1 c _ _ _ _ _ _ _ _ _ _ _ _ _ _ _ _ _ _ _ _ _ _ _ _ _ _ _ _ _ _ _)
              unfold owns; iexists _; isplitr
              swap; · iexact HS2
              ipureintro; exact View.read_writes_of_cover _ _ _ _ _ (cover1_D_LS2 c _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          iexists _; iexact H5
      · have g3 : ¬t.val % 32 = 31 := by omega
        rw [Dat.leavesExact_idle (dat1 V c) 5 t (idleAt1_5 t (fun h => g3 ((hcond1_3 t).mp h))) (noFlush1_5 t (fun h => g3 ((hcond1_3 t).mp h)))]
        rw [outsAt1_C V c t g0 g1 g2 g3]
        unfold res1_C; (try dsimp only)
        rw [PhiS1_castSucc V c t, PhiS1_pos V c _ _ hz]
        iintro ⟨⟨⟨Ha, Hb, Hc, Hd, HS0, HS1, HS2⟩, Hg⟩, Ho, ⟨%d0, H0⟩, ⟨%d1, H1⟩, ⟨%d2, H2⟩, ⟨%d3, H3⟩, ⟨%d4, H4⟩, ⟨%d5, H5⟩⟩
        iapply ((kernelRun1_C c (grid1.coords t) _ _ _ _ _ _ _ _ _ _ _ _ _ _ _ _ _ _ (fun h => g0 ((hcond1_0 t).mp h)) (fun h => g1 ((hcond1_1 t).mp h)) (fun h => g2 ((hcond1_2 t).mp h)) (fun h => g3 ((hcond1_3 t).mp h)) (iblk1 V c 0 t) (iblk1 V c 1 t) (iblk1 V c 2 t) (iblk1 V c 3 t) (iblk1 V c 4 t) _ _).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, HS0, ⟨%e1, HS1⟩, ⟨%e2, HS2⟩⟩
        isplitl [Ha Hb Hc Hd HS0 HS1 HS2 Hg]
        · isplitl [Ha Hb Hc Hd HS0 HS1 HS2]
          · isplitl [Ha]; · iexact Ha
            isplitl [Hb]; · iexact Hb
            isplitl [Hc]; · iexact Hc
            isplitl [Hd]; · iexact Hd
            isplitl [HS0]; · iexact HS0
            isplitl [HS1]
            · unfold owns; iexists _; isplitr
              swap; · iexact HS1
              ipureintro; exact View.read_writes_of_cover _ _ _ _ _ (cover1_C_LS1 c _ _ _ _ _ _ _ _ _ _ _ _ _ _ _ _ _ _ _ _ _ _ _ _ _ _ _ _ _ _)
            unfold owns; iexists _; isplitr
            swap; · iexact HS2
            ipureintro; exact View.read_writes_of_cover _ _ _ _ _ (cover1_C_LS2 c _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the accumulators' contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Ha, Hb, Hc, Hd, HS0, HS1, HS2⟩, Hg⟩
  isplitl [Ha Hb Hc Hd HS0 HS1 HS2]
  · isplitl [Ha]; · iexact Ha
    isplitl [Hb]; · iexact Hb
    isplitl [Hc]; · iexact Hc
    isplitl [Hd]; · iexact Hd
    isplitl [HS0]; · iexists _; iexact HS0
    isplitl [HS1]; · iexists _; iexact HS1
    iexists _; iexact HS2
  iexact Hg

theorem hout1 (c : Dev nD) : (dat1 V c).Φ (Fin.last cfg1.N) ⊢ Pipeline.ΦA spec1 c :=
  Phi_out1 V c _ (by rw [Fin.val_last]; have : cfg1.N = 128 := N_1; omega)

end

end Cert.Kernel.Hand

end
-- ==== Proof.Bits.Run.lean ====
/-
  The whole run of the kernel's program: four host operations (three changes of float format and a reshape of the bias
  row), then the Gram-matrix region, then the main region. The buffer contents at each boundary are a fold from the
  launch memory — after a region its output array holds what its write-backs leave and every other buffer is as it
  was —; each region is entered from the boundary before it and left at the boundary after it; so every weakly fair
  execution terminates with every argument array as launched and the result array at what the main region's
  write-backs leave.
-/
import proofs.«102676_j85581518340279_1_alg».proof.Proof.Bits.K0Frame
import proofs.«102676_j85581518340279_1_alg».proof.Proof.Bits.K1Frame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host operations (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its output array at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit: its output array at what its write-backs leave, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched: no host operation writes one, and a region only reads one through an input window -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := (W3_arr m ρ c 2).trans (((dat1 (V2 m ρ) c).arrAt_in 2 rfl _).trans (A_eq1 (V2 m ρ) c 2))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 over the thread state "every unscoped buffer at the boundary's contents, the generator register at some
    state, nothing owed": its arrays split out of the unscoped buffers at entry and put back at their final contents
    at exit; the generator register and the scoped buffers into the region invariant and out. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    have h : (Pipeline.ΦA spec0 c : sProp 𝕄) ⊢ iprop((∃ r, prngReg c r) ∗ emp ∗ Pipeline.scopedRest spec0 c) := by
      unfold Pipeline.ΦA
      iintro ⟨Hr, Hp⟩
      isplitl [Hp]; · iexact Hp
      isplitr; · iempintro
      iexact Hr
    rw [Pipeline.ownSems0_none]
    exact (hout0 (V1 m ρ) c).trans h
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some
    state, nothing owed": its arrays split out of the unscoped buffers at entry and put back at their final contents
    at exit; the generator register and the scoped buffers into the region invariant and out. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    have h : (Pipeline.ΦA spec1 c : sProp 𝕄) ⊢ iprop((∃ r, prngReg c r) ∗ emp ∗ Pipeline.scopedRest spec1 c) := by
      unfold Pipeline.ΦA
      iintro ⟨Hr, Hp⟩
      isplitl [Hp]; · iexact Hp
      isplitr; · iempintro
      iexact Hr
    rw [Pipeline.ownSems0_none]
    exact (hout1 (V2 m ρ) c).trans h
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, and
    in every final state the result array holds what the main region's write-backs leave and every argument array is
    as launched. -/
theorem run_main : θ_run defs (onTc (τ := τ) (main (F := F))) ⟨m, fun _ => 0, ρ⟩ (fun r => ∀ c : Dev nD,
      r.2.mem ((c.tc : Thread nD τ).loc main_v5) = (dat1 (V2 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v5 (by decide))).trans (W3_arr m ρ c 5),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end Cert.Kernel.Hand

end
-- ==== Proof.KSpec.lean ====
/-
  What the kernel computes, as ONE closed form at the extended reals, written the way its two grids accumulate it.

  The hidden axis (4096) and V's row axis (4096) are cut in four tiles of 1024; `tix j i` is row i of tile j. With
  x : [4096, 1024], Wk : [8, 4096, 1024], bk : [8, 4096], V : [4096, 1024], a : [1024]:

    gram(k, d)      = Σ_{j<4} Σ_i V(tix j i, k) · V(tix j i, d)                 (the first region's accumulator)
    kz(l, b, j, q)  = (Σ_d x(b, d) · Wk(l, tix j q, d)) + bk(l, tix j q)         (the pre-activation, tile j, column q)
    ks(l, b)        = Σ_{j<4} Σ_q klc(kz(l, b, j, q))                           (the layer's row sums)
    kterm(l, b, d)  = Σ_{j<4} Σ_q tanh(kz(l, b, j, q)) · Wk(l, tix j q, d)      (the layer's product)
    kout(b, d)      = (a(d) + Σ_k x(b, k) · gram(k, d)) + Σ_{l<8} ks(l, b) · kterm(l, b, d)

  klc is log cosh as the kernel spells it: with n = 0 − z and u = z − n, the select on "u ≠ u" between z + n and
  max(z, n) + log1p(exp(0 − |u|)), minus the constant the word 0x3F317218 denotes.
-/
import Idealize.ShloMosaic.PureOps.Ideal
import Idealize.ShloMosaic.Lib.ValueIdx

noncomputable section

open scoped BigOperators

namespace Cert.KernelIdeal.KSpec

open Idealize.ShloMosaic Idealize.ShloMosaic.ValueIdx

abbrev SX : Shape := ⟨2, ![4096, 1024]⟩
abbrev SW : Shape := ⟨3, ![8, 4096, 1024]⟩
abbrev SB : Shape := ⟨2, ![8, 4096]⟩
abbrev SA : Shape := ⟨1, ![1024]⟩

/-- Row `i` of tile `j` of an axis of extent 4096 cut in tiles of 1024. -/
def tix (j : ℕ) (i : Fin 1024) : Fin 4096 := ⟨(1024 * j + i.val) % 4096, Nat.mod_lt _ (by decide)⟩
/-- Layer `l` as an index of the layer axis. -/
def lix (l : ℕ) : Fin 8 := ⟨l % 8, Nat.mod_lt _ (by decide)⟩

/-- One row tile's contribution to the Gram matrix of V's columns. -/
def gramTile (V : SX.Idx → EReal) (j : ℕ) (k d : Fin 1024) : EReal :=
  ∑ i : Fin 1024, V (ix2 (tix j i) k) * V (ix2 (tix j i) d)
/-- The Gram matrix, tile by tile. -/
def gram (V : SX.Idx → EReal) (k d : Fin 1024) : EReal := ∑ j ∈ Finset.range 4, gramTile V j k d
/-- The output accumulator's starting value: the bias row plus x times the Gram matrix. -/
def kbase (x V : SX.Idx → EReal) (a : SA.Idx → EReal) (b : Fin 4096) (d : Fin 1024) : EReal :=
  a (ix1 d) + ∑ k : Fin 1024, x (ix2 b k) * gram V k d
/-- Layer `l`'s pre-activation of row `b` at column `q` of hidden tile `j`. -/
def kz (x : SX.Idx → EReal) (Wk : SW.Idx → EReal) (bk : SB.Idx → EReal) (l : ℕ) (b : Fin 4096) (j : ℕ) (q : Fin 1024) : EReal :=
  (∑ d : Fin 1024, x (ix2 b d) * Wk (ix3 (lix l) (tix j q) d)) + bk (ix2 (lix l) (tix j q))
/-- log cosh, as the kernel spells it. -/
def klc (z : EReal) : EReal :=
  Scalar.select (Ideal.cmp .one (z - (0 - z)) (z - (0 - z))) (z + (0 - z))
      (max z (0 - z) + Ideal.log1p (Ideal.exp (0 - (max (z - (0 - z)) (-(z - (0 - z)))))))
    - Ideal.ofBits .f32 0x3F317218#32
/-- One hidden tile's contribution to the layer's row sums. -/
def ksTile (x : SX.Idx → EReal) (Wk : SW.Idx → EReal) (bk : SB.Idx → EReal) (l : ℕ) (b : Fin 4096) (j : ℕ) : EReal :=
  ∑ q : Fin 1024, klc (kz x Wk bk l b j q)
def ks (x : SX.Idx → EReal) (Wk : SW.Idx → EReal) (bk : SB.Idx → EReal) (l : ℕ) (b : Fin 4096) : EReal :=
  ∑ j ∈ Finset.range 4, ksTile x Wk bk l b j
/-- One hidden tile's contribution to the layer's product tanh(Z)·W. -/
def ktermTile (x : SX.Idx → EReal) (Wk : SW.Idx → EReal) (bk : SB.Idx → EReal) (l : ℕ) (b : Fin 4096) (j : ℕ) (d : Fin 1024) : EReal :=
  ∑ q : Fin 1024, Ideal.tanh (kz x Wk bk l b j q) * Wk (ix3 (lix l) (tix j q) d)
def kterm (x : SX.Idx → EReal) (Wk : SW.Idx → EReal) (bk : SB.Idx → EReal) (l : ℕ) (b : Fin 4096) (d : Fin 1024) : EReal :=
  ∑ j ∈ Finset.range 4, ktermTile x Wk bk l b j d
/-- The kernel's result at (b, d). -/
def kout (x : SX.Idx → EReal) (Wk : SW.Idx → EReal) (bk : SB.Idx → EReal) (V : SX.Idx → EReal) (a : SA.Idx → EReal)
    (b : Fin 4096) (d : Fin 1024) : EReal :=
  kbase x V a b d + ∑ l ∈ Finset.range 8, ks x Wk bk l b * kterm x Wk bk l b d

end Cert.KernelIdeal.KSpec

end
-- ==== Proof.K0Value.lean ====
/-
  The first kernel region's value over the extended reals: the Gram matrix of V's columns.

  The region visits four row tiles of V (1024 rows each). At tile t the body adds Vₜᵀ·Vₜ to an accumulator that is
  zeroed at the first tile, so after tile n the accumulator holds, at (k, d),
      Σ_{j ≤ n} Σ_i V(1024·j + i, k) · V(1024·j + i, d);
  at the last tile the accumulator is stored, narrowed to sixteen bits (the identity over the extended reals), as the
  one output block, which is the whole output array. Hence the output array ends at gram V (k, d).

  In order: what each case of the body leaves, as a payload of what it found; the payloads read at an index; the input
  block at tile t read at an index of V; the accumulator after tile n, by induction on n; the one write-back and the
  final array.
-/
import proofs.«102676_j85581518340279_1_alg».proof.Proof.K0Frame
import proofs.«102676_j85581518340279_1_alg».proof.Proof.KSpec
import Idealize.ShloMosaic.Lib.Pipeline.Value
import Idealize.ShloMosaic.PureOps.Ideal.Laws
import Idealize.ShloMosaic.Lib.ValueIdx
import Idealize.ShloMosaic.Lib.Tactic

set_option maxRecDepth 16384

noncomputable section

namespace Cert.KernelIdeal.Hand

open Idealize.ShloMosaic Idealize.ShloMosaic.TcCoe Idealize.ShloMosaic.Tactic
open Idealize.SL.Sem
open Idealize.ShloMosaic.Pipeline (Dat Cfg Window)
open Idealize.ShloMosaic.ValueIdx
open Cert.KernelIdeal Cert.KernelIdeal.Gen
open Cert.KernelIdeal.KSpec (tix gramTile gram)
open scoped BigOperators

/-! ## What each case of the body leaves, for any float values -/

section
variable {F : FTy → Type} [FloatOps F]

theorem hz0 : (![0, 0] : Fin 2 → Nat) = fun _ => 0 := funext fun a => by fin_cases a <;> rfl

/-- At the first tile the accumulator is left at (zero block) + x₀ᵀ·x₀: the zero block is stored, read back, and the
    tile's product added to it. -/
theorem sout0_A_eq (c : Dev nD) (i : grid0.Coords) (arg1 : Memref sig .tc .vmem S1024x1024 .bf16) (harg1 : arg1.IsWhole) (arg2 : Memref sig .tc .vmem S1024x1024 .bf16) (harg2 : arg2.IsWhole) (arg3 : Memref sig .tc .vmem S1024x1024 .f32) (harg3 : arg3.IsWhole) (hc0 : cond0_0 i) (hc1 : ¬cond0_1 i) (x0 : Vec F S1024x1024 .bf16) :
    sout0_A c i arg1 harg1 arg2 harg2 arg3 harg3 hc0 hc1 x0 = k0_pay2 x0 k0_pay1 := by
  unfold sout0_A
  rw [View.read_writes_eq_canon _ _ _ (scover0_A c i arg1 harg1 arg2 harg2 arg3 harg3 hc0 hc1 x0)]
  unfold kernelRun0_A
  dsimp only
  sl_unfold_words
  rw [View.canon_cons_unit_zero (S := S1024x1024) hz0, View.readCov_unit_zero (S := S1024x1024) _ hz0]
  simp only [View.readAt_eq_ld, harg1.read_unread, View.ld_unit_zero (S := S1024x1024) hz0]

/-- At a middle tile the accumulator found at xs is left at xs + x₀ᵀ·x₀. -/
theorem sout0_B_eq (c : Dev nD) (i : grid0.Coords) (arg1 : Memref sig .tc .vmem S1024x1024 .bf16) (harg1 : arg1.IsWhole) (arg2 : Memref sig .tc .vmem S1024x1024 .bf16) (harg2 : arg2.IsWhole) (arg3 : Memref sig .tc .vmem S1024x1024 .f32) (harg3 : arg3.IsWhole) (hc0 : ¬cond0_0 i) (hc1 : ¬cond0_1 i) (x0 : Vec F S1024x1024 .bf16) (xs0 : Vec F S1024x1024 .f32) :
    sout0_B c i arg1 harg1 arg2 harg2 arg3 harg3 hc0 hc1 x0 xs0 = k0_pay2 x0 xs0 := by
  unfold sout0_B
  rw [View.read_writes_eq_canon _ _ _ (scover0_B c i arg1 harg1 arg2 harg2 arg3 harg3 hc0 hc1 x0 xs0)]
  unfold kernelRun0_B
  dsimp only
  rw [View.canon_unit_zero hz0]
  simp only [View.readAt_eq_ld, harg1.read_unread, harg3.read_unread, View.ld_unit_zero (S := S1024x1024) hz0]

/-- At the last tile the accumulator found at xs is left at xs + x₀ᵀ·x₀ as well … -/
theorem sout0_C_eq (c : Dev nD) (i : grid0.Coords) (arg1 : Memref sig .tc .vmem S1024x1024 .bf16) (harg1 : arg1.IsWhole) (arg2 : Memref sig .tc .vmem S1024x1024 .bf16) (harg2 : arg2.IsWhole) (arg3 : Memref sig .tc .vmem S1024x1024 .f32) (harg3 : arg3.IsWhole) (hc0 : ¬cond0_0 i) (hc1 : cond0_1 i) (x0 : Vec F S1024x1024 .bf16) (xs0 : Vec F S1024x1024 .f32) :
    sout0_C c i arg1 harg1 arg2 harg2 arg3 harg3 hc0 hc1 x0 xs0 = k0_pay2 x0 xs0 := by
  unfold sout0_C
  rw [View.read_writes_eq_canon _ _ _ (scover0_C c i arg1 harg1 arg2 harg2 arg3 harg3 hc0 hc1 x0 xs0)]
  unfold kernelRun0_C
  dsimp only
  sl_unfold_words
  rw [View.canon_unit_zero hz0]
  simp only [View.readAt_eq_ld, harg1.read_unread, harg3.read_unread, View.ld_unit_zero (S := S1024x1024) hz0]

/-- … and the output block is left at that accumulator, narrowed. -/
theorem out0_C_eq (c : Dev nD) (i : grid0.Coords) (arg1 : Memref sig .tc .vmem S1024x1024 .bf16) (harg1 : arg1.IsWhole) (arg2 : Memref sig .tc .vmem S1024x1024 .bf16) (harg2 : arg2.IsWhole) (arg3 : Memref sig .tc .vmem S1024x1024 .f32) (harg3 : arg3.IsWhole) (hc0 : ¬cond0_0 i) (hc1 : cond0_1 i) (x0 : Vec F S1024x1024 .bf16) (xs0 : Vec F S1024x1024 .f32) :
    out0_C c i arg1 harg1 arg2 harg2 arg3 harg3 hc0 hc1 x0 xs0 = k0_pay3 (k0_pay2 x0 xs0) := by
  unfold out0_C
  rw [View.read_writes_eq_canon _ _ _ (cover0_C c i arg1 harg1 arg2 harg2 arg3 harg3 hc0 hc1 x0 xs0)]
  unfold kernelRun0_C
  dsimp only
  sl_unfold_words
  rw [View.canon_unit_zero hz0]
  simp only [View.readAt_eq_ld, harg1.read_unread, harg3.read_unread, View.ld_unit_zero (S := S1024x1024) hz0]
  rw [View.readCov_unit_zero (S := S1024x1024) _ hz0]

/-! ## The input block at a tile, read at an index of V -/

variable (V : (c : Dev nD) → (b : Ref sig .tc) → Buf (Elt F) ((c : Thread nD τ).loc b))

/-- Row i of the block at tile t is row 1024·t + i of V; the columns are V's. -/
theorem iblk0_apply (c : Dev nD) (t : Fin cfg0.N) (i k : Fin 1024) :
    (iblk0 V c 0 t : Vec F S1024x1024 .bf16) (ix2 i k) = V c main_v2 (ix2 (tix t.val i) k) := by
  have hN : t.val < 4 := lt_of_lt_of_eq t.isLt (show cfg0.N = 4 from N_0)
  have hi : win0_0.index t 0 = t.val ∧ win0_0.index t 1 = 0 := by
    rcases fin_N0 t with rfl | rfl | rfl | rfl <;> decide
  unfold iblk0
  rw [View.read_apply]
  show V c main_v2 _ = V c main_v2 _
  congr 1
  funext a
  apply Fin.ext
  match a with
  | ⟨0, _⟩ =>
    show win0_0.index t 0 * 1024 + 1 * i.val = (1024 * t.val + i.val) % 4096
    rw [hi.1]; have := i.isLt; omega
  | ⟨1, _⟩ =>
    show win0_0.index t 1 * 1024 + 1 * k.val = k.val
    rw [hi.2]; omega

end

/-! ## The payloads at an index, over the extended reals -/

/-- The tile product's dimension numbers: both operands contracted on their row axis. -/
abbrev DD := dot_S1024x1024_S1024x1024_S1024x1024_0_0_1_1_n_n

theorem lhsDD_0 (j : S1024x1024.Idx) (q : DD.contr.Idx) : (DD.lhsIdx j q 0).val = (q ⟨0, by decide⟩).val :=
  DD.lhsIdx_val_of_single rfl j q
theorem lhsDD_1 (j : S1024x1024.Idx) (q : DD.contr.Idx) : (DD.lhsIdx j q 1).val = (j 0).val := by
  unfold DotDims.lhsIdx
  rw [dif_neg (show ¬(1 : Fin S1024x1024.rank) ∈ DD.lhsBatch by decide), dif_pos (show (1 : Fin S1024x1024.rank) ∈ DD.lhsNonContracting by decide)]
  rfl
theorem rhsDD_0 (j : S1024x1024.Idx) (q : DD.contr.Idx) : (DD.rhsIdx j q 0).val = (q ⟨0, by decide⟩).val :=
  DD.rhsIdx_val_of_single rfl j q
theorem rhsDD_1 (j : S1024x1024.Idx) (q : DD.contr.Idx) : (DD.rhsIdx j q 1).val = (j 1).val := by
  unfold DotDims.rhsIdx
  rw [dif_neg (show ¬(1 : Fin S1024x1024.rank) ∈ DD.rhsBatch by decide), dif_pos (show (1 : Fin S1024x1024.rank) ∈ DD.rhsNonContracting by decide)]
  rfl

/-- At output index (k, d) and contraction index i the left operand is read at (i, k) … -/
theorem lhsIdx_DD (k d i : Fin 1024) :
    DD.lhsIdx (ix2 k d) ((contrEquiv1 DD 1024 rfl rfl).symm i) = ix2 i k := by
  have hk := contrEquiv1_symm_val DD 1024 rfl rfl i
  funext a; apply Fin.ext
  match a with
  | ⟨0, _⟩ => exact (lhsDD_0 _ _).trans hk
  | ⟨1, _⟩ => exact lhsDD_1 _ _

/-- … and the right operand at (i, d). -/
theorem rhsIdx_DD (k d i : Fin 1024) :
    DD.rhsIdx (ix2 k d) ((contrEquiv1 DD 1024 rfl rfl).symm i) = ix2 i d := by
  have hk := contrEquiv1_symm_val DD 1024 rfl rfl i
  funext a; apply Fin.ext
  match a with
  | ⟨0, _⟩ => exact (rhsDD_0 _ _).trans hk
  | ⟨1, _⟩ => exact rhsDD_1 _ _

/-- The accumulating payload at (k, d): the accumulator there plus the tile's column product Σᵢ v(i,k)·v(i,d). -/
theorem k0_pay2_apply (v3 : Vec Ideal S1024x1024 .bf16) (v5 : Vec Ideal S1024x1024 .f32) (k d : Fin 1024) :
    k0_pay2 (F := Ideal) v3 v5 (ix2 k d) = v5 (ix2 k d) + ∑ i : Fin 1024, v3 (ix2 i k) * v3 (ix2 i d) := by
  unfold k0_pay2
  simp only [shapeCast_self]
  rw [addf_apply]
  simp only [matmul]
  rw [Ideal.matmul_constant_zero_apply, ← Equiv.sum_comp (contrEquiv1 DD 1024 rfl rfl).symm]
  refine congrArg (v5 (ix2 k d) + ·) (Finset.sum_congr rfl fun i _ => ?_)
  rw [lhsIdx_DD, rhsIdx_DD]

/-- The zero block is zero everywhere. -/
theorem k0_pay1_apply (j : S1024x1024.Idx) : k0_pay1 (F := Ideal) j = 0 := by
  unfold k0_pay1
  simp only [shapeCast_self]
  exact Ideal.ofBits_zero_f32

/-- Over the extended reals the narrowing to sixteen bits changes nothing. -/
theorem k0_pay3_eq (v : Vec Ideal S1024x1024 .f32) : k0_pay3 (F := Ideal) v = v := rfl

/-! ## The accumulator after each tile -/

section
variable (V : (c : Dev nD) → (b : Ref sig .tc) → Buf (Elt Ideal) ((c : Thread nD τ).loc b))

/-- The accumulating payload on tile t's block: the accumulator plus tile t's contribution to the Gram matrix. -/
theorem k0_pay2_iblk (c : Dev nD) (t : Fin cfg0.N) (xs0 : Vec Ideal S1024x1024 .f32) (k d : Fin 1024) :
    k0_pay2 (F := Ideal) (iblk0 V c 0 t) xs0 (ix2 k d) = xs0 (ix2 k d) + gramTile (V c main_v2) t.val k d := by
  rw [k0_pay2_apply]
  unfold gramTile
  refine congrArg (xs0 (ix2 k d) + ·) (Finset.sum_congr rfl fun i _ => ?_)
  rw [iblk0_apply, iblk0_apply]

/-- One more tile adds its contribution. -/
theorem acc0_succ (c : Dev nD) (n : ℕ) (hn : n + 1 < cfg0.N) (k d : Fin 1024) :
    (outsAt0 (F := Ideal) V c (n + 1) hn).2 (ix2 k d)
      = (outsAt0 (F := Ideal) V c n (Nat.lt_of_succ_lt hn)).2 (ix2 k d) + gramTile (V c main_v2) (n + 1) k d := by
  by_cases h3 : n + 1 = 3
  · rw [outsAt0_C V c ⟨n + 1, hn⟩ (Nat.succ_ne_zero n) h3]
    dsimp only
    rw [sout0_C_eq]
    exact k0_pay2_iblk V c ⟨n + 1, hn⟩ _ k d
  · rw [outsAt0_B V c ⟨n + 1, hn⟩ (Nat.succ_ne_zero n) h3]
    dsimp only
    rw [sout0_B_eq]
    exact k0_pay2_iblk V c ⟨n + 1, hn⟩ _ k d

/-- After tile n the accumulator holds the contributions of the tiles 0 … n. -/
theorem acc0_eq (c : Dev nD) : ∀ (n : ℕ) (hn : n < cfg0.N) (k d : Fin 1024),
    (outsAt0 (F := Ideal) V c n hn).2 (ix2 k d) = ∑ j ∈ Finset.range (n + 1), gramTile (V c main_v2) j k d
  | 0, hn, k, d => by
    rw [outsAt0_A V c ⟨0, hn⟩ rfl (show ¬(0 : ℕ) = 3 by decide)]
    dsimp only
    rw [sout0_A_eq, k0_pay2_iblk, k0_pay1_apply, zero_add, Finset.sum_range_one]
  | n + 1, hn, k, d => by
    rw [acc0_succ, acc0_eq c n]
    exact (Finset.sum_range_succ _ _).symm

/-! ## The write-back and the final array -/

/-- The Gram matrix as contents of the output array. -/
abbrev result0 (c : Dev nD) : Buf (Elt Ideal) ((c : Thread nD τ).loc main_v4) :=
  fun i => gram (V c main_v2) (i 0) (i 1)

/-- What the last tile leaves in the output block is the Gram matrix. -/
theorem out0_eq (c : Dev nD) : (outsAt0 (F := Ideal) V c t0_3.val t0_3.isLt).1 = result0 V c := by
  have e : (outsAt0 (F := Ideal) V c t0_3.val t0_3.isLt).1 = (outsAt0 (F := Ideal) V c t0_3.val t0_3.isLt).2 := by
    rw [outsAt0_C V c t0_3 (by decide) rfl]
    dsimp only
    rw [out0_C_eq, sout0_C_eq, k0_pay3_eq]
  rw [e]
  funext j
  obtain ⟨k, d, rfl⟩ : ∃ k d : Fin 1024, j = ix2 k d := ⟨j 0, j 1, eq_ix2 j⟩
  exact acc0_eq V c 3 t0_3.isLt k d

/-- The one write-back, after the last tile, writes the Gram matrix: the output block is the whole array. -/
theorem flushed0_eq (c : Dev nD) (t : Fin cfg0.N) (hf : (cfg0.win 1).flush t = true) :
    (dat0 (F := Ideal) V c).flushed 1 t = ((cfg0.win 1).blk t).view.read (Elt Ideal) (result0 V c) := by
  have hN : cfg0.N = 4 := N_0
  have h3 : t.val = 3 := by have := (flush0_1 t).mp hf; have := t.isLt; omega
  obtain rfl : t = t0_3 := Fin.ext h3
  show (cfg0.win 1).cut (grid0.coords t0_3) ((dat0 (F := Ideal) V c).after 1 t0_3) = _
  rw [after0_1, out0_eq]
  have hz' : (fun a => win0_1.index t0_3 a * main_v4.ty.shape.size a) = fun _ => 0 := funext fun a => by fin_cases a <;> decide
  exact (Memref.read_access_unit_zero (Elt Ideal) main_v4 hz' (fun a => by rw [congrFun hz' a]; simp) (result0 V c)).symm

/-- The output array ends at the Gram matrix of the entry contents of V. -/
theorem final0 (c : Dev nD) :
    (dat0 (F := Ideal) V c).arrAt 1 cfg0.N = fun i => Cert.KernelIdeal.KSpec.gram (V c main_v2) (i 0) (i 1) :=
  (dat0 (F := Ideal) V c).arrAt_eq_of_cover 1 (result0 V c) (flushed0_eq V c) fun i =>
    ⟨t0_3, (flush0_1 t0_3).mpr rfl, by
      show i ∈ ((View.whole main_v4).slice (win0_1.rect t0_3)).set
      rw [View.set_slice_whole, Rect.mem_set_unit]
      intro a
      have h0 : (i 0 : Nat) < 1024 := (i 0).isLt
      have h1 : (i 1 : Nat) < 1024 := (i 1).isLt
      match a with
      | ⟨0, _⟩ =>
        show win0_1.index t0_3 0 * win0_1.size 0 ≤ (i 0 : Nat) ∧ (i 0 : Nat) < win0_1.index t0_3 0 * win0_1.size 0 + win0_1.xsize (grid0.coords t0_3) 0
        rw [show win0_1.index t0_3 0 * win0_1.size 0 = 0 from by decide +kernel, show win0_1.xsize (grid0.coords t0_3) 0 = 1024 from by decide +kernel]; omega
      | ⟨1, _⟩ =>
        show win0_1.index t0_3 1 * win0_1.size 1 ≤ (i 1 : Nat) ∧ (i 1 : Nat) < win0_1.index t0_3 1 * win0_1.size 1 + win0_1.xsize (grid0.coords t0_3) 1
        rw [show win0_1.index t0_3 1 * win0_1.size 1 = 0 from by decide +kernel, show win0_1.xsize (grid0.coords t0_3) 1 = 1024 from by decide +kernel]; omega⟩

end

end Cert.KernelIdeal.Hand

end
-- ==== Proof.K1Pieces.lean ====
/-
  What each case of the main kernel's body leaves, read back as values. With Z = x·Wᵀ + bias row (the tile's
  pre-activation), a layer's row sums advance by s ↦ s + Σ_q logcosh(Z), its product by T ↦ T + tanh(Z)·W; when a
  layer begins both start from zero; when a row block begins the output accumulator is a + x·Vsq; when a layer ends
  it advances by O ↦ O + s ⊙ T; when the row block ends the output block is O.
-/
import proofs.«102676_j85581518340279_1_alg».proof.Proof.K1Frame
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- The bias row the body loads: row l of the bias array, the columns of hidden tile h. -/
def bkRow (i : grid1.Coords) (x2 : Vec F S8x4096 .f32) : Vec F S1x1024 .f32 :=
  View.ld x2 (Rect.unit (s := S8x4096) (k1_off1 i) S1x1024.size (k1_off1_inb i))
/-- One hidden tile's step of the layer's row sums: s ↦ s + Σ_q logcosh(Z). -/
def s1Step (i : grid1.Coords) (x2 : Vec F S8x4096 .f32) (x3 : Vec F S1024x1024 .bf16) (x4 : Vec F S1x1024x1024 .bf16) (s1 : Vec F S1024x1 .f32) : Vec F S1024x1 .f32 :=
  k1_pay1 (k1_pay9 x3 x4 (bkRow i x2)) s1
/-- One hidden tile's step of the layer's product: T ↦ T + tanh(Z)·W. -/
def s2Step (i : grid1.Coords) (x2 : Vec F S8x4096 .f32) (x3 : Vec F S1024x1024 .bf16) (x4 : Vec F S1x1024x1024 .bf16) (s2 : Vec F S1024x1024 .f32) : Vec F S1024x1024 .f32 :=
  k1_pay2 (k1_pay7 x4) (k1_pay8 x3 x4 (bkRow i x2)) s2

/-- Case A, read back: what the body leaves, as payload terms of the point's blocks. -/
theorem res1_A_eq (c : Dev nD) (i : grid1.Coords) (arg3 : Memref sig .tc .vmem S1x1024 .f32) (harg3 : arg3.IsWhole) (arg4 : Memref sig .tc .vmem S1024x1024 .bf16) (harg4 : arg4.IsWhole) (arg5 : Memref sig .tc .vmem S8x4096 .f32) (harg5 : arg5.IsWhole) (arg6 : Memref sig .tc .vmem S1024x1024 .bf16) (harg6 : arg6.IsWhole) (arg7 : Memref sig .tc .vmem S1x1024x1024 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : cond1_1 i) (hc2 : ¬cond1_2 i) (hc3 : ¬cond1_3 i) (x0 : Vec F S1x1024 .f32) (x1 : Vec F S1024x1024 .bf16) (x2 : Vec F S8x4096 .f32) (x3 : Vec F S1024x1024 .bf16) (x4 : Vec F S1x1024x1024 .bf16) :
    res1_A c i arg3 harg3 arg4 harg4 arg5 harg5 arg6 harg6 arg7 harg7 arg8 harg8 arg9 harg9 arg10 harg10 arg11 harg11 hc0 hc1 hc2 hc3 x0 x1 x2 x3 x4
      = (idleOut1,
         k1_pay4 x0 x3 x1,
         (s1Step i x2 x3 x4 k1_pay5),
         (s2Step i x2 x3 x4 k1_pay6)) := by
  unfold res1_A
  refine Prod.ext ?_ (Prod.ext ?_ (Prod.ext ?_ ?_))
  · rfl
  · rw [View.read_writes_eq_canon _ _ _ (cover1_A_LS0 c i arg3 harg3 arg4 harg4 arg5 harg5 arg6 harg6 arg7 harg7 arg8 harg8 arg9 harg9 arg10 harg10 arg11 harg11 hc0 hc1 hc2 hc3 x0 x1 x2 x3 x4)]
    unfold kernelRun1_A
    dsimp only
    sl_unfold_run_names
    rw [View.canon_cons_unit_zero (S := S1024x1024) hz2]
    (try unfold s1Step); (try unfold s2Step); (try unfold bkRow)
    simp only [View.readAt_eq_ld, harg3.read_unread, harg4.read_unread, harg5.read_unread, harg6.read_unread, harg7.read_unread, harg8.read_unread, harg9.read_unread, harg10.read_unread, harg11.read_unread,
      View.ld_unit_zero (S := S1024x1024) hz2, View.ld_unit_zero (S := S1024x1) hz2, View.ld_unit_zero (S := S1x1024) hz2, View.ld_unit_zero (S := S1x1024x1024) hz3,
      View.readCov_unit_zero (S := S1024x1) _ hz2, View.readCov_unit_zero (S := S1024x1024) _ hz2]
  · rw [View.read_writes_eq_canon _ _ _ (cover1_A_LS1 c i arg3 harg3 arg4 harg4 arg5 harg5 arg6 harg6 arg7 harg7 arg8 harg8 arg9 harg9 arg10 harg10 arg11 harg11 hc0 hc1 hc2 hc3 x0 x1 x2 x3 x4)]
    unfold kernelRun1_A
    dsimp only
    sl_unfold_run_names
    rw [View.canon_cons_unit_zero (S := S1024x1) hz2]
    (try unfold s1Step); (try unfold s2Step); (try unfold bkRow)
    simp only [View.readAt_eq_ld, harg3.read_unread, harg4.read_unread, harg5.read_unread, harg6.read_unread, harg7.read_unread, harg8.read_unread, harg9.read_unread, harg10.read_unread, harg11.read_unread,
      View.ld_unit_zero (S := S1024x1024) hz2, View.ld_unit_zero (S := S1024x1) hz2, View.ld_unit_zero (S := S1x1024) hz2, View.ld_unit_zero (S := S1x1024x1024) hz3,
      View.readCov_unit_zero (S := S1024x1) _ hz2, View.readCov_unit_zero (S := S1024x1024) _ hz2]
  · rw [View.read_writes_eq_canon _ _ _ (cover1_A_LS2 c i arg3 harg3 arg4 harg4 arg5 harg5 arg6 harg6 arg7 harg7 arg8 harg8 arg9 harg9 arg10 harg10 arg11 harg11 hc0 hc1 hc2 hc3 x0 x1 x2 x3 x4)]
    unfold kernelRun1_A
    dsimp only
    sl_unfold_run_names
    rw [View.canon_cons_unit_zero (S := S1024x1024) hz2]
    (try unfold s1Step); (try unfold s2Step); (try unfold bkRow)
    simp only [View.readAt_eq_ld, harg3.read_unread, harg4.read_unread, harg5.read_unread, harg6.read_unread, harg7.read_unread, harg8.read_unread, harg9.read_unread, harg10.read_unread, harg11.read_unread,
      View.ld_unit_zero (S := S1024x1024) hz2, View.ld_unit_zero (S := S1024x1) hz2, View.ld_unit_zero (S := S1x1024) hz2, View.ld_unit_zero (S := S1x1024x1024) hz3,
      View.readCov_unit_zero (S := S1024x1) _ hz2, View.readCov_unit_zero (S := S1024x1024) _ hz2]

/-- Case B, read back: what the body leaves, as payload terms of the point's blocks and of what the point before left. -/
theorem res1_B_eq (c : Dev nD) (i : grid1.Coords) (arg3 : Memref sig .tc .vmem S1x1024 .f32) (harg3 : arg3.IsWhole) (arg4 : Memref sig .tc .vmem S1024x1024 .bf16) (harg4 : arg4.IsWhole) (arg5 : Memref sig .tc .vmem S8x4096 .f32) (harg5 : arg5.IsWhole) (arg6 : Memref sig .tc .vmem S1024x1024 .bf16) (harg6 : arg6.IsWhole) (arg7 : Memref sig .tc .vmem S1x1024x1024 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i) (hc2 : ¬cond1_2 i) (hc3 : ¬cond1_3 i) (x0 : Vec F S1x1024 .f32) (x1 : Vec F S1024x1024 .bf16) (x2 : Vec F S8x4096 .f32) (x3 : Vec F S1024x1024 .bf16) (x4 : Vec F S1x1024x1024 .bf16) (p : Vec F S1024x1024 .f32 × Vec F S1024x1024 .f32 × Vec F S1024x1 .f32 × Vec F S1024x1024 .f32) :
    res1_B c i arg3 harg3 arg4 harg4 arg5 harg5 arg6 harg6 arg7 harg7 arg8 harg8 arg9 harg9 arg10 harg10 arg11 harg11 hc0 hc1 hc2 hc3 x0 x1 x2 x3 x4 p
      = (idleOut1,
         p.2.1,
         (s1Step i x2 x3 x4 k1_pay5),
         (s2Step i x2 x3 x4 k1_pay6)) := by
  unfold res1_B
  refine Prod.ext ?_ (Prod.ext ?_ (Prod.ext ?_ ?_))
  · rfl
  · rfl
  · rw [View.read_writes_eq_canon _ _ _ (cover1_B_LS1 c i arg3 harg3 arg4 harg4 arg5 harg5 arg6 harg6 arg7 harg7 arg8 harg8 arg9 harg9 arg10 harg10 arg11 harg11 hc0 hc1 hc2 hc3 x0 x1 x2 x3 x4)]
    unfold kernelRun1_B
    dsimp only
    sl_unfold_run_names
    rw [View.canon_cons_unit_zero (S := S1024x1) hz2]
    (try unfold s1Step); (try unfold s2Step); (try unfold bkRow)
    simp only [View.readAt_eq_ld, harg3.read_unread, harg4.read_unread, harg5.read_unread, harg6.read_unread, harg7.read_unread, harg8.read_unread, harg9.read_unread, harg10.read_unread, harg11.read_unread,
      View.ld_unit_zero (S := S1024x1024) hz2, View.ld_unit_zero (S := S1024x1) hz2, View.ld_unit_zero (S := S1x1024) hz2, View.ld_unit_zero (S := S1x1024x1024) hz3,
      View.readCov_unit_zero (S := S1024x1) _ hz2, View.readCov_unit_zero (S := S1024x1024) _ hz2]
  · rw [View.read_writes_eq_canon _ _ _ (cover1_B_LS2 c i arg3 harg3 arg4 harg4 arg5 harg5 arg6 harg6 arg7 harg7 arg8 harg8 arg9 harg9 arg10 harg10 arg11 harg11 hc0 hc1 hc2 hc3 x0 x1 x2 x3 x4)]
    unfold kernelRun1_B
    dsimp only
    sl_unfold_run_names
    rw [View.canon_cons_unit_zero (S := S1024x1024) hz2]
    (try unfold s1Step); (try unfold s2Step); (try unfold bkRow)
    simp only [View.readAt_eq_ld, harg3.read_unread, harg4.read_unread, harg5.read_unread, harg6.read_unread, harg7.read_unread, harg8.read_unread, harg9.read_unread, harg10.read_unread, harg11.read_unread,
      View.ld_unit_zero (S := S1024x1024) hz2, View.ld_unit_zero (S := S1024x1) hz2, View.ld_unit_zero (S := S1x1024) hz2, View.ld_unit_zero (S := S1x1024x1024) hz3,
      View.readCov_unit_zero (S := S1024x1) _ hz2, View.readCov_unit_zero (S := S1024x1024) _ hz2]

/-- Case C, read back: what the body leaves, as payload terms of the point's blocks and of what the point before left. -/
theorem res1_C_eq (c : Dev nD) (i : grid1.Coords) (arg3 : Memref sig .tc .vmem S1x1024 .f32) (harg3 : arg3.IsWhole) (arg4 : Memref sig .tc .vmem S1024x1024 .bf16) (harg4 : arg4.IsWhole) (arg5 : Memref sig .tc .vmem S8x4096 .f32) (harg5 : arg5.IsWhole) (arg6 : Memref sig .tc .vmem S1024x1024 .bf16) (harg6 : arg6.IsWhole) (arg7 : Memref sig .tc .vmem S1x1024x1024 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : ¬cond1_1 i) (hc2 : ¬cond1_2 i) (hc3 : ¬cond1_3 i) (x0 : Vec F S1x1024 .f32) (x1 : Vec F S1024x1024 .bf16) (x2 : Vec F S8x4096 .f32) (x3 : Vec F S1024x1024 .bf16) (x4 : Vec F S1x1024x1024 .bf16) (p : Vec F S1024x1024 .f32 × Vec F S1024x1024 .f32 × Vec F S1024x1 .f32 × Vec F S1024x1024 .f32) :
    res1_C c i arg3 harg3 arg4 harg4 arg5 harg5 arg6 harg6 arg7 harg7 arg8 harg8 arg9 harg9 arg10 harg10 arg11 harg11 hc0 hc1 hc2 hc3 x0 x1 x2 x3 x4 p
      = (idleOut1,
         p.2.1,
         (s1Step i x2 x3 x4 p.2.2.1),
         (s2Step i x2 x3 x4 p.2.2.2)) := by
  unfold res1_C
  refine Prod.ext ?_ (Prod.ext ?_ (Prod.ext ?_ ?_))
  · rfl
  · rfl
  · rw [View.read_writes_eq_canon _ _ _ (cover1_C_LS1 c i arg3 harg3 arg4 harg4 arg5 harg5 arg6 harg6 arg7 harg7 arg8 harg8 arg9 harg9 arg10 harg10 arg11 harg11 hc0 hc1 hc2 hc3 x0 x1 x2 x3 x4 (p.2.2.1) (p.2.2.2))]
    unfold kernelRun1_C
    dsimp only
    sl_unfold_run_names
    rw [View.canon_cons_unit_zero (S := S1024x1) hz2]
    (try unfold s1Step); (try unfold s2Step); (try unfold bkRow)
    simp only [View.readAt_eq_ld, harg3.read_unread, harg4.read_unread, harg5.read_unread, harg6.read_unread, harg7.read_unread, harg8.read_unread, harg9.read_unread, harg10.read_unread, harg11.read_unread,
      View.ld_unit_zero (S := S1024x1024) hz2, View.ld_unit_zero (S := S1024x1) hz2, View.ld_unit_zero (S := S1x1024) hz2, View.ld_unit_zero (S := S1x1024x1024) hz3,
      View.readCov_unit_zero (S := S1024x1) _ hz2, View.readCov_unit_zero (S := S1024x1024) _ hz2]
  · rw [View.read_writes_eq_canon _ _ _ (cover1_C_LS2 c i arg3 harg3 arg4 harg4 arg5 harg5 arg6 harg6 arg7 harg7 arg8 harg8 arg9 harg9 arg10 harg10 arg11 harg11 hc0 hc1 hc2 hc3 x0 x1 x2 x3 x4 (p.2.2.1) (p.2.2.2))]
    unfold kernelRun1_C
    dsimp only
    sl_unfold_run_names
    rw [View.canon_cons_unit_zero (S := S1024x1024) hz2]
    (try unfold s1Step); (try unfold s2Step); (try unfold bkRow)
    simp only [View.readAt_eq_ld, harg3.read_unread, harg4.read_unread, harg5.read_unread, harg6.read_unread, harg7.read_unread, harg8.read_unread, harg9.read_unread, harg10.read_unread, harg11.read_unread,
      View.ld_unit_zero (S := S1024x1024) hz2, View.ld_unit_zero (S := S1024x1) hz2, View.ld_unit_zero (S := S1x1024) hz2, View.ld_unit_zero (S := S1x1024x1024) hz3,
      View.readCov_unit_zero (S := S1024x1) _ hz2, View.readCov_unit_zero (S := S1024x1024) _ hz2]

/-- Case D, read back: what the body leaves, as payload terms of the point's blocks and of what the point before left. -/
theorem res1_D_eq (c : Dev nD) (i : grid1.Coords) (arg3 : Memref sig .tc .vmem S1x1024 .f32) (harg3 : arg3.IsWhole) (arg4 : Memref sig .tc .vmem S1024x1024 .bf16) (harg4 : arg4.IsWhole) (arg5 : Memref sig .tc .vmem S8x4096 .f32) (harg5 : arg5.IsWhole) (arg6 : Memref sig .tc .vmem S1024x1024 .bf16) (harg6 : arg6.IsWhole) (arg7 : Memref sig .tc .vmem S1x1024x1024 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : ¬cond1_1 i) (hc2 : cond1_2 i) (hc3 : ¬cond1_3 i) (x0 : Vec F S1x1024 .f32) (x1 : Vec F S1024x1024 .bf16) (x2 : Vec F S8x4096 .f32) (x3 : Vec F S1024x1024 .bf16) (x4 : Vec F S1x1024x1024 .bf16) (p : Vec F S1024x1024 .f32 × Vec F S1024x1024 .f32 × Vec F S1024x1 .f32 × Vec F S1024x1024 .f32) :
    res1_D c i arg3 harg3 arg4 harg4 arg5 harg5 arg6 harg6 arg7 harg7 arg8 harg8 arg9 harg9 arg10 harg10 arg11 harg11 hc0 hc1 hc2 hc3 x0 x1 x2 x3 x4 p
      = (idleOut1,
         k1_pay3 p.2.1 (s1Step i x2 x3 x4 p.2.2.1) (s2Step i x2 x3 x4 p.2.2.2),
         (s1Step i x2 x3 x4 p.2.2.1),
         (s2Step i x2 x3 x4 p.2.2.2)) := by
  unfold res1_D
  refine Prod.ext ?_ (Prod.ext ?_ (Prod.ext ?_ ?_))
  · rfl
  · rw [View.read_writes_eq_canon _ _ _ (cover1_D_LS0 c i arg3 harg3 arg4 harg4 arg5 harg5 arg6 harg6 arg7 harg7 arg8 harg8 arg9 harg9 arg10 harg10 arg11 harg11 hc0 hc1 hc2 hc3 x0 x1 x2 x3 x4 (p.2.1) (p.2.2.1) (p.2.2.2))]
    unfold kernelRun1_D
    dsimp only
    sl_unfold_run_names
    rw [View.canon_cons_unit_zero (S := S1024x1024) hz2]
    (try unfold s1Step); (try unfold s2Step); (try unfold bkRow)
    simp only [View.readAt_eq_ld, harg3.read_unread, harg4.read_unread, harg5.read_unread, harg6.read_unread, harg7.read_unread, harg8.read_unread, harg9.read_unread, harg10.read_unread, harg11.read_unread,
      View.ld_unit_zero (S := S1024x1024) hz2, View.ld_unit_zero (S := S1024x1) hz2, View.ld_unit_zero (S := S1x1024) hz2, View.ld_unit_zero (S := S1x1024x1024) hz3,
      View.readCov_unit_zero (S := S1024x1) _ hz2, View.readCov_unit_zero (S := S1024x1024) _ hz2]
  · rw [View.read_writes_eq_canon _ _ _ (cover1_D_LS1 c i arg3 harg3 arg4 harg4 arg5 harg5 arg6 harg6 arg7 harg7 arg8 harg8 arg9 harg9 arg10 harg10 arg11 harg11 hc0 hc1 hc2 hc3 x0 x1 x2 x3 x4 (p.2.1) (p.2.2.1) (p.2.2.2))]
    unfold kernelRun1_D
    dsimp only
    sl_unfold_run_names
    rw [View.canon_cons_unit_zero (S := S1024x1) hz2]
    (try unfold s1Step); (try unfold s2Step); (try unfold bkRow)
    simp only [View.readAt_eq_ld, harg3.read_unread, harg4.read_unread, harg5.read_unread, harg6.read_unread, harg7.read_unread, harg8.read_unread, harg9.read_unread, harg10.read_unread, harg11.read_unread,
      View.ld_unit_zero (S := S1024x1024) hz2, View.ld_unit_zero (S := S1024x1) hz2, View.ld_unit_zero (S := S1x1024) hz2, View.ld_unit_zero (S := S1x1024x1024) hz3,
      View.readCov_unit_zero (S := S1024x1) _ hz2, View.readCov_unit_zero (S := S1024x1024) _ hz2]
  · rw [View.read_writes_eq_canon _ _ _ (cover1_D_LS2 c i arg3 harg3 arg4 harg4 arg5 harg5 arg6 harg6 arg7 harg7 arg8 harg8 arg9 harg9 arg10 harg10 arg11 harg11 hc0 hc1 hc2 hc3 x0 x1 x2 x3 x4 (p.2.1) (p.2.2.1) (p.2.2.2))]
    unfold kernelRun1_D
    dsimp only
    sl_unfold_run_names
    rw [View.canon_cons_unit_zero (S := S1024x1024) hz2]
    (try unfold s1Step); (try unfold s2Step); (try unfold bkRow)
    simp only [View.readAt_eq_ld, harg3.read_unread, harg4.read_unread, harg5.read_unread, harg6.read_unread, harg7.read_unread, harg8.read_unread, harg9.read_unread, harg10.read_unread, harg11.read_unread,
      View.ld_unit_zero (S := S1024x1024) hz2, View.ld_unit_zero (S := S1024x1) hz2, View.ld_unit_zero (S := S1x1024) hz2, View.ld_unit_zero (S := S1x1024x1024) hz3,
      View.readCov_unit_zero (S := S1024x1) _ hz2, View.readCov_unit_zero (S := S1024x1024) _ hz2]

/-- Case E, read back: what the body leaves, as payload terms of the point's blocks and of what the point before left. -/
theorem res1_E_eq (c : Dev nD) (i : grid1.Coords) (arg3 : Memref sig .tc .vmem S1x1024 .f32) (harg3 : arg3.IsWhole) (arg4 : Memref sig .tc .vmem S1024x1024 .bf16) (harg4 : arg4.IsWhole) (arg5 : Memref sig .tc .vmem S8x4096 .f32) (harg5 : arg5.IsWhole) (arg6 : Memref sig .tc .vmem S1024x1024 .bf16) (harg6 : arg6.IsWhole) (arg7 : Memref sig .tc .vmem S1x1024x1024 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : ¬cond1_1 i) (hc2 : cond1_2 i) (hc3 : cond1_3 i) (x0 : Vec F S1x1024 .f32) (x1 : Vec F S1024x1024 .bf16) (x2 : Vec F S8x4096 .f32) (x3 : Vec F S1024x1024 .bf16) (x4 : Vec F S1x1024x1024 .bf16) (p : Vec F S1024x1024 .f32 × Vec F S1024x1024 .f32 × Vec F S1024x1 .f32 × Vec F S1024x1024 .f32) :
    res1_E c i arg3 harg3 arg4 harg4 arg5 harg5 arg6 harg6 arg7 harg7 arg8 harg8 arg9 harg9 arg10 harg10 arg11 harg11 hc0 hc1 hc2 hc3 x0 x1 x2 x3 x4 p
      = (k1_pay3 p.2.1 (s1Step i x2 x3 x4 p.2.2.1) (s2Step i x2 x3 x4 p.2.2.2),
         k1_pay3 p.2.1 (s1Step i x2 x3 x4 p.2.2.1) (s2Step i x2 x3 x4 p.2.2.2),
         (s1Step i x2 x3 x4 p.2.2.1),
         (s2Step i x2 x3 x4 p.2.2.2)) := by
  unfold res1_E
  refine Prod.ext ?_ (Prod.ext ?_ (Prod.ext ?_ ?_))
  · rw [View.read_writes_eq_canon _ _ _ (cover1_E_L5 c i arg3 harg3 arg4 harg4 arg5 harg5 arg6 harg6 arg7 harg7 arg8 harg8 arg9 harg9 arg10 harg10 arg11 harg11 hc0 hc1 hc2 hc3 x0 x1 x2 x3 x4 (p.2.1) (p.2.2.1) (p.2.2.2))]
    unfold kernelRun1_E
    dsimp only
    sl_unfold_run_names
    rw [View.canon_cons_unit_zero (S := S1024x1024) hz2]
    (try unfold s1Step); (try unfold s2Step); (try unfold bkRow)
    simp only [View.readAt_eq_ld, harg3.read_unread, harg4.read_unread, harg5.read_unread, harg6.read_unread, harg7.read_unread, harg8.read_unread, harg9.read_unread, harg10.read_unread, harg11.read_unread,
      View.ld_unit_zero (S := S1024x1024) hz2, View.ld_unit_zero (S := S1024x1) hz2, View.ld_unit_zero (S := S1x1024) hz2, View.ld_unit_zero (S := S1x1024x1024) hz3,
      View.readCov_unit_zero (S := S1024x1) _ hz2, View.readCov_unit_zero (S := S1024x1024) _ hz2]
  · rw [View.read_writes_eq_canon _ _ _ (cover1_E_LS0 c i arg3 harg3 arg4 harg4 arg5 harg5 arg6 harg6 arg7 harg7 arg8 harg8 arg9 harg9 arg10 harg10 arg11 harg11 hc0 hc1 hc2 hc3 x0 x1 x2 x3 x4 (p.2.1) (p.2.2.1) (p.2.2.2))]
    unfold kernelRun1_E
    dsimp only
    sl_unfold_run_names
    rw [View.canon_cons_unit_zero (S := S1024x1024) hz2]
    (try unfold s1Step); (try unfold s2Step); (try unfold bkRow)
    simp only [View.readAt_eq_ld, harg3.read_unread, harg4.read_unread, harg5.read_unread, harg6.read_unread, harg7.read_unread, harg8.read_unread, harg9.read_unread, harg10.read_unread, harg11.read_unread,
      View.ld_unit_zero (S := S1024x1024) hz2, View.ld_unit_zero (S := S1024x1) hz2, View.ld_unit_zero (S := S1x1024) hz2, View.ld_unit_zero (S := S1x1024x1024) hz3,
      View.readCov_unit_zero (S := S1024x1) _ hz2, View.readCov_unit_zero (S := S1024x1024) _ hz2]
  · rw [View.read_writes_eq_canon _ _ _ (cover1_E_LS1 c i arg3 harg3 arg4 harg4 arg5 harg5 arg6 harg6 arg7 harg7 arg8 harg8 arg9 harg9 arg10 harg10 arg11 harg11 hc0 hc1 hc2 hc3 x0 x1 x2 x3 x4 (p.2.1) (p.2.2.1) (p.2.2.2))]
    unfold kernelRun1_E
    dsimp only
    sl_unfold_run_names
    rw [View.canon_cons_unit_zero (S := S1024x1) hz2]
    (try unfold s1Step); (try unfold s2Step); (try unfold bkRow)
    simp only [View.readAt_eq_ld, harg3.read_unread, harg4.read_unread, harg5.read_unread, harg6.read_unread, harg7.read_unread, harg8.read_unread, harg9.read_unread, harg10.read_unread, harg11.read_unread,
      View.ld_unit_zero (S := S1024x1024) hz2, View.ld_unit_zero (S := S1024x1) hz2, View.ld_unit_zero (S := S1x1024) hz2, View.ld_unit_zero (S := S1x1024x1024) hz3,
      View.readCov_unit_zero (S := S1024x1) _ hz2, View.readCov_unit_zero (S := S1024x1024) _ hz2]
  · rw [View.read_writes_eq_canon _ _ _ (cover1_E_LS2 c i arg3 harg3 arg4 harg4 arg5 harg5 arg6 harg6 arg7 harg7 arg8 harg8 arg9 harg9 arg10 harg10 arg11 harg11 hc0 hc1 hc2 hc3 x0 x1 x2 x3 x4 (p.2.1) (p.2.2.1) (p.2.2.2))]
    unfold kernelRun1_E
    dsimp only
    sl_unfold_run_names
    rw [View.canon_cons_unit_zero (S := S1024x1024) hz2]
    (try unfold s1Step); (try unfold s2Step); (try unfold bkRow)
    simp only [View.readAt_eq_ld, harg3.read_unread, harg4.read_unread, harg5.read_unread, harg6.read_unread, harg7.read_unread, harg8.read_unread, harg9.read_unread, harg10.read_unread, harg11.read_unread,
      View.ld_unit_zero (S := S1024x1024) hz2, View.ld_unit_zero (S := S1024x1) hz2, View.ld_unit_zero (S := S1x1024) hz2, View.ld_unit_zero (S := S1x1024x1024) hz3,
      View.readCov_unit_zero (S := S1024x1) _ hz2, View.readCov_unit_zero (S := S1024x1024) _ hz2]

end Cert.KernelIdeal.Hand

end
-- ==== Proof.LibPlainDot.lean ====
/-
  The plain matrix product read at an index.

  For the dimension numbers of an M×K by K×N product (contract the left operand's axis 1 with the right operand's
  axis 0, no batch axes), the sum over the contraction index that both a matmul into a zero accumulator and a
  host dot_general denote at the ideal values is the textbook one: entry (p, q) is the sum over l of
  lhs (p, l) · rhs (l, q).
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : ℕ}

/-- Row coordinate of the left operand's index: the output's row. -/
theorem lhs_row (j : (⟨2, ![M, N]⟩ : Shape).Idx) (k : (DotDims.plain M K N).contr.Idx) :
    ((DotDims.plain M K N).lhsIdx j k 0).val = (j 0).val := by
  unfold DotDims.lhsIdx
  have hb : ¬(0 : Fin 2) ∈ (DotDims.plain M K N).lhsBatch := List.not_mem_nil
  have hn : (0 : Fin 2) ∈ (DotDims.plain M K N).lhsNonContracting := List.mem_singleton.mpr rfl
  rw [dif_neg hb, dif_pos hn]
  rfl

/-- Column coordinate of the left operand's index: the contraction position. -/
theorem lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- Row coordinate of the right operand's index: the contraction position. -/
theorem rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- Column coordinate of the right operand's index: the output's column. -/
theorem rhs_col (j : (⟨2, ![M, N]⟩ : Shape).Idx) (k : (DotDims.plain M K N).contr.Idx) :
    ((DotDims.plain M K N).rhsIdx j k 1).val = (j 1).val := by
  unfold DotDims.rhsIdx
  have hb : ¬(1 : Fin 2) ∈ (DotDims.plain M K N).rhsBatch := List.not_mem_nil
  have hn : (1 : Fin 2) ∈ (DotDims.plain M K N).rhsNonContracting := List.mem_singleton.mpr rfl
  rw [dif_neg hb, dif_pos hn]
  rfl

/-- The contraction sum of a plain product at entry (p, q), re-indexed by the one contraction coordinate. -/
theorem contr_sum (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ l : Fin K, lhs (ix2 p l) * rhs (ix2 l q) := by
  rw [← Equiv.sum_comp (contrEquiv1 (DotDims.plain M K N) K rfl rfl).symm]
  refine Finset.sum_congr rfl fun l _ => ?_
  have hl := contrEquiv1_symm_val (DotDims.plain M K N) K rfl rfl l
  have el : (DotDims.plain M K N).lhsIdx (ix2 p q) ((contrEquiv1 (DotDims.plain M K N) K rfl rfl).symm l) = ix2 p l :=
    funext fun a => Fin.ext (by
      match a with
      | ⟨0, _⟩ => exact lhs_row _ _
      | ⟨1, _⟩ => exact (lhs_col _ _).trans hl)
  have er : (DotDims.plain M K N).rhsIdx (ix2 p q) ((contrEquiv1 (DotDims.plain M K N) K rfl rfl).symm l) = ix2 l q :=
    funext fun a => Fin.ext (by
      match a with
      | ⟨0, _⟩ => exact (rhs_row _ _).trans hl
      | ⟨1, _⟩ => exact rhs_col _ _)
  rw [el, er]

/-- A matmul of plain dimension numbers into the zero accumulator, at the ideal values, read at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ l : Fin K, lhs (ix2 p l) * rhs (ix2 l q) :=
  (Ideal.matmul_constant_zero_apply (DotDims.plain M K N) prec lhs rhs (ix2 p q)).trans (contr_sum lhs rhs p q)

/-- A host dot_general of plain dimension numbers, at the ideal values, read at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ l : Fin K, lhs (ix2 p l) * rhs (ix2 l q) :=
  (Ideal.dotGeneral_apply (DotDims.plain M K N) prec sched lhs rhs (ix2 p q)).trans (contr_sum lhs rhs p q)

end Cert.LibPlainDot

end
-- ==== Proof.LibTransDot.lean ====
/-
  The matrix product with the right operand transposed, read at an index.

  For the dimension numbers of an M×K by N×K product (contract the left operand's axis 1 with the right operand's
  axis 1, no batch axes), the sum over the contraction index that both a matmul into a zero accumulator and a
  host dot_general denote at the ideal values is the textbook one: entry (p, q) is the sum over l of
  lhs (p, l) · rhs (q, l).
-/
import Idealize.ShloMosaic.Lib.ValueIdx
import Idealize.ShloMosaic.PureOps.Ideal.Laws

noncomputable section

open scoped BigOperators

namespace Cert.LibTransDot

open Idealize.ShloMosaic Idealize.ShloMosaic.ValueIdx

variable {M K N : ℕ}

/-- Row coordinate of the left operand's index: the output's row. -/
theorem lhs_row (j : (⟨2, ![M, N]⟩ : Shape).Idx) (k : (DotDims.transposedRhs M K N).contr.Idx) :
    ((DotDims.transposedRhs M K N).lhsIdx j k 0).val = (j 0).val := by
  unfold DotDims.lhsIdx
  have hb : ¬(0 : Fin 2) ∈ (DotDims.transposedRhs M K N).lhsBatch := List.not_mem_nil
  have hn : (0 : Fin 2) ∈ (DotDims.transposedRhs M K N).lhsNonContracting := List.mem_singleton.mpr rfl
  rw [dif_neg hb, dif_pos hn]
  rfl

/-- Column coordinate of the left operand's index: the contraction position. -/
theorem lhs_col (j : (⟨2, ![M, N]⟩ : Shape).Idx) (k : (DotDims.transposedRhs M K N).contr.Idx) :
    ((DotDims.transposedRhs M K N).lhsIdx j k 1).val = (k ⟨0, Nat.one_pos⟩).val :=
  (DotDims.transposedRhs M K N).lhsIdx_val_of_single rfl j k

/-- Row coordinate of the right operand's index: the output's column. -/
theorem rhs_row (j : (⟨2, ![M, N]⟩ : Shape).Idx) (k : (DotDims.transposedRhs M K N).contr.Idx) :
    ((DotDims.transposedRhs M K N).rhsIdx j k 0).val = (j 1).val := by
  unfold DotDims.rhsIdx
  have hb : ¬(0 : Fin 2) ∈ (DotDims.transposedRhs M K N).rhsBatch := List.not_mem_nil
  have hn : (0 : Fin 2) ∈ (DotDims.transposedRhs M K N).rhsNonContracting := List.mem_singleton.mpr rfl
  rw [dif_neg hb, dif_pos hn]
  rfl

/-- Column coordinate of the right operand's index: the contraction position. -/
theorem rhs_col (j : (⟨2, ![M, N]⟩ : Shape).Idx) (k : (DotDims.transposedRhs M K N).contr.Idx) :
    ((DotDims.transposedRhs M K N).rhsIdx j k 1).val = (k ⟨0, Nat.one_pos⟩).val :=
  (DotDims.transposedRhs M K N).rhsIdx_val_of_single rfl j k

/-- The contraction sum at entry (p, q), re-indexed by the one contraction coordinate. -/
theorem contr_sum (lhs : (⟨2, ![M, K]⟩ : Shape).Idx → EReal) (rhs : (⟨2, ![N, K]⟩ : Shape).Idx → EReal)
    (p : Fin M) (q : Fin N) :
    (∑ k : (DotDims.transposedRhs M K N).contr.Idx,
        lhs ((DotDims.transposedRhs M K N).lhsIdx (ix2 p q) k) * rhs ((DotDims.transposedRhs M K N).rhsIdx (ix2 p q) k))
      = ∑ l : Fin K, lhs (ix2 p l) * rhs (ix2 q l) := by
  rw [← Equiv.sum_comp (contrEquiv1 (DotDims.transposedRhs M K N) K rfl rfl).symm]
  refine Finset.sum_congr rfl fun l _ => ?_
  have hl := contrEquiv1_symm_val (DotDims.transposedRhs M K N) K rfl rfl l
  have el : (DotDims.transposedRhs M K N).lhsIdx (ix2 p q) ((contrEquiv1 (DotDims.transposedRhs M K N) K rfl rfl).symm l) = ix2 p l :=
    funext fun a => Fin.ext (by
      match a with
      | ⟨0, _⟩ => exact lhs_row _ _
      | ⟨1, _⟩ => exact (lhs_col _ _).trans hl)
  have er : (DotDims.transposedRhs M K N).rhsIdx (ix2 p q) ((contrEquiv1 (DotDims.transposedRhs M K N) K rfl rfl).symm l) = ix2 q l :=
    funext fun a => Fin.ext (by
      match a with
      | ⟨0, _⟩ => exact rhs_row _ _
      | ⟨1, _⟩ => exact (rhs_col _ _).trans hl)
  rw [el, er]

/-- A matmul of these dimension numbers into the zero accumulator, at the ideal values, read at entry (p, q). -/
theorem matmul_zero_apply {φ₁ φ₂ : FTy} (prec : Option ContractPrecision)
    (lhs : FVec Ideal ⟨2, ![M, K]⟩ φ₁) (rhs : FVec Ideal ⟨2, ![N, K]⟩ φ₂) (p : Fin M) (q : Fin N) :
    FloatOps.matmul (DotDims.transposedRhs M K N) prec lhs rhs (constant (F := Ideal) ⟨2, ![M, N]⟩ .f32 0x00000000#32) (ix2 p q)
      = ∑ l : Fin K, lhs (ix2 p l) * rhs (ix2 q l) :=
  (Ideal.matmul_constant_zero_apply (DotDims.transposedRhs M K N) prec lhs rhs (ix2 p q)).trans (contr_sum lhs rhs p q)

/-- A host dot_general of these dimension numbers, at the ideal values, read at entry (p, q). -/
theorem dotGeneral_apply {φ₁ φ₂ : FTy} (prec : Option ContractPrecision) (sched : HostSchedule)
    (lhs : FVec Ideal ⟨2, ![M, K]⟩ φ₁) (rhs : FVec Ideal ⟨2, ![N, K]⟩ φ₂) (p : Fin M) (q : Fin N) :
    FloatOps.dotGeneral (DotDims.transposedRhs M K N) prec sched lhs rhs (ix2 p q)
      = ∑ l : Fin K, lhs (ix2 p l) * rhs (ix2 q l) :=
  (Ideal.dotGeneral_apply (DotDims.transposedRhs M K N) prec sched lhs rhs (ix2 p q)).trans (contr_sum lhs rhs p q)

end Cert.LibTransDot

end
-- ==== Proof.LibColumn.lean ====
/-
  Two keepdims column layouts read at an index given by coordinates.

  A length-a vector viewed as an a×1 column reads, at (i, 0), the vector at i; an a×1 column broadcast over b
  columns reads, at (p, c), the column's entry at row p.
-/
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibAxisReduce.lean ====
/-
  A matrix reduced along one of its two axes, read at a coordinate, at the exact (extended-real) reading of the floats.

  For an a × b matrix M: the sum over the rows (axis 0) at column n is Σ_r M[r, n]; the sum over the columns (axis 1)
  at row r is Σ_c M[r, c]; and the maximum over the rows at column n is the running maximum of M[·, n] from the
  accumulator's value. These are the library's one-axis reduction laws with the inserted index written by coordinates,
  stated for any extents a and b.
-/
import Idealize.ShloMosaic.PureOps.Ideal.Laws
import Idealize.ShloMosaic.Lib.ValueIdx

noncomputable section

open scoped BigOperators

namespace Cert.LibAxisReduce

open Idealize.ShloMosaic Idealize.ShloMosaic.ValueIdx

variable {a b : ℕ} {φ : FTy}

/-- Sum over the rows of an a × b matrix, at column n. -/
theorem add_rows_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (n : Fin b) :
    multiReduction .add [0] ⟨1, ![b]⟩ src acc h hφ hacc (ix1 n) = ∑ r : Fin a, src (ix2 r n) :=
  (Ideal.multiReduction_add_single src acc h hφ hacc (ix1 n)).trans
    (Finset.sum_congr rfl fun r _ => congrArg src
      (funext fun ax => Fin.ext (by match ax with | ⟨0, _⟩ => rfl | ⟨1, _⟩ => rfl)))

/-- Sum over the columns of an a × b matrix, at row r. -/
theorem add_cols_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ c : Fin b, src (ix2 r c) :=
  (Ideal.multiReduction_add_single src acc h hφ hacc (ix1 r)).trans
    (Finset.sum_congr rfl fun c _ => congrArg src
      (funext fun ax => Fin.ext (by match ax with | ⟨0, _⟩ => rfl | ⟨1, _⟩ => rfl)))

/-- Maximum over the rows of an a × b matrix, at column n: the running maximum from the accumulator's value. -/
theorem max_rows_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ) (n : Fin b) :
    multiReduction .maximumf [0] ⟨1, ![b]⟩ src acc h hφ hacc (ix1 n)
      = (Finset.univ : Finset (Fin a)).fold max (Ideal.ofBits φ acc) (fun r => src (ix2 r n)) :=
  (Ideal.multiReduction_maximumf_single src acc h hφ hacc (ix1 n)).trans
    (Finset.fold_congr fun r _ => congrArg src
      (funext fun ax => Fin.ext (by match ax with | ⟨0, _⟩ => rfl | ⟨1, _⟩ => rfl)))

end Cert.LibAxisReduce

end
-- ==== Proof.K1Pay.lean ====
/-
  The second kernel's stored and carried values, read at an index, at the extended reals.

  Each value the kernel stores or carries is a vector expression over the values read before it. Read at one index
  (r, q), with every zero word read as 0 and every change of float format the identity, it is a textbook formula:
  a matrix product entry is the sum over the contraction index, a row sum is the sum over the columns, a column
  spread over the columns repeats its row's entry, a row spread over the rows repeats its column's entry.
-/
import proofs.«102676_j85581518340279_1_alg».proof.Proof.Gen.KernelIdeal.Skeleton
import proofs.«102676_j85581518340279_1_alg».proof.Proof.KSpec
import Idealize.ShloMosaic.Lib.ValueLayout
import Idealize.ShloMosaic.Lib.Pipeline.Value
import Idealize.ShloMosaic.PureOps.Ideal.Laws
import proofs.«102676_j85581518340279_1_alg».proof.Proof.LibPlainDot
import proofs.«102676_j85581518340279_1_alg».proof.Proof.LibTransDot
import proofs.«102676_j85581518340279_1_alg».proof.Proof.LibColumn
import proofs.«102676_j85581518340279_1_alg».proof.Proof.LibAxisReduce

noncomputable section

open scoped BigOperators

namespace Cert.KernelIdeal.Pay

open Idealize.ShloMosaic Idealize.ShloMosaic.ValueIdx Cert.KernelIdeal.Gen

/-- The zero accumulator column: every entry is 0. -/
theorem pay5_apply (r : Fin 1024) : k1_pay5 (F := Ideal) (ix2 r (0 : Fin 1)) = 0 := by
  unfold k1_pay5
  rw [shapeCast_self]
  exact Ideal.ofBits_zero_f32

/-- The zero accumulator matrix: every entry is 0. -/
theorem pay6_apply (r d : Fin 1024) : k1_pay6 (F := Ideal) (ix2 r d) = 0 := by
  unfold k1_pay6
  rw [shapeCast_self]
  exact Ideal.ofBits_zero_f32

/-- The weight tile with its leading unit axis dropped. -/
theorem pay7_apply (v10 : FVec Ideal S1x1024x1024 .bf16) (q d : Fin 1024) :
    k1_pay7 v10 (ix2 q d) = v10 (ix3 (0 : Fin 1) q d) :=
  shapeCast_1ab_ab_apply v10 _ q d

/-- The output accumulator after one layer: the old entry plus the layer's row sum times the layer's product entry. -/
theorem pay3_apply (v60 : FVec Ideal S1024x1024 .f32) (v61 : FVec Ideal S1024x1 .f32) (v62 : FVec Ideal S1024x1024 .f32)
    (r d : Fin 1024) :
    k1_pay3 v60 v61 v62 (ix2 r d) = v60 (ix2 r d) + v61 (ix2 r (0 : Fin 1)) * v62 (ix2 r d) := by
  unfold k1_pay3
  rw [shapeCast_self, addf_apply, mulf_apply]
  exact congrArg (fun t => v60 (ix2 r d) + t * v62 (ix2 r d)) (LibColumn.broadcastTo_a1_ab_apply v61 _ r d)

/-- The row-sum accumulator after one hidden tile: the old entry plus the sum of the tile's row. -/
theorem pay1_apply (v36 : FVec Ideal S1024x1024 .f32) (v37 : FVec Ideal S1024x1 .f32) (r : Fin 1024) :
    k1_pay1 v36 v37 (ix2 r (0 : Fin 1)) = v37 (ix2 r (0 : Fin 1)) + ∑ q : Fin 1024, v36 (ix2 r q) := by
  unfold k1_pay1
  rw [shapeCast_self, addf_apply]
  refine congrArg (fun t => v37 (ix2 r (0 : Fin 1)) + t) ?_
  refine (LibColumn.shapeCast_a_a1_apply _ _ r 0).trans ?_
  exact LibAxisReduce.add_cols_apply v36 0x00000000#32 _ (.inl rfl) rfl r

/-- The output accumulator's starting value: the bias row's entry plus the product entry. -/
theorem pay4_apply (v60 : FVec Ideal S1x1024 .f32) (v62 v64 : FVec Ideal S1024x1024 .bf16) (r d : Fin 1024) :
    k1_pay4 v60 v62 v64 (ix2 r d) = v60 (ix2 (0 : Fin 1) d) + ∑ k : Fin 1024, v62 (ix2 r k) * v64 (ix2 k d) := by
  unfold k1_pay4
  rw [shapeCast_self, shapeCast_self, shapeCast_self, shapeCast_self, addf_apply]
  exact congrArg₂ (· + ·) (broadcastTo_1b_ab_apply v60 _ r d) (LibPlainDot.matmul_zero_apply none v62 v64 r d)

/-- The layer's product accumulator after one hidden tile: the old entry plus the tile's tanh row times the weight column. -/
theorem pay2_apply (v11 : FVec Ideal S1024x1024 .bf16) (v21 v46 : FVec Ideal S1024x1024 .f32) (r d : Fin 1024) :
    k1_pay2 v11 v21 v46 (ix2 r d) = v46 (ix2 r d) + ∑ q : Fin 1024, Ideal.tanh (v21 (ix2 r q)) * v11 (ix2 q d) := by
  unfold k1_pay2
  rw [shapeCast_self, addf_apply]
  exact congrArg (fun t => v46 (ix2 r d) + t)
    (LibPlainDot.matmul_zero_apply none (truncf .bf16 (tanh v21) bitsLt_bf16_f32) v11 r d)

/-- The pre-activation of one hidden tile: the row of x against the weight row, plus the bias entry. -/
theorem pay8_apply (v8 : FVec Ideal S1024x1024 .bf16) (v10 : FVec Ideal S1x1024x1024 .bf16) (v17 : FVec Ideal S1x1024 .f32)
    (r q : Fin 1024) :
    k1_pay8 (F := Ideal) v8 v10 v17 (ix2 r q)
      = (∑ d : Fin 1024, v8 (ix2 r d) * v10 (ix3 (0 : Fin 1) q d)) + v17 (ix2 (0 : Fin 1) q) := by
  unfold k1_pay8
  rw [shapeCast_self, addf_apply]
  refine congrArg₂ (· + ·) ?_ ?_
  · refine (LibTransDot.matmul_zero_apply none v8 (k1_pay7 v10) r q).trans ?_
    exact Finset.sum_congr rfl fun d _ => congrArg (fun t => v8 (ix2 r d) * t) (pay7_apply v10 q d)
  · refine (broadcastTo_1b_ab_apply _ _ r q).trans ?_
    refine (shapeCast_a_1a_apply _ _ (0 : Fin 1) q).trans ?_
    exact shapeCast_1a_a_apply v17 _ q

/-- The log cosh of the pre-activation, as the kernel spells it: the payload is the spelling itself, entry by entry, with
    the two zero words read as 0. -/
theorem pay9_apply (v8 : FVec Ideal S1024x1024 .bf16) (v10 : FVec Ideal S1x1024x1024 .bf16) (v17 : FVec Ideal S1x1024 .f32)
    (r q : Fin 1024) :
    k1_pay9 (F := Ideal) v8 v10 v17 (ix2 r q) = KSpec.klc (k1_pay8 (F := Ideal) v8 v10 v17 (ix2 r q)) := by
  unfold k1_pay9
  generalize k1_pay8 (F := Ideal) v8 v10 v17 = Z
  generalize hc : (Scalar.ofBits .f32 0x00000000#32 : Ideal .f32) = c
  have hc0 : c = 0 := hc.symm.trans Ideal.ofBits_zero_f32
  subst hc0
  rfl

end Cert.KernelIdeal.Pay

end
-- ==== Proof.K1Blocks.lean ====
/-
  The blocks that the second region's windows show the body, read at an index.

  The region's grid has 128 points; point t stands for the row block b = t / 32, the layer l = t % 32 / 4 and the
  hidden tile h = t % 4. A window's block at point t is a rectangle of its array: an element of the block sits, on
  each axis, at the block index times the block's size plus its own coordinate. The bias row a and the matrix Vsq
  are shown whole; x is shown by row blocks of 1024 rows (block b); the weights by one layer's tile of 1024 hidden
  rows (layer l, tile h); the bias array is shown whole and the body reads from it the row l at columns
  1024·h … 1024·h + 1023; the output is written back by row blocks of 1024 rows (block b).
-/
import proofs.«102676_j85581518340279_1_alg».proof.Proof.K1Frame
import proofs.«102676_j85581518340279_1_alg».proof.Proof.KSpec
import Idealize.ShloMosaic.Lib.Pipeline.Value
import Idealize.ShloMosaic.Lib.ValueIdx

noncomputable section

namespace Cert.KernelIdeal.Hand

open Idealize.ShloMosaic Idealize.ShloMosaic.TcCoe Idealize.SL.Sem
open Cert.KernelIdeal Cert.KernelIdeal.Gen Idealize.ShloMosaic.ValueIdx

variable {F : FTy → Type} [FloatOps F]
variable (V : (c : Dev nD) → (b : Ref sig .tc) → Buf (Elt F) ((c : Thread nD τ).loc b))

/-! ## The block indices at each of the 128 points -/

/-- The bias row a's window shows block (0, 0) at every point. -/
theorem idx1_0 : ∀ t : Fin cfg1.N, win1_0.index t (0 : Fin 2) = 0 ∧ win1_0.index t (1 : Fin 2) = 0 :=
  (by decide +kernel : ∀ t : Fin grid1.N, win1_0.index t (0 : Fin 2) = 0 ∧ win1_0.index t (1 : Fin 2) = 0)
/-- Vsq's window shows block (0, 0) at every point. -/
theorem idx1_1 : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)
/-- The bias array's window shows block (0, 0) at every point. -/
theorem idx1_2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)
/-- x's window shows block (b, 0). -/
theorem idx1_3 : ∀ t : Fin cfg1.N, win1_3.index t (0 : Fin 2) = t.val / 32 ∧ win1_3.index t (1 : Fin 2) = 0 :=
  (by decide +kernel : ∀ t : Fin grid1.N, win1_3.index t (0 : Fin 2) = t.val / 32 ∧ win1_3.index t (1 : Fin 2) = 0)
/-- The weights' window shows block (l, h, 0). -/
theorem idx1_4 : ∀ t : Fin cfg1.N, win1_4.index t (0 : Fin 3) = t.val % 32 / 4 ∧ win1_4.index t (1 : Fin 3) = t.val % 4
      ∧ win1_4.index t (2 : Fin 3) = 0 :=
  (by decide +kernel : ∀ t : Fin grid1.N, win1_4.index t (0 : Fin 3) = t.val % 32 / 4 ∧ win1_4.index t (1 : Fin 3) = t.val % 4
      ∧ win1_4.index t (2 : Fin 3) = 0)
/-- The output's window shows block (b, 0). -/
theorem idx1_5 : ∀ t : Fin cfg1.N, win1_5.index t (0 : Fin 2) = t.val / 32 ∧ win1_5.index t (1 : Fin 2) = 0 :=
  (by decide +kernel : ∀ t : Fin grid1.N, win1_5.index t (0 : Fin 2) = t.val / 32 ∧ win1_5.index t (1 : Fin 2) = 0)
/-- The offsets of the body's load of the bias row: (l, 1024·h). -/
theorem off1_at : ∀ t : Fin cfg1.N, k1_off1 (grid1.coords t) (0 : Fin 2) = t.val % 32 / 4
      ∧ k1_off1 (grid1.coords t) (1 : Fin 2) = 1024 * (t.val % 4) :=
  (by decide +kernel : ∀ t : Fin grid1.N, k1_off1 (grid1.coords t) (0 : Fin 2) = t.val % 32 / 4
      ∧ k1_off1 (grid1.coords t) (1 : Fin 2) = 1024 * (t.val % 4))

/-! ## The input blocks at an index -/

/-- The bias row a, whole. -/
theorem blk0_apply (c : Dev nD) (t : Fin cfg1.N) (d : Fin 1024) :
    (iblk1 V c 0 t : Vec F S1x1024 .f32) (ix2 (0 : Fin 1) d) = (V c main_v3 : Vec F S1x1024 .f32) (ix2 (0 : Fin 1) d) := by
  unfold iblk1
  rw [View.read_apply]
  show V c main_v3 _ = V c main_v3 _
  congr 1
  funext a
  apply Fin.ext
  have hi := idx1_0 t
  match a with
  | ⟨0, _⟩ =>
    show win1_0.index t 0 * 1 + 1 * (0 : Fin 1).val = (0 : Fin 1).val
    rw [hi.1]; omega
  | ⟨1, _⟩ =>
    show win1_0.index t 1 * 1024 + 1 * d.val = d.val
    rw [hi.2]; omega

/-- Vsq, whole. -/
theorem blk1_apply (c : Dev nD) (t : Fin cfg1.N) (k d : Fin 1024) :
    (iblk1 V c 1 t : Vec F S1024x1024 .bf16) (ix2 k d) = (V c main_v4 : Vec F S1024x1024 .bf16) (ix2 k d) := by
  unfold iblk1
  rw [View.read_apply]
  show V c main_v4 _ = V c main_v4 _
  congr 1
  funext a
  apply Fin.ext
  have hi := idx1_1 t
  match a with
  | ⟨0, _⟩ =>
    show win1_1.index t 0 * 1024 + 1 * k.val = k.val
    rw [hi.1]; omega
  | ⟨1, _⟩ =>
    show win1_1.index t 1 * 1024 + 1 * d.val = d.val
    rw [hi.2]; omega

/-- Row block b of x: its row r is x's row 1024·b + r. -/
theorem blk3_apply (c : Dev nD) (t : Fin cfg1.N) (r k : Fin 1024) :
    (iblk1 V c 3 t : Vec F S1024x1024 .bf16) (ix2 r k)
      = (V c main_v0 : Vec F S4096x1024 .bf16) (ix2 (KSpec.tix (t.val / 32) r) k) := by
  unfold iblk1
  rw [View.read_apply]
  show V c main_v0 _ = V c main_v0 _
  congr 1
  funext a
  apply Fin.ext
  have hi := idx1_3 t
  have ht : t.val < 128 := lt_of_lt_of_eq t.isLt N_1
  match a with
  | ⟨0, _⟩ =>
    show win1_3.index t 0 * 1024 + 1 * r.val = (1024 * (t.val / 32) + r.val) % 4096
    rw [hi.1]; omega
  | ⟨1, _⟩ =>
    show win1_3.index t 1 * 1024 + 1 * k.val = k.val
    rw [hi.2]; omega

/-- Tile h of layer l of the weights: its hidden row q is the layer's row 1024·h + q. -/
theorem blk4_apply (c : Dev nD) (t : Fin cfg1.N) (q d : Fin 1024) :
    (iblk1 V c 4 t : Vec F S1x1024x1024 .bf16) (ix3 (0 : Fin 1) q d)
      = (V c main_v1 : Vec F S8x4096x1024 .bf16) (ix3 (KSpec.lix (t.val % 32 / 4)) (KSpec.tix (t.val % 4) q) d) := by
  unfold iblk1
  rw [View.read_apply]
  show V c main_v1 _ = V c main_v1 _
  congr 1
  funext a
  apply Fin.ext
  have hi := idx1_4 t
  have ht : t.val < 128 := lt_of_lt_of_eq t.isLt N_1
  match a with
  | ⟨0, _⟩ =>
    show win1_4.index t 0 * 1 + 1 * (0 : Fin 1).val = (t.val % 32 / 4) % 8
    rw [hi.1]; omega
  | ⟨1, _⟩ =>
    show win1_4.index t 1 * 1024 + 1 * q.val = (1024 * (t.val % 4) + q.val) % 4096
    rw [hi.2.1]; omega
  | ⟨2, _⟩ =>
    show win1_4.index t 2 * 1024 + 1 * d.val = d.val
    rw [hi.2.2]; omega

/-- The bias row the body loads from the whole bias array: row l, columns 1024·h + q. -/
theorem bk_apply (c : Dev nD) (t : Fin cfg1.N) (q : Fin 1024) :
    (View.ld (iblk1 V c 2 t : Vec F S8x4096 .f32)
        (Rect.unit (s := S8x4096) (k1_off1 (grid1.coords t)) S1x1024.size (k1_off1_inb (grid1.coords t))) : Vec F S1x1024 .f32)
        (ix2 (0 : Fin 1) q)
      = (V c main_arg2 : Vec F S8x4096 .f32) (ix2 (KSpec.lix (t.val % 32 / 4)) (KSpec.tix (t.val % 4) q)) := by
  show iblk1 V c 2 t _ = _
  unfold iblk1
  rw [View.read_apply]
  show V c main_arg2 _ = V c main_arg2 _
  congr 1
  funext a
  apply Fin.ext
  have hi := idx1_2 t
  have ho := off1_at t
  have ht : t.val < 128 := lt_of_lt_of_eq t.isLt N_1
  match a with
  | ⟨0, _⟩ =>
    show win1_2.index t 0 * 8 + 1 * (k1_off1 (grid1.coords t) 0 + 1 * (0 : Fin 1).val) = (t.val % 32 / 4) % 8
    rw [hi.1, ho.1]; omega
  | ⟨1, _⟩ =>
    show win1_2.index t 1 * 4096 + 1 * (k1_off1 (grid1.coords t) 1 + 1 * q.val) = (1024 * (t.val % 4) + q.val) % 4096
    rw [hi.2, ho.2]; omega

/-! ## Where the output block sits -/

/-- Element (r, k) of the output's block at point t is the output's element (1024·b + r, k). -/
theorem out5_emb (t : Fin cfg1.N) (r k : Fin 1024) :
    (((cfg1.win 5).blk t).view.emb (ix2 r k : S1024x1024.Idx) : S4096x1024.Idx) = ix2 (KSpec.tix (t.val / 32) r) k := by
  funext a
  apply Fin.ext
  have hi := idx1_5 t
  have ht : t.val < 128 := lt_of_lt_of_eq t.isLt N_1
  match a with
  | ⟨0, _⟩ =>
    show win1_5.index t 0 * 1024 + 1 * r.val = (1024 * (t.val / 32) + r.val) % 4096
    rw [hi.1]; omega
  | ⟨1, _⟩ =>
    show win1_5.index t 1 * 1024 + 1 * k.val = k.val
    rw [hi.2]; omega

/-- The row of that element, as a number: 1024·b + r (no wrap: b < 4). -/
theorem tix_div_val (t : Fin cfg1.N) (r : Fin 1024) : (KSpec.tix (t.val / 32) r).val = 1024 * (t.val / 32) + r.val := by
  have ht : t.val < 128 := lt_of_lt_of_eq t.isLt N_1
  show (1024 * (t.val / 32) + r.val) % 4096 = _
  omega

end Cert.KernelIdeal.Hand

end
-- ==== Proof.K1Value.lean ====
/-
  The main region's accumulators, point by point, at the extended reals. At point n = 32·b + 4·l + h, for row r of row
  block b (global row 1024·b + r):
    the layer's row sums hold   Σ_{j ≤ h} Σ_q logcosh(Z_l(row, tile j, q)),
    the layer's product holds   Σ_{j ≤ h} Σ_q tanh(Z_l(row, tile j, q)) · W_l(tile j, q, d),
    the output accumulator holds (a(d) + Σ_k x(row, k) · G(k, d)) + Σ_{l' finished} s_{l'}(row) · T_{l'}(row, d),
  where G is what the first region left in its output array and a layer is finished from its last hidden tile on.
  Proved by induction on the point from what each case of the body leaves; sums over tiles and layers are sums over
  initial segments of ℕ, so each step is one more term.
-/
import proofs.«102676_j85581518340279_1_alg».proof.Proof.K1Pieces
import proofs.«102676_j85581518340279_1_alg».proof.Proof.K1Pay
import proofs.«102676_j85581518340279_1_alg».proof.Proof.K1Blocks
import proofs.«102676_j85581518340279_1_alg».proof.Proof.KSpec

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx
open scoped BigOperators

section
variable (V : (c : Dev nD) → (b : Ref sig .tc) → Buf (Elt Ideal) ((c : Thread nD τ).loc b)) (c : Dev nD)

/-- The arrays the main region reads, as plain functions: x, W and the bias. -/
abbrev xA : KSpec.SX.Idx → EReal := V c main_v0
abbrev wA : KSpec.SW.Idx → EReal := V c main_v1
abbrev bA : KSpec.SB.Idx → EReal := V c main_arg2
/-- The staged bias row of the output and the staged Gram array. -/
abbrev aA : (⟨2, ![1, 1024]⟩ : Shape).Idx → EReal := V c main_v3
abbrev gA : (⟨2, ![1024, 1024]⟩ : Shape).Idx → EReal := V c main_v4

/-- The output accumulator's starting value at (row, d): the staged bias row plus x times the staged Gram array. -/
def base1 (b : Fin 4096) (d : Fin 1024) : EReal :=
  aA V c (ix2 (0 : Fin 1) d) + ∑ k : Fin 1024, xA V c (ix2 b k) * gA V c (ix2 k d)

/-! ## One step of each accumulator, at an index -/

theorem kz_apply (t : Fin cfg1.N) (r q : Fin 1024) :
    k1_pay8 (F := Ideal) (iblk1 V c 3 t) (iblk1 V c 4 t) (bkRow (grid1.coords t) (iblk1 V c 2 t)) (ix2 r q)
      = KSpec.kz (xA V c) (wA V c) (bA V c) (t.val % 32 / 4) (KSpec.tix (t.val / 32) r) (t.val % 4) q := by
  refine (Pay.pay8_apply _ _ _ r q).trans ?_
  unfold KSpec.kz
  refine congrArg₂ (· + ·) (Finset.sum_congr rfl fun d _ => ?_) ?_
  · exact congrArg₂ (· * ·) (blk3_apply V c t r d) (blk4_apply V c t q d)
  · exact bk_apply V c t q

theorem s1Step_apply (t : Fin cfg1.N) (s : Vec Ideal S1024x1 .f32) (r : Fin 1024) :
    s1Step (F := Ideal) (grid1.coords t) (iblk1 V c 2 t) (iblk1 V c 3 t) (iblk1 V c 4 t) s (ix2 r (0 : Fin 1))
      = s (ix2 r (0 : Fin 1)) + KSpec.ksTile (xA V c) (wA V c) (bA V c) (t.val % 32 / 4) (KSpec.tix (t.val / 32) r) (t.val % 4) := by
  unfold s1Step
  refine (Pay.pay1_apply _ _ r).trans ?_
  refine congrArg (_ + ·) ?_
  unfold KSpec.ksTile
  refine Finset.sum_congr rfl fun q _ => ?_
  refine (Pay.pay9_apply _ _ _ r q).trans ?_
  exact congrArg KSpec.klc (kz_apply V c t r q)

theorem s2Step_apply (t : Fin cfg1.N) (s : Vec Ideal S1024x1024 .f32) (r d : Fin 1024) :
    s2Step (F := Ideal) (grid1.coords t) (iblk1 V c 2 t) (iblk1 V c 3 t) (iblk1 V c 4 t) s (ix2 r d)
      = s (ix2 r d) + KSpec.ktermTile (xA V c) (wA V c) (bA V c) (t.val % 32 / 4) (KSpec.tix (t.val / 32) r) (t.val % 4) d := by
  unfold s2Step
  refine (Pay.pay2_apply _ _ _ r d).trans ?_
  refine congrArg (_ + ·) ?_
  unfold KSpec.ktermTile
  refine Finset.sum_congr rfl fun q _ => ?_
  refine congrArg₂ (· * ·) (congrArg Ideal.tanh (kz_apply V c t r q)) ?_
  exact (Pay.pay7_apply _ q d).trans (blk4_apply V c t q d)

theorem base_apply (t : Fin cfg1.N) (r d : Fin 1024) :
    k1_pay4 (F := Ideal) (iblk1 V c 0 t) (iblk1 V c 3 t) (iblk1 V c 1 t) (ix2 r d) = base1 V c (KSpec.tix (t.val / 32) r) d := by
  refine (Pay.pay4_apply _ _ _ r d).trans ?_
  unfold base1
  refine congrArg₂ (· + ·) (blk0_apply V c t d) (Finset.sum_congr rfl fun k _ => ?_)
  exact congrArg₂ (· * ·) (blk3_apply V c t r k) (blk1_apply V c t k d)

/-! ## The recursion, one step at a time -/

theorem outsAt1_succ_A (n : ℕ) (hn : n + 1 < cfg1.N) (g0 : (n + 1) % 32 = 0) (g1 : (n + 1) % 4 = 0) (g2 : ¬(n + 1) % 4 = 3) (g3 : ¬(n + 1) % 32 = 31) :
    outsAt1 V c (n + 1) hn = res1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) ((hcond1_0 ⟨n + 1, hn⟩).mpr g0) ((hcond1_1 ⟨n + 1, hn⟩).mpr g1) (fun h => g2 ((hcond1_2 ⟨n + 1, hn⟩).mp h)) (fun h => g3 ((hcond1_3 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) :=
  (dif_pos g0).trans rfl

theorem outsAt1_succ_B (n : ℕ) (hn : n + 1 < cfg1.N) (g0 : ¬(n + 1) % 32 = 0) (g1 : (n + 1) % 4 = 0) (g2 : ¬(n + 1) % 4 = 3) (g3 : ¬(n + 1) % 32 = 31) :
    outsAt1 V c (n + 1) hn = res1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => g0 ((hcond1_0 ⟨n + 1, hn⟩).mp h)) ((hcond1_1 ⟨n + 1, hn⟩).mpr g1) (fun h => g2 ((hcond1_2 ⟨n + 1, hn⟩).mp h)) (fun h => g3 ((hcond1_3 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 V c n (Nat.lt_of_succ_lt hn)) :=
  (dif_neg g0).trans ((dif_pos g1).trans rfl)

theorem outsAt1_succ_C (n : ℕ) (hn : n + 1 < cfg1.N) (g0 : ¬(n + 1) % 32 = 0) (g1 : ¬(n + 1) % 4 = 0) (g2 : ¬(n + 1) % 4 = 3) (g3 : ¬(n + 1) % 32 = 31) :
    outsAt1 V c (n + 1) hn = res1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => g0 ((hcond1_0 ⟨n + 1, hn⟩).mp h)) (fun h => g1 ((hcond1_1 ⟨n + 1, hn⟩).mp h)) (fun h => g2 ((hcond1_2 ⟨n + 1, hn⟩).mp h)) (fun h => g3 ((hcond1_3 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 V c n (Nat.lt_of_succ_lt hn)) :=
  (dif_neg g0).trans ((dif_neg g1).trans ((dif_neg g2).trans rfl))

theorem outsAt1_succ_D (n : ℕ) (hn : n + 1 < cfg1.N) (g0 : ¬(n + 1) % 32 = 0) (g1 : ¬(n + 1) % 4 = 0) (g2 : (n + 1) % 4 = 3) (g3 : ¬(n + 1) % 32 = 31) :
    outsAt1 V c (n + 1) hn = res1_D c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => g0 ((hcond1_0 ⟨n + 1, hn⟩).mp h)) (fun h => g1 ((hcond1_1 ⟨n + 1, hn⟩).mp h)) ((hcond1_2 ⟨n + 1, hn⟩).mpr g2) (fun h => g3 ((hcond1_3 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 V c n (Nat.lt_of_succ_lt hn)) :=
  (dif_neg g0).trans ((dif_neg g1).trans ((dif_pos g2).trans ((dif_neg g3).trans rfl)))

theorem outsAt1_succ_E (n : ℕ) (hn : n + 1 < cfg1.N) (g0 : ¬(n + 1) % 32 = 0) (g1 : ¬(n + 1) % 4 = 0) (g2 : (n + 1) % 4 = 3) (g3 : (n + 1) % 32 = 31) :
    outsAt1 V c (n + 1) hn = res1_E c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => g0 ((hcond1_0 ⟨n + 1, hn⟩).mp h)) (fun h => g1 ((hcond1_1 ⟨n + 1, hn⟩).mp h)) ((hcond1_2 ⟨n + 1, hn⟩).mpr g2) ((hcond1_3 ⟨n + 1, hn⟩).mpr g3) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 V c n (Nat.lt_of_succ_lt hn)) :=
  (dif_neg g0).trans ((dif_neg g1).trans ((dif_pos g2).trans ((dif_pos g3).trans rfl)))

/-! ## The layer's two accumulators -/

/-- After point n the layer's row sums and product hold the tiles 0 … n % 4 of layer n % 32 / 4 for row block n / 32. -/
theorem inv12 : ∀ (n : ℕ) (hn : n < cfg1.N),
    (∀ r : Fin 1024, (outsAt1 V c n hn).2.2.1 (ix2 r (0 : Fin 1))
        = ∑ j ∈ Finset.range (n % 4 + 1), KSpec.ksTile (xA V c) (wA V c) (bA V c) (n % 32 / 4) (KSpec.tix (n / 32) r) j)
    ∧ (∀ r d : Fin 1024, (outsAt1 V c n hn).2.2.2 (ix2 r d)
        = ∑ j ∈ Finset.range (n % 4 + 1), KSpec.ktermTile (xA V c) (wA V c) (bA V c) (n % 32 / 4) (KSpec.tix (n / 32) r) j d)
  | 0, hn => by
    have e : outsAt1 V c 0 hn = res1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) ((hcond1_0 ⟨0, hn⟩).mpr (Nat.zero_mod _)) ((hcond1_1 ⟨0, hn⟩).mpr (Nat.zero_mod _)) (fun h => (by decide : ¬ (0 : ℕ) % 4 = 3) ((hcond1_2 ⟨0, hn⟩).mp h)) (fun h => (by decide : ¬ (0 : ℕ) % 32 = 31) ((hcond1_3 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) := rfl
    rw [e, res1_A_eq]
    refine ⟨fun r => ?_, fun r d => ?_⟩
    · refine (s1Step_apply V c ⟨0, hn⟩ _ r).trans ?_
      rw [Pay.pay5_apply, zero_add]
      show _ = ∑ j ∈ Finset.range 1, _
      rw [Finset.sum_range_one]
      try rfl
    · refine (s2Step_apply V c ⟨0, hn⟩ _ r d).trans ?_
      rw [Pay.pay6_apply, zero_add]
      show _ = ∑ j ∈ Finset.range 1, _
      rw [Finset.sum_range_one]
      try rfl
  | n + 1, hn => by
    have ih := inv12 n (Nat.lt_of_succ_lt hn)
    have hN : n + 1 < 128 := lt_of_lt_of_eq hn (show cfg1.N = 128 from N_1)
    by_cases g1 : (n + 1) % 4 = 0
    · -- a layer begins: both accumulators restart from zero
      have hh : (n + 1) % 4 + 1 = 1 := by omega
      have g2 : ¬(n + 1) % 4 = 3 := by omega
      have g3 : ¬(n + 1) % 32 = 31 := by omega
      by_cases g0 : (n + 1) % 32 = 0
      · rw [outsAt1_succ_A V c n hn g0 g1 g2 g3, res1_A_eq, hh]
        refine ⟨fun r => ?_, fun r d => ?_⟩
        · refine (s1Step_apply V c ⟨n + 1, hn⟩ _ r).trans ?_
          rw [Pay.pay5_apply, zero_add, Finset.sum_range_one]
          show KSpec.ksTile _ _ _ ((n + 1) % 32 / 4) _ ((n + 1) % 4) = _
          rw [g1]
        · refine (s2Step_apply V c ⟨n + 1, hn⟩ _ r d).trans ?_
          rw [Pay.pay6_apply, zero_add, Finset.sum_range_one]
          show KSpec.ktermTile _ _ _ ((n + 1) % 32 / 4) _ ((n + 1) % 4) d = _
          rw [g1]
      · rw [outsAt1_succ_B V c n hn g0 g1 g2 g3, res1_B_eq, hh]
        refine ⟨fun r => ?_, fun r d => ?_⟩
        · refine (s1Step_apply V c ⟨n + 1, hn⟩ _ r).trans ?_
          rw [Pay.pay5_apply, zero_add, Finset.sum_range_one]
          show KSpec.ksTile _ _ _ ((n + 1) % 32 / 4) _ ((n + 1) % 4) = _
          rw [g1]
        · refine (s2Step_apply V c ⟨n + 1, hn⟩ _ r d).trans ?_
          rw [Pay.pay6_apply, zero_add, Finset.sum_range_one]
          show KSpec.ktermTile _ _ _ ((n + 1) % 32 / 4) _ ((n + 1) % 4) d = _
          rw [g1]
    · -- inside a layer: one more tile
      have g0 : ¬(n + 1) % 32 = 0 := by omega
      have e1 : (n + 1) / 32 = n / 32 := by omega
      have e2 : (n + 1) % 32 / 4 = n % 32 / 4 := by omega
      have e3 : (n + 1) % 4 = n % 4 + 1 := by omega
      have step1 : ∀ (s : Vec Ideal S1024x1 .f32) (r : Fin 1024), s (ix2 r (0 : Fin 1)) = (outsAt1 V c n (Nat.lt_of_succ_lt hn)).2.2.1 (ix2 r (0 : Fin 1)) →
          s1Step (F := Ideal) (grid1.coords ⟨n + 1, hn⟩) (iblk1 V c 2 ⟨n + 1, hn⟩) (iblk1 V c 3 ⟨n + 1, hn⟩) (iblk1 V c 4 ⟨n + 1, hn⟩) s (ix2 r (0 : Fin 1))
            = ∑ j ∈ Finset.range ((n + 1) % 4 + 1), KSpec.ksTile (xA V c) (wA V c) (bA V c) ((n + 1) % 32 / 4) (KSpec.tix ((n + 1) / 32) r) j := by
        intro s r hs
        refine (s1Step_apply V c ⟨n + 1, hn⟩ s r).trans ?_
        show s _ + KSpec.ksTile _ _ _ ((n + 1) % 32 / 4) (KSpec.tix ((n + 1) / 32) r) ((n + 1) % 4) = _
        rw [hs, ih.1 r, e1, e2, e3, Finset.sum_range_succ _ (n % 4 + 1)]
      have step2 : ∀ (s : Vec Ideal S1024x1024 .f32) (r d : Fin 1024), s (ix2 r d) = (outsAt1 V c n (Nat.lt_of_succ_lt hn)).2.2.2 (ix2 r d) →
          s2Step (F := Ideal) (grid1.coords ⟨n + 1, hn⟩) (iblk1 V c 2 ⟨n + 1, hn⟩) (iblk1 V c 3 ⟨n + 1, hn⟩) (iblk1 V c 4 ⟨n + 1, hn⟩) s (ix2 r d)
            = ∑ j ∈ Finset.range ((n + 1) % 4 + 1), KSpec.ktermTile (xA V c) (wA V c) (bA V c) ((n + 1) % 32 / 4) (KSpec.tix ((n + 1) / 32) r) j d := by
        intro s r d hs
        refine (s2Step_apply V c ⟨n + 1, hn⟩ s r d).trans ?_
        show s _ + KSpec.ktermTile _ _ _ ((n + 1) % 32 / 4) (KSpec.tix ((n + 1) / 32) r) ((n + 1) % 4) d = _
        rw [hs, ih.2 r d, e1, e2, e3, Finset.sum_range_succ _ (n % 4 + 1)]
      by_cases g2 : (n + 1) % 4 = 3
      · by_cases g3 : (n + 1) % 32 = 31
        · rw [outsAt1_succ_E V c n hn g0 g1 g2 g3, res1_E_eq]
          exact ⟨fun r => step1 _ r rfl, fun r d => step2 _ r d rfl⟩
        · rw [outsAt1_succ_D V c n hn g0 g1 g2 g3, res1_D_eq]
          exact ⟨fun r => step1 _ r rfl, fun r d => step2 _ r d rfl⟩
      · have g3 : ¬(n + 1) % 32 = 31 := by omega
        rw [outsAt1_succ_C V c n hn g0 g1 g2 g3, res1_C_eq]
        exact ⟨fun r => step1 _ r rfl, fun r d => step2 _ r d rfl⟩

/-! ## The output accumulator -/

/-- After point n the output accumulator holds the starting value plus the finished layers' products. -/
theorem inv0 : ∀ (n : ℕ) (hn : n < cfg1.N) (r d : Fin 1024),
    (outsAt1 V c n hn).2.1 (ix2 r d)
      = base1 V c (KSpec.tix (n / 32) r) d
        + ∑ l ∈ Finset.range ((n % 32 + 1) / 4), KSpec.ks (xA V c) (wA V c) (bA V c) l (KSpec.tix (n / 32) r) * KSpec.kterm (xA V c) (wA V c) (bA V c) l (KSpec.tix (n / 32) r) d
  | 0, hn, r, d => by
    have e : outsAt1 V c 0 hn = res1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) ((hcond1_0 ⟨0, hn⟩).mpr (Nat.zero_mod _)) ((hcond1_1 ⟨0, hn⟩).mpr (Nat.zero_mod _)) (fun h => (by decide : ¬ (0 : ℕ) % 4 = 3) ((hcond1_2 ⟨0, hn⟩).mp h)) (fun h => (by decide : ¬ (0 : ℕ) % 32 = 31) ((hcond1_3 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) := rfl
    rw [e, res1_A_eq]
    refine (base_apply V c ⟨0, hn⟩ r d).trans ?_
    rw [show ((0 : ℕ) % 32 + 1) / 4 = 0 from rfl, Finset.sum_range_zero, add_zero]
    exact congrArg (fun j => base1 V c (KSpec.tix j r) d) (Nat.zero_div 32)
  | n + 1, hn, r, d => by
    have ih := inv0 n (Nat.lt_of_succ_lt hn) r d
    have hN : n + 1 < 128 := lt_of_lt_of_eq hn (show cfg1.N = 128 from N_1)
    by_cases g0 : (n + 1) % 32 = 0
    · have g1 : (n + 1) % 4 = 0 := by omega
      have g2 : ¬(n + 1) % 4 = 3 := by omega
      have g3 : ¬(n + 1) % 32 = 31 := by omega
      rw [outsAt1_succ_A V c n hn g0 g1 g2 g3, res1_A_eq]
      refine (base_apply V c ⟨n + 1, hn⟩ r d).trans ?_
      rw [show ((n + 1) % 32 + 1) / 4 = 0 from by omega, Finset.sum_range_zero, add_zero]
    · have e1 : (n + 1) / 32 = n / 32 := by omega
      by_cases g2 : (n + 1) % 4 = 3
      · -- a layer ends: its product is added
        have g1 : ¬(n + 1) % 4 = 0 := by omega
        have ec : ((n + 1) % 32 + 1) / 4 = (n % 32 + 1) / 4 + 1 := by omega
        have el : (n + 1) % 32 / 4 = (n % 32 + 1) / 4 := by omega
        have e4 : (n + 1) % 4 + 1 = 4 := by omega
        have h12 := inv12 V c (n + 1) hn
        have key : ∀ (s0 : Vec Ideal S1024x1024 .f32) (s1 : Vec Ideal S1024x1 .f32) (s2 : Vec Ideal S1024x1024 .f32),
            s0 (ix2 r d) = (outsAt1 V c n (Nat.lt_of_succ_lt hn)).2.1 (ix2 r d) →
            s1 (ix2 r (0 : Fin 1)) = (outsAt1 V c (n + 1) hn).2.2.1 (ix2 r (0 : Fin 1)) →
            s2 (ix2 r d) = (outsAt1 V c (n + 1) hn).2.2.2 (ix2 r d) →
            k1_pay3 (F := Ideal) s0 s1 s2 (ix2 r d)
              = base1 V c (KSpec.tix ((n + 1) / 32) r) d
                + ∑ l ∈ Finset.range (((n + 1) % 32 + 1) / 4), KSpec.ks (xA V c) (wA V c) (bA V c) l (KSpec.tix ((n + 1) / 32) r) * KSpec.kterm (xA V c) (wA V c) (bA V c) l (KSpec.tix ((n + 1) / 32) r) d := by
          intro s0 s1 s2 h0 h1 h2
          refine (Pay.pay3_apply s0 s1 s2 r d).trans ?_
          rw [h0, h1, h2, ih, h12.1 r, h12.2 r d, e4, ec, e1, el]
          rw [Finset.sum_range_succ (fun l => KSpec.ks (xA V c) (wA V c) (bA V c) l (KSpec.tix (n / 32) r) * KSpec.kterm (xA V c) (wA V c) (bA V c) l (KSpec.tix (n / 32) r) d) ((n % 32 + 1) / 4), add_assoc]
          rfl
        by_cases g3 : (n + 1) % 32 = 31
        · have eE := outsAt1_succ_E V c n hn g0 g1 g2 g3
          rw [res1_E_eq] at eE
          rw [eE]
          refine key _ _ _ rfl ?_ ?_
          · rw [eE]
          · rw [eE]
        · have eD := outsAt1_succ_D V c n hn g0 g1 g2 g3
          rw [res1_D_eq] at eD
          rw [eD]
          refine key _ _ _ rfl ?_ ?_
          · rw [eD]
          · rw [eD]
      · -- the output accumulator is not touched
        have ec : ((n + 1) % 32 + 1) / 4 = (n % 32 + 1) / 4 := by omega
        by_cases g1 : (n + 1) % 4 = 0
        · have g3 : ¬(n + 1) % 32 = 31 := by omega
          rw [outsAt1_succ_B V c n hn g0 g1 g2 g3, res1_B_eq]
          show (outsAt1 V c n _).2.1 (ix2 r d) = _
          rw [ih, e1, ec]
        · have g3 : ¬(n + 1) % 32 = 31 := by omega
          rw [outsAt1_succ_C V c n hn g0 g1 g2 g3, res1_C_eq]
          show (outsAt1 V c n _).2.1 (ix2 r d) = _
          rw [ih, e1, ec]

/-- At the last point of a row block the output block's staging buffer holds the output accumulator. -/
theorem out_eq_acc (n : ℕ) (hn : n < cfg1.N) (g3 : n % 32 = 31) : (outsAt1 V c n hn).1 = (outsAt1 V c n hn).2.1 := by
  cases n with
  | zero => exact absurd g3 (by decide)
  | succ n =>
    have hN : n + 1 < 128 := lt_of_lt_of_eq hn (show cfg1.N = 128 from N_1)
    rw [outsAt1_succ_E V c n hn (by omega) (by omega) (by omega) g3, res1_E_eq]

end

end Cert.KernelIdeal.Hand

end
-- ==== Proof.K1Final.lean ====
/-
  The second kernel region's final array over the extended reals.

  The region's 128 points are t = 32·b + 4·l + h: row block b of 1024 rows, layer l, hidden tile h. The output
  accumulator of row block b starts at a(d) + Σ_k x(row, k) · G(k, d) and gains layer l's product s_l(row) · T_l(row, d)
  when the layer's last tile is done; after the last point of the row block (t % 32 = 31) all eight layers are in, and
  the block is written back to rows 1024·b … 1024·b + 1023 of the output array. The four written blocks tile the
  array, so the array ends at
      result(row, d) = (a(d) + Σ_k x(row, k) · G(k, d)) + Σ_{l < 8} s_l(row) · T_l(row, d).
-/
import proofs.«102676_j85581518340279_1_alg».proof.Proof.K1Value
import proofs.«102676_j85581518340279_1_alg».proof.Proof.KSpec
import Idealize.ShloMosaic.Lib.Pipeline.Value
import Idealize.ShloMosaic.Lib.ValueIdx
import Idealize.ShloMosaic.Lib.Tactic

set_option maxRecDepth 16384

noncomputable section

namespace Cert.KernelIdeal.Hand

open Idealize.ShloMosaic Idealize.ShloMosaic.TcCoe Idealize.ShloMosaic.Tactic
open Idealize.SL.Sem
open Idealize.ShloMosaic.Pipeline (Dat Cfg Window)
open Idealize.ShloMosaic.ValueIdx
open Cert.KernelIdeal Cert.KernelIdeal.Gen
open scoped BigOperators

section
variable (V : (c : Dev nD) → (b : Ref sig .tc) → Buf (Elt Ideal) ((c : Thread nD τ).loc b))

/-! ## The result -/

/-- The kernel's result at (b, d): the starting value plus the eight layers' products. -/
def result1 (c : Dev nD) : Buf (Elt Ideal) ((c : Thread nD τ).loc main_v5) := fun i =>
  base1 V c (i 0) (i 1)
    + ∑ l ∈ Finset.range 8, KSpec.ks (xA V c) (wA V c) (bA V c) l (i 0) * KSpec.kterm (xA V c) (wA V c) (bA V c) l (i 0) (i 1)

/-! ## The write-backs -/

/-- A row block is written back at its last point (all eight layers finished): element (r, d) of the block written at
    point t is the result at row 1024·(t / 32) + r, column d. -/
theorem flushed1_eq (c : Dev nD) (t : Fin cfg1.N) (hf : (cfg1.win 5).flush t = true) :
    (dat1 (F := Ideal) V c).flushed 5 t = ((cfg1.win 5).blk t).view.read (Elt Ideal) (result1 V c) := by
  have hN : t.val < 128 := lt_of_lt_of_eq t.isLt (show cfg1.N = 128 from N_1)
  have h31 : t.val % 32 = 31 := (flush1_5 t).mp hf
  show (cfg1.win 5).cut (grid1.coords t) ((dat1 (F := Ideal) V c).after 5 t) = _
  rw [after1_5, out_eq_acc V c t.val t.isLt h31]
  funext y
  obtain ⟨r, d, rfl⟩ : ∃ r d : Fin 1024, y = ix2 r d := ⟨y 0, y 1, eq_ix2 y⟩
  show (outsAt1 (F := Ideal) V c t.val t.isLt).2.1 (ix2 r d) = _
  refine (inv0 V c t.val t.isLt r d).trans ?_
  rw [show (t.val % 32 + 1) / 4 = 8 from by omega, View.read_apply]
  show _ = result1 V c (((cfg1.win 5).blk t).view.emb (ix2 r d : S1024x1024.Idx))
  exact (congrArg (result1 V c) (out5_emb t r d)).symm

/-! ## The final array -/

/-- The output's block sizes are not cut at any point. -/
theorem xsize1_5 : ∀ t : Fin cfg1.N, win1_5.xsize (grid1.coords t) (0 : Fin 2) = 1024 ∧ win1_5.xsize (grid1.coords t) (1 : Fin 2) = 1024 :=
  (by decide +kernel : ∀ t : Fin grid1.N, win1_5.xsize (grid1.coords t) (0 : Fin 2) = 1024 ∧ win1_5.xsize (grid1.coords t) (1 : Fin 2) = 1024)

/-- Every element of the output array is in the block written back at the last point of its row block. -/
theorem cover1_5 (i : S4096x1024.Idx) :
    ∃ t : Fin cfg1.N, (cfg1.win 5).flush t = true ∧ i ∈ ((cfg1.win 5).blk t).view.set := by
  have h0 : (i 0).val < 4096 := idx2_lt0 i
  have h1 : (i 1).val < 1024 := idx2_lt1 i
  have hN : cfg1.N = 128 := N_1
  have ht : 32 * ((i 0).val / 1024) + 31 < cfg1.N := by rw [hN]; omega
  refine ⟨⟨32 * ((i 0).val / 1024) + 31, ht⟩, (flush1_5 _).mpr (by show (32 * ((i 0).val / 1024) + 31) % 32 = 31; omega), ?_⟩
  show i ∈ ((View.whole main_v5).slice (win1_5.rect ⟨32 * ((i 0).val / 1024) + 31, ht⟩)).set
  rw [View.set_slice_whole, Rect.mem_set_unit]
  intro a
  have hi := idx1_5 ⟨32 * ((i 0).val / 1024) + 31, ht⟩
  have hx := xsize1_5 ⟨32 * ((i 0).val / 1024) + 31, ht⟩
  match a with
  | ⟨0, _⟩ =>
    show win1_5.index ⟨32 * ((i 0).val / 1024) + 31, ht⟩ 0 * 1024 ≤ (i 0 : Nat) ∧ (i 0 : Nat) < win1_5.index ⟨32 * ((i 0).val / 1024) + 31, ht⟩ 0 * 1024 + win1_5.xsize (grid1.coords ⟨32 * ((i 0).val / 1024) + 31, ht⟩) 0
    rw [hi.1, hx.1]
    show (32 * ((i 0).val / 1024) + 31) / 32 * 1024 ≤ (i 0).val ∧ (i 0).val < (32 * ((i 0).val / 1024) + 31) / 32 * 1024 + 1024
    omega
  | ⟨1, _⟩ =>
    show win1_5.index ⟨32 * ((i 0).val / 1024) + 31, ht⟩ 1 * 1024 ≤ (i 1 : Nat) ∧ (i 1 : Nat) < win1_5.index ⟨32 * ((i 0).val / 1024) + 31, ht⟩ 1 * 1024 + win1_5.xsize (grid1.coords ⟨32 * ((i 0).val / 1024) + 31, ht⟩) 1
    rw [hi.2, hx.2]
    omega

/-- The output array ends at the result. -/
theorem final1 (c : Dev nD) : (dat1 (F := Ideal) V c).arrAt 5 cfg1.N = result1 V c :=
  (dat1 (F := Ideal) V c).arrAt_eq_of_cover 5 (result1 V c) (flushed1_eq V c) cover1_5

end

end Cert.KernelIdeal.Hand

end
-- ==== Proof.HostVals.lean ====
/-
  What the host operations leave in the buffers the two regions read, element by element, at the extended reals.

  Before the first region four host operations run: three changes of float format (of x, of Wk and of V) and a reshape
  of the bias row a from [1024] to [1, 1024]. On the extended reals a change of float format is the identity, and a
  reshape that adds a leading unit axis reads, at (0, d), the operand at d. So the first region's input array is V; and,
  the first region writing only its own output array, the second region finds x, Wk and the bias row where the host
  operations put them, the array bk as it was launched (no host operation writes it), and the first region's output
  array at what that region's write-backs leave.
-/
import proofs.«102676_j85581518340279_1_alg».proof.Proof.Run
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal

set_option maxRecDepth 16384

noncomputable section

namespace Cert.KernelIdeal.Hand

open Idealize.ShloMosaic Idealize.ShloMosaic.TcCoe Idealize.SL.Sem
open Cert.KernelIdeal Cert.KernelIdeal.Gen Idealize.ShloMosaic.ValueIdx

variable (m : (ℓ : Loc nD τ sig) → Buf (Elt Ideal) ℓ) (ρ : Dev nD → PrngReg) (c : Dev nD)

/-! ## After the host operations: each written buffer as the operation's value of the launch contents -/

/-- The first operation's buffer holds x with its float format changed. -/
theorem W1_main_v0 : W1 m ρ c (Proc.devRef .tc main_v0)
    = truncf (F := Ideal) (s := S4096x1024) (φ := .f32) .bf16 (m ((c : Thread nD τ).loc main_arg0))
        (show FTy.bits .bf16 < FTy.bits .f32 by decide) := by
  dsimp only [W1, hostOps0]; after_results <;> rfl

/-- The second operation's buffer holds Wk with its float format changed. -/
theorem W1_main_v1 : W1 m ρ c (Proc.devRef .tc main_v1)
    = truncf (F := Ideal) (s := S8x4096x1024) (φ := .f32) .bf16 (m ((c : Thread nD τ).loc main_arg1))
        (show FTy.bits .bf16 < FTy.bits .f32 by decide) := by
  dsimp only [W1, hostOps0]; after_results <;> rfl

/-- The third operation's buffer holds V with its float format changed. -/
theorem W1_main_v2 : W1 m ρ c (Proc.devRef .tc main_v2)
    = truncf (F := Ideal) (s := S4096x1024) (φ := .f32) .bf16 (m ((c : Thread nD τ).loc main_arg3))
        (show FTy.bits .bf16 < FTy.bits .f32 by decide) := by
  dsimp only [W1, hostOps0]; after_results <;> rfl

/-- The fourth operation's buffer holds the bias row a viewed as a [1, 1024] array. -/
theorem W1_main_v3 : W1 m ρ c (Proc.devRef .tc main_v3)
    = shapeCast (s := S1024) (α := EReal) S1x1024 (m ((c : Thread nD τ).loc main_arg4))
        (show S1024.ShapeCasts S1x1024 by decide) := by
  dsimp only [W1, hostOps0]; after_results <;> rfl

/-- No host operation writes bk's buffer: it is as launched. -/
theorem W1_main_arg2 : W1 m ρ c (Proc.devRef .tc main_arg2) = m ((c : Thread nD τ).loc main_arg2) :=
  calc W1 m ρ c (Proc.devRef .tc main_arg2)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-! ## The buffers the regions read, element by element -/

/-- The first region's input array is V. -/
theorem v2_at (h : Fin 4096) (k : Fin 1024) :
    V1 m ρ c main_v2 (ix2 h k) = m ((c : Thread nD τ).loc main_arg3) (ix2 h k) :=
  congrFun (W1_main_v2 m ρ c) (ix2 h k)

/-- The second region finds x in the first operation's buffer. -/
theorem v0_at (b : Fin 4096) (k : Fin 1024) :
    V2 m ρ c main_v0 (ix2 b k) = m ((c : Thread nD τ).loc main_arg0) (ix2 b k) :=
  congrFun ((W2_of_ne m ρ c main_v0 (by decide)).trans (W1_main_v0 m ρ c)) (ix2 b k)

/-- The second region finds Wk in the second operation's buffer. -/
theorem v1_at (l : Fin 8) (h : Fin 4096) (d : Fin 1024) :
    V2 m ρ c main_v1 (ix3 l h d) = m ((c : Thread nD τ).loc main_arg1) (ix3 l h d) :=
  congrFun ((W2_of_ne m ρ c main_v1 (by decide)).trans (W1_main_v1 m ρ c)) (ix3 l h d)

/-- The second region finds the bias row, at (0, d), in the fourth operation's buffer. -/
theorem v3_at (d : Fin 1024) :
    V2 m ρ c main_v3 (ix2 (0 : Fin 1) d) = m ((c : Thread nD τ).loc main_arg4) (ix1 d) :=
  (congrFun ((W2_of_ne m ρ c main_v3 (by decide)).trans (W1_main_v3 m ρ c)) (ix2 (0 : Fin 1) d)).trans
    (shapeCast_a_1a_apply (a := 1024) (α := EReal) (m ((c : Thread nD τ).loc main_arg4))
      (show S1024.ShapeCasts S1x1024 by decide) 0 d)

/-- The second region finds bk as launched. -/
theorem arg2_at (l : Fin 8) (h : Fin 4096) :
    V2 m ρ c main_arg2 (ix2 l h) = m ((c : Thread nD τ).loc main_arg2) (ix2 l h) :=
  congrFun ((W2_of_ne m ρ c main_arg2 (by decide)).trans (W1_main_arg2 m ρ c)) (ix2 l h)

/-- The second region finds the first region's output array at what that region's write-backs leave. -/
theorem v4_eq : V2 m ρ c main_v4 = (dat0 (V1 m ρ) c).arrAt 1 cfg0.N :=
  W2_arr m ρ c 1

end Cert.KernelIdeal.Hand

end
-- ==== Proof.RefValue.lean ====
/-
  The reference program's result at the extended reals, INDEX BY INDEX.

  With x : [4096, 1024], Wk : [8, 4096, 1024], bk : [8, 4096], V : [4096, 1024], a : [1024] the reference computes

    Vsq(k, d)     = ∑ h, V(h, k) · V(h, d)
    base(b, d)    = a(d) + ∑ k, x(b, k) · Vsq(k, d)
    Z(l, b, h)    = (∑ d, Wk(l, h, d) · x(b, d)) + bk(l, h)
    lc(z)         = (if z − (−z) ≠ z − (−z) then z + (−z) else max(z, −z) + log1p(exp(−|z − (−z)|))) − c,
                    c the real that the word 0x3F317218 denotes (kept as that word)
    s(l, b)       = 0 + ∑ h, lc(Z(l, b, h))
    term(l, b, d) = ∑ h, tanh(Z(l, b, h)) · Wk(l, h, d)
    out(b, d)     = base(b, d) + (0 + ∑ l, s(l, b) · term(l, b, d))

  Each piece below is one of these lines, with the operand order of every product and the leading zero of every
  float sum exactly as the reference's operations give them, so reading the reference as these formulas uses no
  algebraic law. The "≠" branch of lc is never
  taken on the extended reals (u ≠ u is false); it is kept because the reference has it.
-/
import proofs.«102676_j85581518340279_1_alg».proof.Proof.Gen.ReferenceIdeal.Read

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.ValueIdx

/-! ## The specification, piece by piece -/

/-- Vsq(k, d) = ∑ h, V(h, k) · V(h, d): the Gram matrix of V's columns (the transpose of V times V). -/
def vsq (V : FVec Ideal S4096x1024 .f32) (k d : Fin 1024) : EReal :=
  ∑ h : Fin 4096, V (ix2 h k) * V (ix2 h d)

/-- base(b, d) = a(d) + ∑ k, x(b, k) · Vsq(k, d): the bias row plus x times the Gram matrix. -/
def base (x V : FVec Ideal S4096x1024 .f32) (a : FVec Ideal S1024 .f32) (b : Fin 4096) (d : Fin 1024) : EReal :=
  a (ix1 d) + ∑ k : Fin 1024, x (ix2 b k) * vsq V k d

/-- Z(l, b, h) = (∑ d, Wk(l, h, d) · x(b, d)) + bk(l, h): layer l's pre-activation of row b at hidden unit h. -/
def zval (x : FVec Ideal S4096x1024 .f32) (Wk : FVec Ideal S8x4096x1024 .f32) (bk : FVec Ideal S8x4096 .f32)
    (l : Fin 8) (b h : Fin 4096) : EReal :=
  (∑ d : Fin 1024, Wk (ix3 l h d) * x (ix2 b d)) + bk (ix2 l h)

/-- lc(z): with u = z − (−z), the select on "u ≠ u" between z + (−z) and max(z, −z) + log1p(exp(−|u|)), minus the
    constant the word 0x3F317218 denotes; |u| is written max u (−u), which is the ideal instance's absolute value. -/
def lc (z : EReal) : EReal :=
  Scalar.select (Ideal.cmp .une (z - -z) (z - -z)) (z + -z)
      (max z (-z) + Ideal.log1p (Ideal.exp (-(max (z - -z) (-(z - -z))))))
    - Ideal.ofBits .f32 0x3F317218#32

/-- s(l, b) = 0 + ∑ h, lc(Z(l, b, h)): the float sum over the hidden axis, from the initial value zero. -/
def sval (x : FVec Ideal S4096x1024 .f32) (Wk : FVec Ideal S8x4096x1024 .f32) (bk : FVec Ideal S8x4096 .f32)
    (l : Fin 8) (b : Fin 4096) : EReal :=
  0 + ∑ h : Fin 4096, lc (zval x Wk bk l b h)

/-- term(l, b, d) = ∑ h, tanh(Z(l, b, h)) · Wk(l, h, d). -/
def termval (x : FVec Ideal S4096x1024 .f32) (Wk : FVec Ideal S8x4096x1024 .f32) (bk : FVec Ideal S8x4096 .f32)
    (l : Fin 8) (b : Fin 4096) (d : Fin 1024) : EReal :=
  ∑ h : Fin 4096, Ideal.tanh (zval x Wk bk l b h) * Wk (ix3 l h d)

/-- out(b, d) = base(b, d) + (0 + ∑ l, s(l, b) · term(l, b, d)). -/
def outval (x : FVec Ideal S4096x1024 .f32) (Wk : FVec Ideal S8x4096x1024 .f32) (bk : FVec Ideal S8x4096 .f32)
    (V : FVec Ideal S4096x1024 .f32) (a : FVec Ideal S1024 .f32) (b : Fin 4096) (d : Fin 1024) : EReal :=
  base x V a b d + (0 + ∑ l : Fin 8, sval x Wk bk l b * termval x Wk bk l b d)

/-- The reference's result array: out at the two coordinates of each index. -/
def spec (x : FVec Ideal S4096x1024 .f32) (Wk : FVec Ideal S8x4096x1024 .f32) (bk : FVec Ideal S8x4096 .f32)
    (V : FVec Ideal S4096x1024 .f32) (a : FVec Ideal S1024 .f32) : FVec Ideal S4096x1024 .f32 :=
  fun i => outval x Wk bk V a (i 0) (i 1)

/-- The specification at the index with coordinates (b, d). -/
theorem spec_apply (x : FVec Ideal S4096x1024 .f32) (Wk : FVec Ideal S8x4096x1024 .f32) (bk : FVec Ideal S8x4096 .f32)
    (V : FVec Ideal S4096x1024 .f32) (a : FVec Ideal S1024 .f32) (b : Fin 4096) (d : Fin 1024) :
    spec x Wk bk V a (ix2 b d) = outval x Wk bk V a b d := rfl

/-! ## The reference's operations read at an index

One lemma per group of operations. Each reads the group's last stage at an index given by coordinates, identifies the
index functions of the operations with the coordinates, and ends at the matching piece of the specification. -/

section Stages

open Cert.ReferenceIdeal.Read

/-- The ideal instance's absolute value is max u (−u). -/
theorem absf_eq (u : EReal) : FloatOps.absf (F := Ideal) (φ := .f32) u = max u (-u) := rfl
/-- The ideal instance's comparison is the linear order's. -/
theorem cmpf_eq (p : CmpFPredicate) (u v : EReal) : FloatOps.cmpf (F := Ideal) (φ := .f32) p u v = Ideal.cmp p u v := rfl

variable (x : FVec Ideal S4096x1024 .f32) (Wk : FVec Ideal S8x4096x1024 .f32) (bk : FVec Ideal S8x4096 .f32)
  (V : FVec Ideal S4096x1024 .f32) (a : FVec Ideal S1024 .f32)

/-- The transpose and the first product: element (k, d) is Vsq(k, d). -/
theorem vsq_at (k d : Fin 1024) : val_main_v1 (F := Ideal) V (ix2 k d) = vsq V k d := by
  have e0 : ∀ h : Fin 4096, idx_main_v0 (lidx_main_v1 (ix2 k d) h) = ix2 h k := fun h =>
    funext fun c => Fin.ext (by match c with | ⟨0, _⟩ => rfl | ⟨1, _⟩ => rfl)
  have e1 : ∀ h : Fin 4096, ridx_main_v1 (ix2 k d) h = ix2 h d := fun h =>
    funext fun c => Fin.ext (by match c with | ⟨0, _⟩ => rfl | ⟨1, _⟩ => rfl)
  rw [val_main_v1_apply]
  simp only [val_main_v0_apply, e0, e1]
  rfl

/-- The second product, the broadcast bias row and their sum: element (b, d) is base(b, d). -/
theorem base_at (b : Fin 4096) (d : Fin 1024) : val_main_v5 (F := Ideal) x V a (ix2 b d) = base x V a b d := by
  have e2 : idx_main_v2 (idx_main_v4 (ix2 b d)) = ix1 d :=
    funext fun c => Fin.ext (by match c with | ⟨0, _⟩ => rfl)
  have el : ∀ k : Fin 1024, lidx_main_v3 (ix2 b d) k = ix2 b k := fun k =>
    funext fun c => Fin.ext (by match c with | ⟨0, _⟩ => rfl | ⟨1, _⟩ => rfl)
  have er : ∀ k : Fin 1024, ridx_main_v3 (ix2 b d) k = ix2 k d := fun k =>
    funext fun c => Fin.ext (by match c with | ⟨0, _⟩ => rfl | ⟨1, _⟩ => rfl)
  rw [val_main_v5_apply, val_main_v4_apply, val_main_v2_apply, val_main_v3_apply, e2]
  simp only [el, er, vsq_at, Ideal.addf_def]
  rfl

/-- The third product, its transpose, the broadcast bias and their sum: element (l, b, h) is Z(l, b, h). -/
theorem z_at (l : Fin 8) (b h : Fin 4096) : val_main_v10 (F := Ideal) x Wk bk (ix3 l b h) = zval x Wk bk l b h := by
  have e8 : idx_main_v8 (idx_main_v9 (ix3 l b h)) = ix2 l h :=
    funext fun c => Fin.ext (by match c with | ⟨0, _⟩ => rfl | ⟨1, _⟩ => rfl)
  have el : ∀ d : Fin 1024, lidx_main_v6 (idx_main_v7 (ix3 l b h)) d = ix3 l h d := fun d =>
    funext fun c => Fin.ext (by match c with | ⟨0, _⟩ => rfl | ⟨1, _⟩ => rfl | ⟨2, _⟩ => rfl)
  have er : ∀ d : Fin 1024, ridx_main_v6 (idx_main_v7 (ix3 l b h)) d = ix2 b d := fun d =>
    funext fun c => Fin.ext (by match c with | ⟨0, _⟩ => rfl | ⟨1, _⟩ => rfl)
  rw [val_main_v10_apply, val_main_v7_apply, val_main_v6_apply, val_main_v9_apply, val_main_v8_apply, e8]
  simp only [el, er, Ideal.addf_def]
  rfl

/-- The elementwise chain from the negation to the subtraction of the constant: element (l, b, h) is lc(Z(l, b, h)). -/
theorem lc_at (l : Fin 8) (b h : Fin 4096) :
    val_main_v23 (F := Ideal) x Wk bk (ix3 l b h) = lc (zval x Wk bk l b h) := by
  rw [val_main_v23_apply, val_main_v22_apply, val_main_cst_apply, val_main_v21_apply, val_main_v14_apply,
    val_main_v15_apply, val_main_v20_apply, val_main_v12_apply, val_main_v19_apply, val_main_v18_apply,
    val_main_v17_apply, val_main_v16_apply, val_main_v13_apply, val_main_v11_apply, z_at]
  simp only [Ideal.subf_def, Ideal.addf_def, Ideal.maximumf_def, Ideal.hostNegf_def, Ideal.negf_def,
    Ideal.hostAbsf_def, absf_eq, cmpf_eq, Ideal.hostUnary_exp_def, Ideal.hostUnary_log1p_def, Ideal.ofBits_def]
  rfl

/-- The float sum over the hidden axis: element (l, b) is s(l, b). -/
theorem s_at (l : Fin 8) (b : Fin 4096) : val_main_v24 (F := Ideal) x Wk bk (ix2 l b) = sval x Wk bk l b := by
  have e : ∀ h : Fin 4096, idx_main_v24 (ix2 l b) h = ix3 l b h := fun h =>
    funext fun c => Fin.ext (by match c with | ⟨0, _⟩ => rfl | ⟨1, _⟩ => rfl | ⟨2, _⟩ => rfl)
  rw [val_main_v24_apply, val_main_cst_0_apply, Ideal.ofBits_def, Ideal.ofBits_zero_f32]
  simp only [e, lc_at]
  rfl

/-- The hyperbolic tangent and the batched product: element (l, b, d) is term(l, b, d). -/
theorem term_at (l : Fin 8) (b : Fin 4096) (d : Fin 1024) :
    val_main_v26 (F := Ideal) x Wk bk (ix3 l b d) = termval x Wk bk l b d := by
  have el : ∀ h : Fin 4096, lidx_main_v26 (ix3 l b d) h = ix3 l b h := fun h =>
    funext fun c => Fin.ext (by match c with | ⟨0, _⟩ => rfl | ⟨1, _⟩ => rfl | ⟨2, _⟩ => rfl)
  have er : ∀ h : Fin 4096, ridx_main_v26 (ix3 l b d) h = ix3 l h d := fun h =>
    funext fun c => Fin.ext (by match c with | ⟨0, _⟩ => rfl | ⟨1, _⟩ => rfl | ⟨2, _⟩ => rfl)
  rw [val_main_v26_apply]
  simp only [val_main_v25_apply, el, er, z_at, Ideal.hostUnary_tanh_def]
  rfl

/-- The two broadcasts of s, the product with term and the float sum over the layers: element (b, d) is
    0 + ∑ l, s(l, b) · term(l, b, d). -/
theorem layers_at (b : Fin 4096) (d : Fin 1024) :
    val_main_v30 (F := Ideal) x Wk bk (ix2 b d) = 0 + ∑ l : Fin 8, sval x Wk bk l b * termval x Wk bk l b d := by
  have e : ∀ l : Fin 8, idx_main_v30 (ix2 b d) l = ix3 l b d := fun l =>
    funext fun c => Fin.ext (by match c with | ⟨0, _⟩ => rfl | ⟨1, _⟩ => rfl | ⟨2, _⟩ => rfl)
  have es : ∀ l : Fin 8, idx_main_v27 (idx_main_v28 (ix3 l b d)) = ix2 l b := fun l =>
    funext fun c => Fin.ext (by match c with | ⟨0, _⟩ => rfl | ⟨1, _⟩ => rfl)
  rw [val_main_v30_apply, val_main_cst_1_apply, Ideal.ofBits_def, Ideal.ofBits_zero_f32]
  simp only [e, val_main_v29_apply, val_main_v28_apply, val_main_v27_apply, es, s_at, term_at, Ideal.mulf_def]

end Stages

/-! ## The reference's result is the specification -/

/-- The reference's last stage, as a function of the five argument arrays, is the specification. -/
theorem ref_eq (x : FVec Ideal S4096x1024 .f32) (Wk : FVec Ideal S8x4096x1024 .f32) (bk : FVec Ideal S8x4096 .f32)
    (V : FVec Ideal S4096x1024 .f32) (a : FVec Ideal S1024 .f32) :
    Read.val_main_v31 (F := Ideal) x Wk bk V a = spec x Wk bk V a := by
  funext i
  obtain ⟨b, d, rfl⟩ : ∃ (b : Fin 4096) (d : Fin 1024), i = ix2 b d := ⟨i 0, i 1, eq_ix2 i⟩
  rw [Read.val_main_v31_apply, base_at, layers_at, Ideal.addf_def, spec_apply]
  rfl

/-- The same for the run's result term: after the reference's run, its result buffer holds the specification of the
    five argument buffers' launch contents. -/
theorem res_eq (m : (ℓ : Loc nD τ sig) → Buf (Elt Ideal) ℓ) (c : Dev nD) :
    Cert.ReferenceIdeal.Value.res_main_v31 m c
      = spec (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) :=
  (Read.val_main_v31_eq m c).trans (ref_eq _ _ _ _ _)

end Cert.ReferenceIdeal.RefValue

end
-- ==== Proof.Bridge.lean ====
/-
  The kernel's closed form and the reference's specification are one function of the five arrays.

  The kernel's form sums the hidden axis and V's row axis tile by tile (four tiles of 1024, row i of tile j being
  1024·j + i) and the layer axis over the naturals below 8; the reference's sums each axis at once. The two agree by
  re-indexing finite sums in a commutative monoid (the pairs (j, i) with j < 4, i < 1024 are the numbers below 4096),
  by the commutativity of the product inside the pre-activation, by 0 − z = −z, by 0 + s = s, and because the "ordered
  and not equal" and "unordered or not equal" comparisons are the same function on a linear order. No law that fails
  at an infinity (distributivity, cancellation) is used, so nothing is assumed about the arrays.
-/
import proofs.«102676_j85581518340279_1_alg».proof.Proof.KSpec
import proofs.«102676_j85581518340279_1_alg».proof.Proof.RefValue

noncomputable section

open scoped BigOperators

namespace Cert.Bridge

open Idealize.ShloMosaic Idealize.ShloMosaic.ValueIdx
open Cert.ReferenceIdeal Cert.KernelIdeal.KSpec Cert.ReferenceIdeal.RefValue

/-! ## Re-indexing the sums -/

/-- The pairs (tile, row in the tile) are the rows: (j, i) ↦ 1024·j + i, with inverse h ↦ (h / 1024, h % 1024). -/
def tileEquiv : Fin 4 × Fin 1024 ≃ Fin 4096 where
  toFun p := ⟨1024 * p.1.val + p.2.val, by have h1 := p.1.isLt; have h2 := p.2.isLt; omega⟩
  invFun h := (⟨h.val / 1024, by have h0 := h.isLt; omega⟩, ⟨h.val % 1024, Nat.mod_lt _ (by decide)⟩)
  left_inv p := by
    have h1 := p.1.isLt; have h2 := p.2.isLt
    refine Prod.ext (Fin.ext ?_) (Fin.ext ?_)
    · show (1024 * p.1.val + p.2.val) / 1024 = p.1.val
      omega
    · show (1024 * p.1.val + p.2.val) % 1024 = p.2.val
      omega
  right_inv h := by
    refine Fin.ext ?_
    show 1024 * (h.val / 1024) + h.val % 1024 = h.val
    omega

/-- A sum over the four tiles of the sums over a tile's rows is the sum over all rows. -/
theorem sum_tiles {M : Type*} [AddCommMonoid M] (f : Fin 4096 → M) :
    ∑ j ∈ Finset.range 4, ∑ i : Fin 1024, f (tix j i) = ∑ h : Fin 4096, f h :=
  calc ∑ j ∈ Finset.range 4, ∑ i : Fin 1024, f (tix j i)
      = ∑ j : Fin 4, ∑ i : Fin 1024, f (tix j.val i) := Finset.sum_range fun j => ∑ i : Fin 1024, f (tix j i)
    _ = ∑ p : Fin 4 × Fin 1024, f (tix p.1.val p.2) :=
        (Fintype.sum_prod_type' fun (j : Fin 4) (i : Fin 1024) => f (tix j.val i)).symm
    _ = ∑ h : Fin 4096, f h :=
        Fintype.sum_equiv tileEquiv _ _ fun p => congrArg f (Fin.ext (by
          have h1 := p.1.isLt; have h2 := p.2.isLt
          show (1024 * p.1.val + p.2.val) % 4096 = 1024 * p.1.val + p.2.val
          exact Nat.mod_eq_of_lt (by omega)))

/-- A sum over the naturals below 8, read through the layer index, is the sum over the layer axis. -/
theorem sum_layers {M : Type*} [AddCommMonoid M] (g : Fin 8 → M) :
    ∑ l ∈ Finset.range 8, g (lix l) = ∑ l : Fin 8, g l := by
  rw [Finset.sum_range fun l => g (lix l)]
  exact Finset.sum_congr rfl fun l _ => congrArg g (Fin.ext (Nat.mod_eq_of_lt l.isLt))

/-! ## The pieces, one by one -/

/-- On a linear order "ordered and not equal" and "unordered or not equal" are both "not equal". -/
theorem cmp_one_eq_une (u v : EReal) : Ideal.cmp .one u v = Ideal.cmp .une u v := rfl

/-- log cosh as the kernel spells it is lc: 0 − z is −z. -/
theorem klc_eq (z : EReal) : klc z = lc z := by
  unfold klc lc
  simp only [zero_sub, cmp_one_eq_une]

variable (x : FVec Ideal S4096x1024 .f32) (Wk : FVec Ideal S8x4096x1024 .f32) (bk : FVec Ideal S8x4096 .f32)
  (V : FVec Ideal S4096x1024 .f32) (a : FVec Ideal S1024 .f32)

/-- The kernel's pre-activation at column q of tile j is Z at that hidden unit: the product commutes. -/
theorem kz_eq (l : ℕ) (b : Fin 4096) (j : ℕ) (q : Fin 1024) :
    kz x Wk bk l b j q = zval x Wk bk (lix l) b (tix j q) := by
  unfold kz zval
  exact congrArg (· + bk (ix2 (lix l) (tix j q))) (Finset.sum_congr rfl fun d _ => mul_comm _ _)

/-- The Gram matrix summed tile by tile is Vsq. -/
theorem gram_eq (k d : Fin 1024) : gram V k d = vsq V k d := by
  unfold gram gramTile vsq
  exact sum_tiles fun h => V (ix2 h k) * V (ix2 h d)

/-- The accumulator's starting value is base. -/
theorem kbase_eq (b : Fin 4096) (d : Fin 1024) : kbase x V a b d = base x V a b d := by
  unfold kbase base
  simp only [gram_eq]

/-- The layer's row sums, tile by tile, are s (whose leading zero adds nothing). -/
theorem ks_eq (l : ℕ) (b : Fin 4096) : ks x Wk bk l b = sval x Wk bk (lix l) b := by
  unfold ks ksTile sval
  simp only [kz_eq, klc_eq]
  rw [zero_add]
  exact sum_tiles fun h => lc (zval x Wk bk (lix l) b h)

/-- The layer's product, tile by tile, is term. -/
theorem kterm_eq (l : ℕ) (b : Fin 4096) (d : Fin 1024) : kterm x Wk bk l b d = termval x Wk bk (lix l) b d := by
  unfold kterm ktermTile termval
  simp only [kz_eq]
  exact sum_tiles fun h => Ideal.tanh (zval x Wk bk (lix l) b h) * Wk (ix3 (lix l) h d)

/-! ## The result -/

/-- The kernel's closed form at (b, d) is the reference's specification at (b, d), for all arrays. -/
theorem kout_eq_outval (b : Fin 4096) (d : Fin 1024) : kout x Wk bk V a b d = outval x Wk bk V a b d := by
  unfold kout outval
  simp only [kbase_eq, ks_eq, kterm_eq]
  rw [zero_add]
  exact congrArg (base x V a b d + ·) (sum_layers fun l => sval x Wk bk l b * termval x Wk bk l b d)

end Cert.Bridge

end
-- ==== Proof.Assemble.lean ====
/-
  The five claims. The kernel's result array is read off its run: the main region's four write-backs cover it, each
  block holding the output accumulator at the row block's last point, which is (a + x·G) + Σₗ sₗ ⊙ Tₗ with G the Gram
  matrix the first region left and the arrays the host operations staged being x, W, V, the bias and a themselves (a
  change of float format is the identity on the extended reals). That closed form is the reference's specification
  (sums over tiles are sums over the whole axis; products commute), and the reference's run ends at the specification
  of the same arguments. The three frames are the runs with the result dropped.
-/
import proofs.«102676_j85581518340279_1_alg».proof.Proof.Run
import proofs.«102676_j85581518340279_1_alg».proof.Proof.Bits.Run
import proofs.«102676_j85581518340279_1_alg».proof.Proof.K0Value
import proofs.«102676_j85581518340279_1_alg».proof.Proof.K1Final
import proofs.«102676_j85581518340279_1_alg».proof.Proof.HostVals
import proofs.«102676_j85581518340279_1_alg».proof.Proof.Bridge
import proofs.«102676_j85581518340279_1_alg».proof.Proof.RefValue
import proofs.«102676_j85581518340279_1_alg».proof.Defs
import proofs.«102676_j85581518340279_1_alg».proof.Proof.Gen.Pre_finite_inputs

noncomputable section

namespace Cert.Proof.Assemble

open Idealize.ShloMosaic Idealize.ShloMosaic.TcCoe Idealize.SL.Sem
open Idealize.ShloMosaic.ValueIdx
open scoped BigOperators

section KernelValue

open Cert.KernelIdeal Cert.KernelIdeal.Gen Cert.KernelIdeal.Hand

variable (m : (ℓ : Loc nD τ sig) → Buf (Elt Ideal) ℓ) (ρ : Dev nD → PrngReg) (c : Dev nD)

/-- The arrays the main region reads are the arguments themselves. -/
theorem xA_eq : xA (V2 m ρ) c = m ((c.tc : Thread nD τ).loc main_arg0) :=
  funext fun j => by rw [eq_ix2 j]; exact v0_at m ρ c _ _
theorem wA_eq : wA (V2 m ρ) c = m ((c.tc : Thread nD τ).loc main_arg1) :=
  funext fun j => by rw [eq_ix3 j]; exact v1_at m ρ c _ _ _
theorem bA_eq : bA (V2 m ρ) c = m ((c.tc : Thread nD τ).loc main_arg2) :=
  funext fun j => by rw [eq_ix2 j]; exact arg2_at m ρ c _ _

/-- What the first region left in its output array is the Gram matrix of V's columns. -/
theorem gram_at (k d : Fin 1024) :
    V2 m ρ c main_v4 (ix2 k d) = KSpec.gram (m ((c.tc : Thread nD τ).loc main_arg3)) k d := by
  rw [v4_eq, final0]
  show KSpec.gram (V1 m ρ c main_v2) k d = _
  refine congrArg (fun V => KSpec.gram V k d) (funext fun j => ?_)
  rw [eq_ix2 j]; exact v2_at m ρ c _ _

/-- The kernel's result array is the closed form of the arguments, hence the reference's specification of them. -/
theorem kernel_result :
    (dat1 (F := Ideal) (V2 m ρ) c).arrAt 5 cfg1.N
      = Cert.ReferenceIdeal.RefValue.spec (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  rw [final1]
  funext i
  obtain ⟨b, d, rfl⟩ : ∃ (b : Fin 4096) (d : Fin 1024), i = ix2 b d := ⟨i 0, i 1, eq_ix2 i⟩
  refine Eq.trans ?_ (Cert.Bridge.kout_eq_outval _ _ _ _ _ b d)
  show base1 (V2 m ρ) c b d + ∑ l ∈ Finset.range 8, KSpec.ks (xA (V2 m ρ) c) (wA (V2 m ρ) c) (bA (V2 m ρ) c) l b * KSpec.kterm (xA (V2 m ρ) c) (wA (V2 m ρ) c) (bA (V2 m ρ) c) l b d = _
  have hbase : base1 (V2 m ρ) c b d = KSpec.kbase (m ((c.tc : Thread nD τ).loc main_arg0)) (m ((c.tc : Thread nD τ).loc main_arg3)) (m ((c.tc : Thread nD τ).loc main_arg4)) b d := by
    unfold base1 KSpec.kbase
    refine congrArg₂ (· + ·) (v3_at m ρ c d) (Finset.sum_congr rfl fun k _ => ?_)
    exact congrArg₂ (· * ·) (v0_at m ρ c b k) (gram_at m ρ c k d)
  rw [hbase, xA_eq, wA_eq, bA_eq]
  rfl

end KernelValue

/-! ## The claims -/

theorem frame_k : Cert.frame_Kernel := fun m ρ _ =>
  (θ_run Cert.Kernel.defs _ _).mono (fun _ h c => (h c).2) (Cert.Kernel.Hand.run_main (F := Bits) m ρ)

theorem frame_ki : Cert.frame_KernelIdeal := fun m ρ _ =>
  (θ_run Cert.KernelIdeal.defs _ _).mono (fun _ h c => (h c).2) (Cert.KernelIdeal.Hand.run_main (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs, run from memories agreeing on the arguments, end with the specification of those arguments
    in their result arrays. -/
theorem algebraic : Cert.algebraic_KernelIdeal_ReferenceIdeal := by
  intro m ρ m' ρ' _ hagree
  refine ⟨fun c => Cert.ReferenceIdeal.RefValue.spec (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono (fun _ h c => ⟨(h c).1.trans (kernel_result m ρ c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.res_eq, (hagree c).1, (hagree c).2.1, (hagree c).2.2.1, (hagree c).2.2.2.1, (hagree c).2.2.2.2]

end Cert.Proof.Assemble

end
-- ==== Proof.lean ====
/- The certificate's five claims for the two-region kernel out = a + x·(VᵀV) + Σₗ sₗ ⊙ (tanh(Zₗ)·Wₗ) against its reference program:
   the three programs run to the end leaving their arguments unchanged, the idealization rewrote nothing, and at the
   extended reals both idealized programs end with the same result array — the kernel's tile-by-tile, layer-by-layer
   accumulation is the reference's whole sums re-associated. The programs' stated facts are witnessed first; the five claims follow from the
   two value theorems. -/
import proofs.«102676_j85581518340279_1_alg».proof.Defs
import proofs.«102676_j85581518340279_1_alg».proof.Proof.Gen.Kernel
import proofs.«102676_j85581518340279_1_alg».proof.Proof.Gen.Kernel.Skeleton
import proofs.«102676_j85581518340279_1_alg».proof.Proof.Gen.Kernel.Launch
import proofs.«102676_j85581518340279_1_alg».proof.Proof.Gen.Kernel.Regions
import proofs.«102676_j85581518340279_1_alg».proof.Proof.Gen.Kernel.Points
import proofs.«102676_j85581518340279_1_alg».proof.Proof.Gen.KernelIdeal
import proofs.«102676_j85581518340279_1_alg».proof.Proof.Gen.KernelIdeal.Skeleton
import proofs.«102676_j85581518340279_1_alg».proof.Proof.Gen.KernelIdeal.Launch
import proofs.«102676_j85581518340279_1_alg».proof.Proof.Gen.KernelIdeal.Regions
import proofs.«102676_j85581518340279_1_alg».proof.Proof.Gen.KernelIdeal.Points
import proofs.«102676_j85581518340279_1_alg».proof.Proof.Gen.ReferenceIdeal
import proofs.«102676_j85581518340279_1_alg».proof.Proof.Gen.Pre_finite_inputs
import proofs.«102676_j85581518340279_1_alg».proof.Proof.Gen.ReferenceIdeal.Run
import proofs.«102676_j85581518340279_1_alg».proof.Proof.Gen.ReferenceIdeal.Read
import proofs.«102676_j85581518340279_1_alg».proof.Proof.Assemble
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts, Cert.Proof.Assemble.frame_k, Cert.Proof.Assemble.frame_ki, Cert.Proof.Assemble.frame_ri, Cert.Proof.Assemble.preserves,
  Cert.Proof.Assemble.algebraic⟩

end Cert.Proof

end
